-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S8192x1024 : Shape := ⟨2, ![8192, 1024]⟩
abbrev S8192 : Shape := ⟨1, ![8192]⟩
abbrev S1024x8192 : Shape := ⟨2, ![1024, 8192]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192 : S_.BroadcastsInDim S8192 (![] : Fin 0 → Fin S8192.rank)
  reducesTo_S8192_S_d0 : S8192.ReducesTo [0] S_
  bcast_S_S1024x8192 : S_.BroadcastsInDim S1024x8192 (![] : Fin 0 → Fin S1024x8192.rank)
  reducesTo_S1024x8192_S_d0_1 : S1024x8192.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x8192 .f32) (main_arg8 : FVec F S1024 .f32) (main_v33 : IVec S_ 1) : IVec S_ 1 :=
  let main_v34 : FVec F S1024x8192 .f32 := Host.absf main_arg7
  let main_cst_12 : FVec F S_ .f32 := constant S_ .f32 0x7F800000#32
  let main_v35 : FVec F S1024x8192 .f32 := broadcastInDim S1024x8192 ![] bcast_S_S1024x8192 main_cst_12
  let main_v36 : IVec S1024x8192 1 := cmpf .olt main_v34 main_v35
  let main_c_13 : IVec S_ 1 := constantI S_ 1 1#1
  let main_v37 : IVec S_ 1 := (fun x v => Host.reduce IntOp.andi x v reducesTo_S1024x8192_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S8192 .f32) (main_arg5 : FVec F S8192x1024 .f32) (main_arg6 : FVec F S8192 .f32) (main_arg7 : FVec F S1024x8192 .f32) (main_arg8 : FVec F S1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_v33

def fn {F : FTy → Type} [FloatOps F] (main_arg0 : FVec F S1024x2048 .f32) (main_arg1 : FVec F S8192x1024 .f32) (main_arg2 : FVec F S8192 .f32) (main_arg3 : FVec F S8192x1024 .f32) (main_arg4 : FVec F S8192 .f32) (main_arg5 : FVec F S8192x1024 .f32) (main_arg6 : FVec F S8192 .f32) (main_arg7 : FVec F S1024x8192 .f32) (main_arg8 : FVec F S1024 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_v13 main_v16
-- ==== Kernel.lean ====
abbrev S1024x2048 : Shape := ⟨2, ![1024, 2048]⟩
abbrev S8192x1024 : Shape := ⟨2, ![8192, 1024]⟩
abbrev S8192 : Shape := ⟨1, ![8192]⟩
abbrev S1024x8192 : Shape := ⟨2, ![1024, 8192]⟩
abbrev S1024 : Shape := ⟨1, ![1024]⟩
abbrev S24576x1024 : Shape := ⟨2, ![24576, 1024]⟩
abbrev S24576 : Shape := ⟨1, ![24576]⟩
abbrev S24576x1 : Shape := ⟨2, ![24576, 1]⟩
abbrev S24576x2048 : Shape := ⟨2, ![24576, 2048]⟩
abbrev S1024x1024 : Shape := ⟨2, ![1024, 1024]⟩
abbrev S1024x512 : Shape := ⟨2, ![1024, 512]⟩
abbrev S1024x1 : Shape := ⟨2, ![1024, 1]⟩
abbrev S8192x2048 : Shape := ⟨2, ![8192, 2048]⟩
abbrev S2048x8x1024 : Shape := ⟨3, ![2048, 8, 1024]⟩
abbrev S8x1024x2048 : Shape := ⟨3, ![8, 1024, 2048]⟩
abbrev S8x1024x256 : Shape := ⟨3, ![8, 1024, 256]⟩
abbrev S8x1024x128 : Shape := ⟨3, ![8, 1024, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 29
  | .vmem => 24
  | .smem => 0
  | _ => 0

abbrev bufTy : (tb : Table) → Fin (tcTables nBuf tb) → BufTy
  | .hbm, ⟨0, _⟩ => ⟨S1024x2048, .f32⟩
  | .hbm, ⟨1, _⟩ => ⟨S8192x1024, .f32⟩
  | .hbm, ⟨2, _⟩ => ⟨S8192, .f32⟩
  | .hbm, ⟨3, _⟩ => ⟨S8192x1024, .f32⟩
  | .hbm, ⟨4, _⟩ => ⟨S8192, .f32⟩
  | .hbm, ⟨5, _⟩ => ⟨S8192x1024, .f32⟩
  | .hbm, ⟨6, _⟩ => ⟨S8192, .f32⟩
  | .hbm, ⟨7, _⟩ => ⟨S1024x8192, .f32⟩
  | .hbm, ⟨8, _⟩ => ⟨S1024, .f32⟩
  | .hbm, ⟨9, _⟩ => ⟨S1024x2048, .bf16⟩
  | .hbm, ⟨10, _⟩ => ⟨S24576x1024, .f32⟩
  | .hbm, ⟨11, _⟩ => ⟨S24576x1024, .bf16⟩
  | .hbm, ⟨12, _⟩ => ⟨S24576, .f32⟩
  | .hbm, ⟨13, _⟩ => ⟨S24576x1, .f32⟩
  | .hbm, ⟨14, _⟩ => ⟨S24576x2048, .bf16⟩
  | .hbm, ⟨15, _⟩ => ⟨S8192x2048, .bf16⟩
  | .hbm, ⟨16, _⟩ => ⟨S8192x2048, .bf16⟩
  | .hbm, ⟨17, _⟩ => ⟨S8192x2048, .bf16⟩
  | .hbm, ⟨18, _⟩ => ⟨S2048x8x1024, .bf16⟩
  | .hbm, ⟨19, _⟩ => ⟨S8x1024x2048, .bf16⟩
  | .hbm, ⟨20, _⟩ => ⟨S2048x8x1024, .bf16⟩
  | .hbm, ⟨21, _⟩ => ⟨S8x1024x2048, .bf16⟩
  | .hbm, ⟨22, _⟩ => ⟨S2048x8x1024, .bf16⟩
  | .hbm, ⟨23, _⟩ => ⟨S8x1024x2048, .bf16⟩
  | .hbm, ⟨24, _⟩ => ⟨S8x1024x2048, .bf16⟩
  | .hbm, ⟨25, _⟩ => ⟨S8192x2048, .bf16⟩
  | .hbm, ⟨26, _⟩ => ⟨S1024x8192, .bf16⟩
  | .hbm, ⟨27, _⟩ => ⟨S1024x1, .f32⟩
  | .hbm, ⟨28, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1024x512, .bf16⟩
  | .local _ .vmem, ⟨7, _⟩ => ⟨S1024x512, .bf16⟩
  | .local _ .vmem, ⟨8, _⟩ => ⟨S8x1024x256, .bf16⟩
  | .local _ .vmem, ⟨9, _⟩ => ⟨S8x1024x128, .bf16⟩
  | .local _ .vmem, ⟨10, _⟩ => ⟨S8x1024x128, .bf16⟩
  | .local _ .vmem, ⟨11, _⟩ => ⟨S8x1024x128, .bf16⟩
  | .local _ .vmem, ⟨12, _⟩ => ⟨S8x1024x128, .bf16⟩
  | .local _ .vmem, ⟨13, _⟩ => ⟨S8x1024x256, .bf16⟩
  | .local _ .vmem, ⟨14, _⟩ => ⟨S8x1024x256, .bf16⟩
  | .local _ .vmem, ⟨15, _⟩ => ⟨S8x1024x256, .f32⟩
  | .local _ .vmem, ⟨16, _⟩ => ⟨S1024x1024, .bf16⟩
  | .local _ .vmem, ⟨17, _⟩ => ⟨S1024x1024, .bf16⟩
  | .local _ .vmem, ⟨18, _⟩ => ⟨S1024x512, .bf16⟩
  | .local _ .vmem, ⟨19, _⟩ => ⟨S1024x512, .bf16⟩
  | .local _ .vmem, ⟨20, _⟩ => ⟨S1024x1, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![24, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_19 : BitVec 32 := 0#32
  let v30 : BitVec 1 := Scalar.cmpi .ne v29 c0_i32_19
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S8x1024x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S8x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨3, ![1, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false, false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  concatenates_S8192x1024_S8192x1024_S8192x1024_S24576x1024_d0 : Shape.Concatenates [S8192x1024, S8192x1024, S8192x1024] S24576x1024 0
  concatenates_S8192_S8192_S8192_S24576_d0 : Shape.Concatenates [S8192, S8192, S8192] S24576 0
  shapeCasts_S24576_S24576x1 : S24576.ShapeCasts S24576x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  slices_S24576x2048_S8192x2048_0_0 : S24576x2048.Slices ![0, 0] S8192x2048
  slices_S24576x2048_S8192x2048_8192_0 : S24576x2048.Slices ![8192, 0] S8192x2048
  slices_S24576x2048_S8192x2048_16384_0 : S24576x2048.Slices ![16384, 0] S8192x2048
  shapeCasts_S8192x2048_S2048x8x1024 : S8192x2048.ShapeCasts S2048x8x1024
  transposes_S2048x8x1024_S8x1024x2048_1_2_0 : S2048x8x1024.Transposes [1, 2, 0] S8x1024x2048
  inb_S8x1024x256_S8x1024x256_0_0_0 : ∀ a, (![0, 0, 0] : Fin 3 → Nat) a + S8x1024x256.size a ≤ S8x1024x256.size a
  h_S8x1024x256 : 0 < S8x1024x256.numel
  shapeCasts_S8x1024x256_S8x1024x256 : S8x1024x256.ShapeCasts S8x1024x256
  inb_S8x1024x128_S8x1024x128_0_0_0 : ∀ a, (![0, 0, 0] : Fin 3 → Nat) a + S8x1024x128.size a ≤ S8x1024x128.size a
  h_S8x1024x128 : 0 < S8x1024x128.numel
  shapeCasts_S8x1024x128_S8x1024x128 : S8x1024x128.ShapeCasts S8x1024x128
  reduces_S8x256x128_S256x128 : S8x256x128.Reduces [0] S256x128
  shapeCasts_S256x128_S1x256x128 : S256x128.ShapeCasts S1x256x128
  broadcasts_S1x256x128_S8x256x128 : S1x256x128.Broadcasts S8x256x128
  packedbf16_S8x1024x256_S8x1024x256_0_0_0 : (Rect.unit (s := S8x1024x256) ![0, 0, 0] S8x1024x256.size inb_S8x1024x256_S8x1024x256_0_0_0).PackedRows (EltTy.packing .bf16)
  shapeCasts_S8x1024x2048_S8192x2048 : S8x1024x2048.ShapeCasts S8192x2048
  shapeCasts_S1024_S1024x1 : S1024.ShapeCasts S1024x1
  dot_S1024x1024_S1024x512_S1024x512_1_0_0_1_n_n_wf : DotDims.WF S1024x1024 S1024x512 S1024x512 [1] [0] [0] [1] [] []
  dot_S8x1024x256_S8x1024x128_S8x256x128_1_1_2_2_0_0_wf : DotDims.WF S8x1024x256 S8x1024x128 S8x256x128 [1] [1] [2] [2] [0] [0]
  dot_S8x1024x128_S8x256x128_S8x1024x256_2_2_1_1_0_0_wf : DotDims.WF S8x1024x128 S8x256x128 S8x1024x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S24576x1024.size a
  hwx0_0 : ∀ i : grid0.Coords, EltTy.bits .bf16 = 32 ∨ (Rect.block (s := S24576x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x2048.size a
  hwx0_1 : ∀ i : grid0.Coords, EltTy.bits .bf16 = 32 ∨ (Rect.block (s := S1024x2048) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S24576x1.size a
  hwx0_2 : ∀ i : grid0.Coords, EltTy.bits .f32 = 32 ∨ (Rect.block (s := S24576x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S24576x2048.size a
  hwx0_3 : ∀ i : grid0.Coords, EltTy.bits .bf16 = 32 ∨ (Rect.block (s := S24576x2048) S1024x512.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x1024x256.size a ≤ S8x1024x2048.size a
  hwx1_0 : ∀ i : grid1.Coords, EltTy.bits .bf16 = 32 ∨ (Rect.block (s := S8x1024x2048) S8x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1024x128.size a ≤ S8x1024x2048.size a
  hwx1_1 : ∀ i : grid1.Coords, EltTy.bits .bf16 = 32 ∨ (Rect.block (s := S8x1024x2048) S8x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1024x128.size a ≤ S8x1024x2048.size a
  hwx1_2 : ∀ i : grid1.Coords, EltTy.bits .bf16 = 32 ∨ (Rect.block (s := S8x1024x2048) S8x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1024x256.size a ≤ S8x1024x2048.size a
  hwx1_3 : ∀ i : grid1.Coords, EltTy.bits .bf16 = 32 ∨ (Rect.block (s := S8x1024x2048) S8x1024x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S1024x8192.size a
  hwx2_0 : ∀ i : grid2.Coords, EltTy.bits .bf16 = 32 ∨ (Rect.block (s := S1024x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x2048.size a
  hwx2_1 : ∀ i : grid2.Coords, EltTy.bits .bf16 = 32 ∨ (Rect.block (s := S8192x2048) S1024x512.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S1024x1.size a
  hwx2_2 : ∀ i : grid2.Coords, EltTy.bits .f32 = 32 ∨ (Rect.block (s := S1024x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S1024x2048.size a
  hwx2_3 : ∀ i : grid2.Coords, EltTy.bits .f32 = 32 ∨ (Rect.block (s := S1024x2048) S1024x512.size (cc2_transform_3 i) (hinb2_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S8x1024x256_S8x1024x128_S8x256x128_1_1_2_2_0_0 : DotDims S8x1024x256 S8x1024x128 S8x256x128 where
  lhsContracting := [1]
  rhsContracting := [1]
  lhsNonContracting := [2]
  rhsNonContracting := [2]
  lhsBatch := [0]
  rhsBatch := [0]
  wf := dot_S8x1024x256_S8x1024x128_S8x256x128_1_1_2_2_0_0_wf
def dot_S8x1024x128_S8x256x128_S8x1024x256_2_2_1_1_0_0 : DotDims S8x1024x128 S8x256x128 S8x1024x256 where
  lhsContracting := [2]
  rhsContracting := [2]
  lhsNonContracting := [1]
  rhsNonContracting := [1]
  lhsBatch := [0]
  rhsBatch := [0]
  wf := dot_S8x1024x128_S8x256x128_S8x1024x256_2_2_1_1_0_0_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S8x1024x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S8x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S8x1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v17) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1024x1.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S1024x2048 : Shape := ⟨2, ![1024, 2048]⟩
abbrev S8192x1024 : Shape := ⟨2, ![8192, 1024]⟩
abbrev S8192 : Shape := ⟨1, ![8192]⟩
abbrev S1024x8192 : Shape := ⟨2, ![1024, 8192]⟩
abbrev S1024 : Shape := ⟨1, ![1024]⟩
abbrev S8192x2048 : Shape := ⟨2, ![8192, 2048]⟩
abbrev S8192x1 : Shape := ⟨2, ![8192, 1]⟩
abbrev S2048x8x1024 : Shape := ⟨3, ![2048, 8, 1024]⟩
abbrev S8x1024x2048 : Shape := ⟨3, ![8, 1024, 2048]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S1024x1 : Shape := ⟨2, ![1024, 1]⟩

abbrev nBuf : Space → Nat
  | .hbm => 51
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8192x1024, .f32⟩
  | .hbm, ⟨2, _⟩ => ⟨S8192, .f32⟩
  | .hbm, ⟨3, _⟩ => ⟨S8192x1024, .f32⟩
  | .hbm, ⟨4, _⟩ => ⟨S8192, .f32⟩
  | .hbm, ⟨5, _⟩ => ⟨S8192x1024, .f32⟩
  | .hbm, ⟨6, _⟩ => ⟨S8192, .f32⟩
  | .hbm, ⟨7, _⟩ => ⟨S1024x8192, .f32⟩
  | .hbm, ⟨8, _⟩ => ⟨S1024, .f32⟩
  | .hbm, ⟨9, _⟩ => ⟨S8192x2048, .f32⟩
  | .hbm, ⟨10, _⟩ => ⟨S8192x1, .f32⟩
  | .hbm, ⟨11, _⟩ => ⟨S8192x2048, .f32⟩
  | .hbm, ⟨12, _⟩ => ⟨S8192x2048, .f32⟩
  | .hbm, ⟨13, _⟩ => ⟨S2048x8x1024, .f32⟩
  | .hbm, ⟨14, _⟩ => ⟨S8x1024x2048, .f32⟩
  | .hbm, ⟨15, _⟩ => ⟨S8192x2048, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S2048x8x1024, .f32⟩
  | .hbm, ⟨20, _⟩ => ⟨S8x1024x2048, .f32⟩
  | .hbm, ⟨21, _⟩ => ⟨S8192x2048, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S2048x8x1024, .f32⟩
  | .hbm, ⟨26, _⟩ => ⟨S8x1024x2048, .f32⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S1x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S2048x2048, .f32⟩
  | .hbm, ⟨42, _⟩ => ⟨S1x2048x2048, .f32⟩
  | .hbm, ⟨43, _⟩ => ⟨S8x2048x2048, .f32⟩
  | .hbm, ⟨44, _⟩ => ⟨S8x2048x2048, .f32⟩
  | .hbm, ⟨45, _⟩ => ⟨S8x1024x2048, .f32⟩
  | .hbm, ⟨46, _⟩ => ⟨S8192x2048, .f32⟩
  | .hbm, ⟨47, _⟩ => ⟨S1024x2048, .f32⟩
  | .hbm, ⟨48, _⟩ => ⟨S1024x1, .f32⟩
  | .hbm, ⟨49, _⟩ => ⟨S1024x2048, .f32⟩
  | .hbm, ⟨50, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  shapeCasts_S8192x2048_S2048x8x1024 : S8192x2048.ShapeCasts S2048x8x1024
  transposes_S2048x8x1024_S8x1024x2048_1_2_0 : S2048x8x1024.Transposes [1, 2, 0] S8x1024x2048
  bcast_S_S8x2048x2048 : S_.BroadcastsInDim S8x2048x2048 (![] : Fin 0 → Fin S8x2048x2048.rank)
  reducesTo_S8x2048x2048_S2048x2048_d0 : S8x2048x2048.ReducesTo [0] S2048x2048
  h_S_ : 0 < S_.numel
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  shapeCasts_S8x1024x2048_S8192x2048 : S8x1024x2048.ShapeCasts S8192x2048
  bcast_S1024_S1024x1_0 : S1024.BroadcastsInDim S1024x1 (![0] : Fin 1 → Fin S1024x1.rank)
  bcast_S1024x1_S1024x2048_0_1 : S1024x1.BroadcastsInDim S1024x2048 (![0, 1] : Fin 2 → Fin S1024x2048.rank)
  dot_S8192x1024_S1024x2048_S8192x2048_1_0_0_1_n_n_wf : DotDims.WF S8192x1024 S1024x2048 S8192x2048 [1] [0] [0] [1] [] []
  dot_S8x1024x2048_S8x1024x2048_S8x2048x2048_1_1_2_2_0_0_wf : DotDims.WF S8x1024x2048 S8x1024x2048 S8x2048x2048 [1] [1] [2] [2] [0] [0]
  dot_S8x1024x2048_S8x2048x2048_S8x1024x2048_2_2_1_1_0_0_wf : DotDims.WF S8x1024x2048 S8x2048x2048 S8x1024x2048 [2] [2] [1] [1] [0] [0]
  dot_S1024x8192_S8192x2048_S1024x2048_1_0_0_1_n_n_wf : DotDims.WF S1024x8192 S8192x2048 S1024x2048 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8x1024x2048_S8x1024x2048_S8x2048x2048_1_1_2_2_0_0 : DotDims S8x1024x2048 S8x1024x2048 S8x2048x2048 where
  lhsContracting := [1]
  rhsContracting := [1]
  lhsNonContracting := [2]
  rhsNonContracting := [2]
  lhsBatch := [0]
  rhsBatch := [0]
  wf := dot_S8x1024x2048_S8x1024x2048_S8x2048x2048_1_1_2_2_0_0_wf
def dot_S8x1024x2048_S8x2048x2048_S8x1024x2048_2_2_1_1_0_0 : DotDims S8x1024x2048 S8x2048x2048 S8x1024x2048 where
  lhsContracting := [2]
  rhsContracting := [2]
  lhsNonContracting := [1]
  rhsNonContracting := [1]
  lhsBatch := [0]
  rhsBatch := [0]
  wf := dot_S8x1024x2048_S8x2048x2048_S8x1024x2048_2_2_1_1_0_0_wf
def dot_S1024x8192_S8192x2048_S1024x2048_1_0_0_1_n_n : DotDims S1024x8192 S8192x2048 S1024x2048 where
  lhsContracting := [1]
  rhsContracting := [0]
  lhsNonContracting := [0]
  rhsNonContracting := [1]
  lhsBatch := []
  rhsBatch := []
  wf := dot_S1024x8192_S8192x2048_S1024x2048_1_0_0_1_n_n_wf

class Facts : Prop extends Facts₀ where

variable [Facts]
-- ==== Proof.Kernel.Region0.lean ====
/-
  The fused query/key/value projection, region by itself: one grid point multiplies a 1024-row band of the
  stacked weight matrix by a 512-column band of the tokens, adds the band's bias column to every column and
  stores the 1024 x 512 block whole. Stated at ANY contents `V` of the core's buffers when the region is
  entered: what each window's staging buffer holds after the body, the body's triple, and the obligation
  the launch asks for at every grid point. Nothing is carried from one point to the next.
-/
import proofs.«150687_j35459249996685_2_alg».proof.Proof.Gen.Kernel.Launch
import proofs.«150687_j35459249996685_2_alg».proof.Proof.Gen.Kernel.Skeleton
import proofs.«150687_j35459249996685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Block `t` of window `w`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the point fetched it: an unfetched
    point has the index of the point before, and the body leaves the buffer as it found it. -/
theorem in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem in0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body's four accesses: each the whole of its buffer. -/
abbrev rW0 : Rect S1024x1024 := Rect.unit (s := S1024x1024) ![0, 0] S1024x1024.size inb_S1024x1024_S1024x1024_0_0
abbrev rX0 : Rect S1024x512 := Rect.unit (s := S1024x512) ![0, 0] S1024x512.size inb_S1024x512_S1024x512_0_0
abbrev rB0 : Rect S1024x1 := Rect.unit (s := S1024x1) ![0, 0] S1024x1.size inb_S1024x1_S1024x1_0_0

/-- What the body leaves in the output block: the one store, of the product plus the bias column. -/
def proj0 (w : Vec F S1024x1024 .bf16) (x : Vec F S1024x512 .bf16) (b : Vec F S1024x1 .f32) : Vec F S1024x512 .bf16 :=
  View.canon [⟨rX0, k0_pay1 (View.ld w rW0) (View.ld x rX0) (View.ld b rB0)⟩]

/-- The one store is the whole block. -/
theorem proj0_cover (p0 : Vec F S1024x512 .bf16) (y : S1024x512.Idx) :
    ∃ pc ∈ ([⟨rX0, p0⟩] : List (View.Piece (Elt F) S1024x512 .bf16)), y ∈ pc.1.set :=
  View.cover_of_tiled [⟨rX0, p0⟩] S1024x512.size (by rfl) y

set_option maxHeartbeats 1000000 in
/-- The body on whole staging buffers: the three inputs are read and kept, the output buffer ends at `proj0` of them
    whatever it held. -/
theorem run0 (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1024x512 .bf16) (harg5 : arg5.IsWhole)
    (w : Vec F S1024x1024 .bf16) (x : Vec F S1024x512 .bf16) (b : Vec F S1024x1 .f32) (K : PUnit → sProp 𝕄) :
    iprop(owns (c : Thread nD τ) arg2 fullShare w ∗ owns (c : Thread nD τ) arg3 fullShare x ∗ owns (c : Thread nD τ) arg4 fullShare b
        ∗ (∃ d, owns (c : Thread nD τ) arg5 fullShare d)
        ∗ (iprop(owns (c : Thread nD τ) arg2 fullShare w ∗ owns (c : Thread nD τ) arg3 fullShare x ∗ owns (c : Thread nD τ) arg4 fullShare b
            ∗ owns (c : Thread nD τ) arg5 fullShare (proj0 w x b)) -∗ K ⟨⟩))
      ⊢ wp frame (wpE (defs₀ (F := F)) Variants.none c none) E (cc0__linear_kernel_single i arg2 harg2 arg3 harg3 arg4 harg4 arg5 harg5) K := by
  simp only [cc0__linear_kernel_single_eq_skeleton]; unfold cc0__linear_kernel_single_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (proj0_cover _)

/-- The region's proof data on core `c`: the arrays as found; after the body each input's buffer at its block and the
    output's at `proj0` of the three input blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => proj0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) :
    (dat0 V c).after 3 t = proj0 (blk0 V c 0 t) (blk0 V c 1 t) (blk0 V c 2 t) := by dsimp only [dat0]

theorem dat0_before_0 (c : Dev nD) (t : Fin cfg0.N) (d) : (dat0 V c).before 0 t d = blk0 V c 0 t :=
  in0_0_of V (dat0 V c) (dat0_A V c 0) (dat0_after_0 V c) t d
theorem dat0_before_1 (c : Dev nD) (t : Fin cfg0.N) (d) : (dat0 V c).before 1 t d = blk0 V c 1 t :=
  in0_1_of V (dat0 V c) (dat0_A V c 1) (dat0_after_1 V c) t d
theorem dat0_before_2 (c : Dev nD) (t : Fin cfg0.N) (d) : (dat0 V c).before 2 t d = blk0 V c 2 t :=
  in0_2_of V (dat0 V c) (dat0_A V c 2) (dat0_after_2 V c) t d

/-- What the body is entered with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1, dat0_before_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (run0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's obligation for the body, at every point. -/
theorem obligation0 (c : Dev nD) : BodyObligation (dat0 (F := F) V c) (defs₀ (F := F)) Variants.none () Set.univ := fun t => by
  rw [bigSep_W0, bigSep_W0]
  exact body0 V c t

end Region0

end Cert.Kernel.Hand

end
-- ==== Proof.Kernel.Region1Runs.lean ====
/-
  The attention core, region by itself, first half: the body's runs. One grid point (i, j) takes the 256 query positions of
  tile i and the 128 key positions of tile j for all eight heads: the scaled scores, their softmax ACROSS THE HEADS at each
  (query, key) pair, and the weighted sum of the values over the tile's keys, added to an accumulator kept in a scoped buffer
  from one point to the next: reset at j = 0, stored into the output block i at j = 15. Three cases of the two conditions meet
  the grid (first, middle, last); each case's run finds the pieces it stores.
-/
import proofs.«150687_j35459249996685_2_alg».proof.Proof.Gen.Kernel.Launch
import proofs.«150687_j35459249996685_2_alg».proof.Proof.Gen.Kernel.Skeleton
import proofs.«150687_j35459249996685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Block `t` of window `w`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the point's block whether or not the point fetched it. -/
theorem in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Input window 1's staging buffer holds the point's block whether or not the point fetched it. -/
theorem in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Input window 2's staging buffer holds the point's block whether or not the point fetched it. -/
theorem in1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two conditions on the reduction coordinate, and where the output window is idle -/

/-- The body's first branch: the reduction coordinate is 0 (the accumulator is reset). -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 16 = 0 :=
  (by decide +kernel : ∀ t : Fin grid1.N, first1 (grid1.coords t) ↔ t.val % 16 = 0)
/-- The body's second branch: the reduction coordinate is the last (the accumulator is written out). -/
abbrev last1 (i : grid1.Coords) : Prop := k1_cond2 i = 1#1
theorem last1_iff : ∀ t : Fin cfg1.N, last1 (grid1.coords t) ↔ t.val % 16 = 15 :=
  (by decide +kernel : ∀ t : Fin grid1.N, last1 (grid1.coords t) ↔ t.val % 16 = 15)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last reduction step the output window is idle and not written back. -/
theorem idle1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel
theorem live1_3 : ∀ t : Fin cfg1.N, last1 (grid1.coords t) → cfg1.idle 3 (grid1.coords t) = false := by decide +kernel

/-! ## The buffers the body is called with -/

abbrev m1_0 (t : Fin cfg1.N) : Memref sig .tc .vmem S8x1024x256 .bf16 := win1_0.stage (cfg1.slots t 0)
abbrev h1_0 (t : Fin cfg1.N) : (m1_0 t).IsWhole := hstage1_0 ((cfg1.slots t 0).cast nbuf1_0)
abbrev m1_1 (t : Fin cfg1.N) : Memref sig .tc .vmem S8x1024x128 .bf16 := win1_1.stage (cfg1.slots t 1)
abbrev h1_1 (t : Fin cfg1.N) : (m1_1 t).IsWhole := hstage1_1 ((cfg1.slots t 1).cast nbuf1_1)
abbrev m1_2 (t : Fin cfg1.N) : Memref sig .tc .vmem S8x1024x128 .bf16 := win1_2.stage (cfg1.slots t 2)
abbrev h1_2 (t : Fin cfg1.N) : (m1_2 t).IsWhole := hstage1_2 ((cfg1.slots t 2).cast nbuf1_2)
abbrev m1_3 (t : Fin cfg1.N) : Memref sig .tc .vmem S8x1024x256 .bf16 := win1_3.stage (cfg1.slots t 3)
abbrev h1_3 (t : Fin cfg1.N) : (m1_3 t).IsWhole := hstage1_3 ((cfg1.slots t 3).cast nbuf1_3)
/-- The accumulator: a scoped buffer of the kernel's own, kept from one grid point to the next. -/
abbrev scM1 : Memref sig .tc .vmem S8x1024x256 .f32 := Memref.whole cc1_scratch0
abbrev VS1 : View sig .tc .vmem S8x1024x256 .f32 := scM1.view
/-- One staging buffer of the output window, through which its contents are stated. -/
abbrev VO1 : View sig .tc .vmem S8x1024x256 .bf16 := (Memref.whole cc1_stg3_0 : Memref sig .tc .vmem S8x1024x256 .bf16).view

/-- Every other scoped buffer of the core (the other regions' staging buffers and accumulator), at anything. -/
def rest1 (c : Dev nD) : sProp 𝕄 :=
  Pipeline.scopedRestBut (Ix := Unit) (Name := ℕ) (U := UR sig nD τ) (Lvl := ℕ) (Val := Elt F) spec1 c [cc1_scratch0]

/-- What the launch hands the body beside the windows: the accumulator at anything, the other scoped buffers, the
    generator register. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA rest1
  rw [Pipeline.scopedRest_split_of_list spec1 c [cc1_scratch0] (by decide) (by decide)]
  simp only [scM1, owns_whole, bigSepL_singleton]
  rfl

/-! ## The body, case by case: what it stores, as pieces the run finds -/

set_option maxHeartbeats 1000000 in
/-- FIRST reduction step: the accumulator, at anything, is reset and the step's product added; the output buffer is not
    touched. The pieces left in the accumulator are found by the run. -/
noncomputable def runA1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : first1 i) (hl : ¬last1 i)
    (x0 : Vec F S8x1024x256 .bf16) (x1 : Vec F S8x1024x128 .bf16) (x2 : Vec F S8x1024x128 .bf16) :
    Σ' (L3 : List (View.Piece (Elt F) S8x1024x256 .bf16)), { LS : List (View.Piece (Elt F) S8x1024x256 .f32) //
      ∀ (xo : Vec F S8x1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨[], ?_, fun xo E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A MIDDLE reduction step: the step's product is added to what the accumulator held; the output buffer is not touched. -/
noncomputable def runB1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : ¬last1 i)
    (x0 : Vec F S8x1024x256 .bf16) (x1 : Vec F S8x1024x128 .bf16) (x2 : Vec F S8x1024x128 .bf16) (xs : Vec F S8x1024x256 .f32) :
    Σ' (L3 : List (View.Piece (Elt F) S8x1024x256 .bf16)), { LS : List (View.Piece (Elt F) S8x1024x256 .f32) //
      ∀ (xo : Vec F S8x1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨[], ?_, fun xo E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The LAST reduction step: the step's product is added to what the accumulator held, and the output buffer, at
    anything, is stored whole from the accumulator. -/
noncomputable def runC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i)
    (x0 : Vec F S8x1024x256 .bf16) (x1 : Vec F S8x1024x128 .bf16) (x2 : Vec F S8x1024x128 .bf16) (xs : Vec F S8x1024x256 .f32) :
    Σ' (L3 : List (View.Piece (Elt F) S8x1024x256 .bf16)), { LS : List (View.Piece (Elt F) S8x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Region1

end Cert.Kernel.Hand

end
-- ==== Proof.Kernel.Region1.lean ====
/-
  The attention core, region by itself, second half: what the output block and the accumulator hold after each grid point
  (by recursion on the point: the accumulator's contents pass from a point to the next), the region's invariant, the proof
  data, and the launch's obligation for the body at every point.
-/
import proofs.«150687_j35459249996685_2_alg».proof.Proof.Kernel.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Case A: the pieces stored into the accumulator tile it. -/
theorem scoverA1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : first1 i) (hl : ¬last1 i) (x0 : Vec F S8x1024x256 .bf16) (x1 : Vec F S8x1024x128 .bf16) (x2 : Vec F S8x1024x128 .bf16) (y : S8x1024x256.Idx) :
    ∃ pc ∈ (runA1 c i arg2 harg2 arg3 harg3 arg4 harg4 arg5 harg5 arg6 harg6 hf hl x0 x1 x2).2.1, y ∈ pc.1.set :=
  View.cover_of_tiledL (runA1 c i arg2 harg2 arg3 harg3 arg4 harg4 arg5 harg5 arg6 harg6 hf hl x0 x1 x2).2.1 S8x1024x256.size (by sl_kernel_rfl) y
/-- Case A: what the accumulator holds after the body, its pieces read back. -/
def accA1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : first1 i) (hl : ¬last1 i) (x0 : Vec F S8x1024x256 .bf16) (x1 : Vec F S8x1024x128 .bf16) (x2 : Vec F S8x1024x128 .bf16) : Vec F S8x1024x256 .f32 :=
  VS1.read (Elt F) (VS1.writes (Elt F) VS1.junk (runA1 c i arg2 harg2 arg3 harg3 arg4 harg4 arg5 harg5 arg6 harg6 hf hl x0 x1 x2).2.1)
/-- Case A: what the output buffer holds after the body (nothing is stored: a placeholder no one consults, the window being idle and not written back). -/
def outA1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : first1 i) (hl : ¬last1 i) (x0 : Vec F S8x1024x256 .bf16) (x1 : Vec F S8x1024x128 .bf16) (x2 : Vec F S8x1024x128 .bf16) : Vec F S8x1024x256 .bf16 :=
  VO1.read (Elt F) (VO1.writes (Elt F) VO1.junk (runA1 c i arg2 harg2 arg3 harg3 arg4 harg4 arg5 harg5 arg6 harg6 hf hl x0 x1 x2).1)
/-- Case B: the pieces stored into the accumulator tile it. -/
theorem scoverB1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : ¬last1 i) (x0 : Vec F S8x1024x256 .bf16) (x1 : Vec F S8x1024x128 .bf16) (x2 : Vec F S8x1024x128 .bf16) (xs : Vec F S8x1024x256 .f32) (y : S8x1024x256.Idx) :
    ∃ pc ∈ (runB1 c i arg2 harg2 arg3 harg3 arg4 harg4 arg5 harg5 arg6 harg6 hf hl x0 x1 x2 xs).2.1, y ∈ pc.1.set :=
  View.cover_of_tiledL (runB1 c i arg2 harg2 arg3 harg3 arg4 harg4 arg5 harg5 arg6 harg6 hf hl x0 x1 x2 xs).2.1 S8x1024x256.size (by sl_kernel_rfl) y
/-- Case B: what the accumulator holds after the body, its pieces read back. -/
def accB1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : ¬last1 i) (x0 : Vec F S8x1024x256 .bf16) (x1 : Vec F S8x1024x128 .bf16) (x2 : Vec F S8x1024x128 .bf16) (xs : Vec F S8x1024x256 .f32) : Vec F S8x1024x256 .f32 :=
  VS1.read (Elt F) (VS1.writes (Elt F) VS1.junk (runB1 c i arg2 harg2 arg3 harg3 arg4 harg4 arg5 harg5 arg6 harg6 hf hl x0 x1 x2 xs).2.1)
/-- Case B: what the output buffer holds after the body (nothing is stored: a placeholder no one consults, the window being idle and not written back). -/
def outB1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : ¬last1 i) (x0 : Vec F S8x1024x256 .bf16) (x1 : Vec F S8x1024x128 .bf16) (x2 : Vec F S8x1024x128 .bf16) (xs : Vec F S8x1024x256 .f32) : Vec F S8x1024x256 .bf16 :=
  VO1.read (Elt F) (VO1.writes (Elt F) VO1.junk (runB1 c i arg2 harg2 arg3 harg3 arg4 harg4 arg5 harg5 arg6 harg6 hf hl x0 x1 x2 xs).1)
/-- Case C: the pieces stored into the accumulator tile it. -/
theorem scoverC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) (y : S8x1024x256.Idx) :
    ∃ pc ∈ (runC1 c i arg2 harg2 arg3 harg3 arg4 harg4 arg5 harg5 arg6 harg6 hf hl x0 x1 x2 xs).2.1, y ∈ pc.1.set :=
  View.cover_of_tiledL (runC1 c i arg2 harg2 arg3 harg3 arg4 harg4 arg5 harg5 arg6 harg6 hf hl x0 x1 x2 xs).2.1 S8x1024x256.size (by sl_kernel_rfl) y
/-- Case C: what the accumulator holds after the body, its pieces read back. -/
def accC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) : Vec F S8x1024x256 .f32 :=
  VS1.read (Elt F) (VS1.writes (Elt F) VS1.junk (runC1 c i arg2 harg2 arg3 harg3 arg4 harg4 arg5 harg5 arg6 harg6 hf hl x0 x1 x2 xs).2.1)
/-- Case C: what the output buffer holds after the body. -/
def outC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) : Vec F S8x1024x256 .bf16 :=
  VO1.read (Elt F) (VO1.writes (Elt F) VO1.junk (runC1 c i arg2 harg2 arg3 harg3 arg4 harg4 arg5 harg5 arg6 harg6 hf hl x0 x1 x2 xs).1)
/-- Case C: the one store into the output buffer is the whole block. -/
theorem coverC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) (y : S8x1024x256.Idx) :
    ∃ pc ∈ (runC1 c i arg2 harg2 arg3 harg3 arg4 harg4 arg5 harg5 arg6 harg6 hf hl x0 x1 x2 xs).1, y ∈ pc.1.set :=
  View.cover_of_tiledL (runC1 c i arg2 harg2 arg3 harg3 arg4 harg4 arg5 harg5 arg6 harg6 hf hl x0 x1 x2 xs).1 S8x1024x256.size (by sl_kernel_rfl) y

/-! ## Point by point -/

/-- What the output buffer and the accumulator hold after the body at position `n`: the case the reduction coordinate
    selects, run on the point's blocks, from what the point before left in the accumulator. -/
def at1 (c : Dev nD) : (n : ℕ) → n < cfg1.N → Vec F S8x1024x256 .bf16 × Vec F S8x1024x256 .f32
  | 0, hn => (outA1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) scM1 (Memref.isWhole_whole _) ((first1_iff ⟨0, hn⟩).mpr (Nat.zero_mod _)) (fun h => (fun h => by (try dsimp only at h); omega) ((last1_iff ⟨0, hn⟩).mp h)) (blk1 V c 0 ⟨0, hn⟩) (blk1 V c 1 ⟨0, hn⟩) (blk1 V c 2 ⟨0, hn⟩), accA1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) scM1 (Memref.isWhole_whole _) ((first1_iff ⟨0, hn⟩).mpr (Nat.zero_mod _)) (fun h => (fun h => by (try dsimp only at h); omega) ((last1_iff ⟨0, hn⟩).mp h)) (blk1 V c 0 ⟨0, hn⟩) (blk1 V c 1 ⟨0, hn⟩) (blk1 V c 2 ⟨0, hn⟩))
  | n + 1, hn =>
    if h0 : (n + 1) % 16 = 0 then
      if h1 : (n + 1) % 16 = 15 then
        False.elim (by omega)
      else
        (outA1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) ((first1_iff ⟨n + 1, hn⟩).mpr h0) (fun h => h1 ((last1_iff ⟨n + 1, hn⟩).mp h)) (blk1 V c 0 ⟨n + 1, hn⟩) (blk1 V c 1 ⟨n + 1, hn⟩) (blk1 V c 2 ⟨n + 1, hn⟩), accA1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) ((first1_iff ⟨n + 1, hn⟩).mpr h0) (fun h => h1 ((last1_iff ⟨n + 1, hn⟩).mp h)) (blk1 V c 0 ⟨n + 1, hn⟩) (blk1 V c 1 ⟨n + 1, hn⟩) (blk1 V c 2 ⟨n + 1, hn⟩))
    else
      if h1 : (n + 1) % 16 = 15 then
        (outC1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) (fun h => h0 ((first1_iff ⟨n + 1, hn⟩).mp h)) ((last1_iff ⟨n + 1, hn⟩).mpr h1) (blk1 V c 0 ⟨n + 1, hn⟩) (blk1 V c 1 ⟨n + 1, hn⟩) (blk1 V c 2 ⟨n + 1, hn⟩) (at1 c n (Nat.lt_of_succ_lt hn)).2, accC1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) (fun h => h0 ((first1_iff ⟨n + 1, hn⟩).mp h)) ((last1_iff ⟨n + 1, hn⟩).mpr h1) (blk1 V c 0 ⟨n + 1, hn⟩) (blk1 V c 1 ⟨n + 1, hn⟩) (blk1 V c 2 ⟨n + 1, hn⟩) (at1 c n (Nat.lt_of_succ_lt hn)).2)
      else
        (outB1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) (fun h => h0 ((first1_iff ⟨n + 1, hn⟩).mp h)) (fun h => h1 ((last1_iff ⟨n + 1, hn⟩).mp h)) (blk1 V c 0 ⟨n + 1, hn⟩) (blk1 V c 1 ⟨n + 1, hn⟩) (blk1 V c 2 ⟨n + 1, hn⟩) (at1 c n (Nat.lt_of_succ_lt hn)).2, accB1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) (fun h => h0 ((first1_iff ⟨n + 1, hn⟩).mp h)) (fun h => h1 ((last1_iff ⟨n + 1, hn⟩).mp h)) (blk1 V c 0 ⟨n + 1, hn⟩) (blk1 V c 1 ⟨n + 1, hn⟩) (blk1 V c 2 ⟨n + 1, hn⟩) (at1 c n (Nat.lt_of_succ_lt hn)).2)

theorem at1_A (c : Dev nD) (t : Fin cfg1.N) (h0 : t.val % 16 = 0) (h1 : ¬t.val % 16 = 15) :
    at1 V c t.val t.isLt = (outA1 c (grid1.coords t) (m1_0 t) (h1_0 t) (m1_1 t) (h1_1 t) (m1_2 t) (h1_2 t) (m1_3 t) (h1_3 t) scM1 (Memref.isWhole_whole _) ((first1_iff t).mpr h0) (fun h => h1 ((last1_iff t).mp h)) (blk1 V c 0 t) (blk1 V c 1 t) (blk1 V c 2 t), accA1 c (grid1.coords t) (m1_0 t) (h1_0 t) (m1_1 t) (h1_1 t) (m1_2 t) (h1_2 t) (m1_3 t) (h1_3 t) scM1 (Memref.isWhole_whole _) ((first1_iff t).mpr h0) (fun h => h1 ((last1_iff t).mp h)) (blk1 V c 0 t) (blk1 V c 1 t) (blk1 V c 2 t)) := by
  obtain ⟨n, hn⟩ := t
  cases n with
  | zero => exact rfl
  | succ n => exact (dif_pos h0).trans ((dif_neg h1).trans rfl)

theorem at1_B (c : Dev nD) (t : Fin cfg1.N) (h0 : ¬t.val % 16 = 0) (h1 : ¬t.val % 16 = 15) :
    at1 V c t.val t.isLt = (outB1 c (grid1.coords t) (m1_0 t) (h1_0 t) (m1_1 t) (h1_1 t) (m1_2 t) (h1_2 t) (m1_3 t) (h1_3 t) scM1 (Memref.isWhole_whole _) (fun h => h0 ((first1_iff t).mp h)) (fun h => h1 ((last1_iff t).mp h)) (blk1 V c 0 t) (blk1 V c 1 t) (blk1 V c 2 t) (at1 V c (t.val - 1) (Nat.lt_of_le_of_lt (Nat.sub_le _ _) t.isLt)).2, accB1 c (grid1.coords t) (m1_0 t) (h1_0 t) (m1_1 t) (h1_1 t) (m1_2 t) (h1_2 t) (m1_3 t) (h1_3 t) scM1 (Memref.isWhole_whole _) (fun h => h0 ((first1_iff t).mp h)) (fun h => h1 ((last1_iff t).mp h)) (blk1 V c 0 t) (blk1 V c 1 t) (blk1 V c 2 t) (at1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem at1_C (c : Dev nD) (t : Fin cfg1.N) (h0 : ¬t.val % 16 = 0) (h1 : t.val % 16 = 15) :
    at1 V c t.val t.isLt = (outC1 c (grid1.coords t) (m1_0 t) (h1_0 t) (m1_1 t) (h1_1 t) (m1_2 t) (h1_2 t) (m1_3 t) (h1_3 t) scM1 (Memref.isWhole_whole _) (fun h => h0 ((first1_iff t).mp h)) ((last1_iff t).mpr h1) (blk1 V c 0 t) (blk1 V c 1 t) (blk1 V c 2 t) (at1 V c (t.val - 1) (Nat.lt_of_le_of_lt (Nat.sub_le _ _) t.isLt)).2, accC1 c (grid1.coords t) (m1_0 t) (h1_0 t) (m1_1 t) (h1_1 t) (m1_2 t) (h1_2 t) (m1_3 t) (h1_3 t) scM1 (Memref.isWhole_whole _) (fun h => h0 ((first1_iff t).mp h)) ((last1_iff t).mpr h1) (blk1 V c 0 t) (blk1 V c 1 t) (blk1 V c 2 t) (at1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left in it, the other scoped buffers and the generator register. -/
def inv1 (c : Dev nD) : (n : ℕ) → n ≤ cfg1.N → sProp 𝕄
  | 0, _ => Pipeline.ΦA spec1 c
  | n + 1, hn => iprop(iprop(owns (c : Thread nD τ) scM1 fullShare ((at1 V c n hn).2) ∗ rest1 c) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop(iprop(owns (c : Thread nD τ) scM1 fullShare ((at1 V c n hn).2) ∗ rest1 c) ∗ (∃ r, prngReg c r)) := rfl
theorem inv1_pos (c : Dev nD) (n : ℕ) (h : n ≤ cfg1.N) (hz : n ≠ 0) :
    inv1 V c n h = iprop(iprop(owns (c : Thread nD τ) scM1 fullShare ((at1 V c (n - 1) (by omega)).2) ∗ rest1 c) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (at1 V c t.val t.isLt).1
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_inv (c : Dev nD) (t : Fin cfg1.N) :
    (dat1 V c).Φ t.castSucc = inv1 V c t.val (Nat.le_of_lt t.isLt) := by
  dsimp only [dat1]; simp only [Fin.coe_castSucc]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = (at1 V c t.val t.isLt).1 := by dsimp only [dat1]
theorem dat1_before_0 (c : Dev nD) (t : Fin cfg1.N) (d) : (dat1 V c).before 0 t d = blk1 V c 0 t :=
  in1_0_of V (dat1 V c) (dat1_A V c 0) (dat1_after_0 V c) t d
theorem dat1_before_1 (c : Dev nD) (t : Fin cfg1.N) (d) : (dat1 V c).before 1 t d = blk1 V c 1 t :=
  in1_1_of V (dat1 V c) (dat1_A V c 1) (dat1_after_1 V c) t d
theorem dat1_before_2 (c : Dev nD) (t : Fin cfg1.N) (d) : (dat1 V c).before 2 t d = blk1 V c 2 t :=
  in1_2_of V (dat1 V c) (dat1_A V c 2) (dat1_after_2 V c) t d

/-- What the body is entered with at point `t`, -/
def pre1 (c : Dev nD) (t : Fin cfg1.N) : sProp 𝕄 :=
  iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d))
    ∗ (∃ d, owns (c : Thread nD τ) (m1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the reduction coordinate says which case the point is in; the invariant hands the body the
    accumulator (at anything before the first point, else at what the point before left) and takes it back at this
    point's contents. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2]
  rw [show (dat1 V c).owesAt () t.succ = (dat1 V c).owesAt () t.castSucc from rfl]
  rw [show (dat1 V c).Φ t.succ = inv1 V c (t.val + 1) t.isLt from rfl, inv1_succ]
  have hN : t.val < 128 := lt_of_lt_of_eq t.isLt (show cfg1.N = 128 from N_1)
  rw [show (dat1 V c).leavesExact 0 t = owns (c : Thread nD τ) (m1_0 t) fullShare ((dat1 V c).after 0 t) from by
    unfold Dat.leavesExact; rw [live1_0 t], dat1_after_0]
  rw [show (dat1 V c).leavesExact 1 t = owns (c : Thread nD τ) (m1_1 t) fullShare ((dat1 V c).after 1 t) from by
    unfold Dat.leavesExact; rw [live1_1 t], dat1_after_1]
  rw [show (dat1 V c).leavesExact 2 t = owns (c : Thread nD τ) (m1_2 t) fullShare ((dat1 V c).after 2 t) from by
    unfold Dat.leavesExact; rw [live1_2 t], dat1_after_2]
  by_cases h0 : t.val % 16 = 0
  · have h1 : ¬t.val % 16 = 15 := by omega
    rw [Dat.leavesExact_idle (dat1 V c) 3 t (idle1_3 t (fun h => h1 ((last1_iff t).mp h))) (noFlush1_3 t (fun h => h1 ((last1_iff t).mp h)))]
    rw [at1_A V c t h0 h1]
    unfold accA1; (try dsimp only)
    by_cases hz : t.val = 0
    · rw [dat1_inv V c t, inv1_zero V c _ _ hz, PhiA1_eq]
      iintro ⟨⟨⟨HS, Hr⟩, Hg⟩, Ho, ⟨%d0, H0⟩, ⟨%d1, H1⟩, ⟨%d2, H2⟩, ⟨%d3, H3⟩⟩
      iapply ((runA1 c (grid1.coords t) _ _ _ _ _ _ _ _ _ _ ((first1_iff t).mpr h0) (fun h => h1 ((last1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverA1 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [dat1_inv V c t, inv1_pos V c _ _ hz]
      iintro ⟨⟨⟨HS, Hr⟩, Hg⟩, Ho, ⟨%d0, H0⟩, ⟨%d1, H1⟩, ⟨%d2, H2⟩, ⟨%d3, H3⟩⟩
      iapply ((runA1 c (grid1.coords t) _ _ _ _ _ _ _ _ _ _ ((first1_iff t).mpr h0) (fun h => h1 ((last1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverA1 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · rw [show (dat1 V c).leavesExact 3 t = owns (c : Thread nD τ) (m1_3 t) fullShare ((dat1 V c).after 3 t) from by
        unfold Dat.leavesExact; rw [live1_3 t ((last1_iff t).mpr h1)], dat1_after_3]
      rw [at1_C V c t h0 h1]
      unfold outC1 accC1; (try dsimp only)
      rw [dat1_inv V c t, inv1_pos V c _ _ hz]
      iintro ⟨⟨⟨HS, Hr⟩, Hg⟩, Ho, ⟨%d0, H0⟩, ⟨%d1, H1⟩, ⟨%d2, H2⟩, ⟨%d3, H3⟩⟩
      iapply ((runC1 c (grid1.coords t) _ _ _ _ _ _ _ _ _ _ (fun h => h0 ((first1_iff t).mp h)) ((last1_iff t).mpr h1) (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scoverC1 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC1 c _ _ _ _ _ _ _ _ _ _ _ _ _ _ _ _ _)
    · rw [Dat.leavesExact_idle (dat1 V c) 3 t (idle1_3 t (fun h => h1 ((last1_iff t).mp h))) (noFlush1_3 t (fun h => h1 ((last1_iff t).mp h)))]
      rw [at1_B V c t h0 h1]
      unfold accB1; (try dsimp only)
      rw [dat1_inv V c t, inv1_pos V c _ _ hz]
      iintro ⟨⟨⟨HS, Hr⟩, Hg⟩, Ho, ⟨%d0, H0⟩, ⟨%d1, H1⟩, ⟨%d2, H2⟩, ⟨%d3, H3⟩⟩
      iapply ((runB1 c (grid1.coords t) _ _ _ _ _ _ _ _ _ _ (fun h => h0 ((first1_iff t).mp h)) (fun h => h1 ((last1_iff t).mp h)) (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverB1 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The launch's obligation for the body, at every point. -/
theorem obligation1 (c : Dev nD) : BodyObligation (dat1 (F := F) V c) (defs₀ (F := F)) Variants.none () Set.univ := fun t => by
  rw [bigSep_W1, bigSep_W1]
  exact body1 V c t

/-- What the launch hands the region is the invariant before the first point. -/
theorem enter1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives it back, the accumulator's contents forgotten. -/
theorem leave1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 128 := N_1; omega), PhiA1_eq]
  iintro ⟨⟨HS, Hr⟩, Hg⟩
  isplitl [HS Hr]
  · isplitl [HS]
    · iexists _; iexact HS
    iexact Hr
  iexact Hg

end Region1

end Cert.Kernel.Hand

end
-- ==== Proof.Kernel.Region2Runs.lean ====
/-
  The output projection, region by itself, first half: the body's runs. One grid point multiplies the 1024 x 1024 band k of the
  output weights by the 1024 x 512 block (k, j) of the context and adds the product to an accumulator kept in a scoped
  buffer from one point to the next: reset at k = 0, and at k = 7 stored, with the bias column added, into the output block j.
  Three cases of the two conditions meet the grid (first, middle, last); each case's run finds the pieces it stores.
-/
import proofs.«150687_j35459249996685_2_alg».proof.Proof.Gen.Kernel.Launch
import proofs.«150687_j35459249996685_2_alg».proof.Proof.Gen.Kernel.Skeleton
import proofs.«150687_j35459249996685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Block `t` of window `w`, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the point's block whether or not the point fetched it. -/
theorem in2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- Input window 1's staging buffer holds the point's block whether or not the point fetched it. -/
theorem in2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
/-- Input window 2's staging buffer holds the point's block whether or not the point fetched it. -/
theorem in2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! ## The two conditions on the reduction coordinate, and where the output window is idle -/

/-- The body's first branch: the reduction coordinate is 0 (the accumulator is reset). -/
abbrev first2 (i : grid2.Coords) : Prop := (Scalar.cmpi .ne (Scalar.extui (Scalar.cmpi .eq (BitVec.ofNat 32 (i 2).val) 0#32)) 0#32) = 1#1
theorem first2_iff : ∀ t : Fin cfg2.N, first2 (grid2.coords t) ↔ t.val % 8 = 0 :=
  (by decide +kernel : ∀ t : Fin grid2.N, first2 (grid2.coords t) ↔ t.val % 8 = 0)
/-- The body's second branch: the reduction coordinate is the last (the accumulator is written out). -/
abbrev last2 (i : grid2.Coords) : Prop := k2_cond2 i = 1#1
theorem last2_iff : ∀ t : Fin cfg2.N, last2 (grid2.coords t) ↔ t.val % 8 = 7 :=
  (by decide +kernel : ∀ t : Fin grid2.N, last2 (grid2.coords t) ↔ t.val % 8 = 7)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from the last reduction step the output window is idle and not written back. -/
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel
theorem live2_3 : ∀ t : Fin cfg2.N, last2 (grid2.coords t) → cfg2.idle 3 (grid2.coords t) = false := by decide +kernel

/-! ## The buffers the body is called with -/

abbrev m2_0 (t : Fin cfg2.N) : Memref sig .tc .vmem S1024x1024 .bf16 := win2_0.stage (cfg2.slots t 0)
abbrev h2_0 (t : Fin cfg2.N) : (m2_0 t).IsWhole := hstage2_0 ((cfg2.slots t 0).cast nbuf2_0)
abbrev m2_1 (t : Fin cfg2.N) : Memref sig .tc .vmem S1024x512 .bf16 := win2_1.stage (cfg2.slots t 1)
abbrev h2_1 (t : Fin cfg2.N) : (m2_1 t).IsWhole := hstage2_1 ((cfg2.slots t 1).cast nbuf2_1)
abbrev m2_2 (t : Fin cfg2.N) : Memref sig .tc .vmem S1024x1 .f32 := win2_2.stage (cfg2.slots t 2)
abbrev h2_2 (t : Fin cfg2.N) : (m2_2 t).IsWhole := hstage2_2 ((cfg2.slots t 2).cast nbuf2_2)
abbrev m2_3 (t : Fin cfg2.N) : Memref sig .tc .vmem S1024x512 .f32 := win2_3.stage (cfg2.slots t 3)
abbrev h2_3 (t : Fin cfg2.N) : (m2_3 t).IsWhole := hstage2_3 ((cfg2.slots t 3).cast nbuf2_3)
/-- The accumulator: a scoped buffer of the kernel's own, kept from one grid point to the next. -/
abbrev scM2 : Memref sig .tc .vmem S1024x512 .f32 := Memref.whole cc2_scratch0
abbrev VS2 : View sig .tc .vmem S1024x512 .f32 := scM2.view
/-- One staging buffer of the output window, through which its contents are stated. -/
abbrev VO2 : View sig .tc .vmem S1024x512 .f32 := (Memref.whole cc2_stg3_0 : Memref sig .tc .vmem S1024x512 .f32).view

/-- Every other scoped buffer of the core (the other regions' staging buffers and accumulator), at anything. -/
def rest2 (c : Dev nD) : sProp 𝕄 :=
  Pipeline.scopedRestBut (Ix := Unit) (Name := ℕ) (U := UR sig nD τ) (Lvl := ℕ) (Val := Elt F) spec2 c [cc2_scratch0]

/-- What the launch hands the body beside the windows: the accumulator at anything, the other scoped buffers, the
    generator register. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA rest2
  rw [Pipeline.scopedRest_split_of_list spec2 c [cc2_scratch0] (by decide) (by decide)]
  simp only [scM2, owns_whole, bigSepL_singleton]
  rfl

/-! ## The body, case by case: what it stores, as pieces the run finds -/

set_option maxHeartbeats 1000000 in
/-- FIRST reduction step: the accumulator, at anything, is reset and the step's product added; the output buffer is not
    touched. The pieces left in the accumulator are found by the run. -/
noncomputable def runA2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : first2 i) (hl : ¬last2 i)
    (x0 : Vec F S1024x1024 .bf16) (x1 : Vec F S1024x512 .bf16) (x2 : Vec F S1024x1 .f32) :
    Σ' (L3 : List (View.Piece (Elt F) S1024x512 .f32)), { LS : List (View.Piece (Elt F) S1024x512 .f32) //
      ∀ (xo : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc2__linear_kernel_acc i arg3 harg3 arg4 harg4 arg5 harg5 arg6 harg6 arg7 harg7) K } := by
  refine ⟨[], ?_, fun xo E K => ?run⟩
  case run =>
    simp only [cc2__linear_kernel_acc_eq_skeleton]; unfold cc2__linear_kernel_acc_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- A MIDDLE reduction step: the step's product is added to what the accumulator held; the output buffer is not touched. -/
noncomputable def runB2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : ¬last2 i)
    (x0 : Vec F S1024x1024 .bf16) (x1 : Vec F S1024x512 .bf16) (x2 : Vec F S1024x1 .f32) (xs : Vec F S1024x512 .f32) :
    Σ' (L3 : List (View.Piece (Elt F) S1024x512 .f32)), { LS : List (View.Piece (Elt F) S1024x512 .f32) //
      ∀ (xo : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc2__linear_kernel_acc i arg3 harg3 arg4 harg4 arg5 harg5 arg6 harg6 arg7 harg7) K } := by
  refine ⟨[], ?_, fun xo E K => ?run⟩
  case run =>
    simp only [cc2__linear_kernel_acc_eq_skeleton]; unfold cc2__linear_kernel_acc_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- The LAST reduction step: the step's product is added to what the accumulator held, and the output buffer, at
    anything, is stored whole from the accumulator. -/
noncomputable def runC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i)
    (x0 : Vec F S1024x1024 .bf16) (x1 : Vec F S1024x512 .bf16) (x2 : Vec F S1024x1 .f32) (xs : Vec F S1024x512 .f32) :
    Σ' (L3 : List (View.Piece (Elt F) S1024x512 .f32)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__linear_kernel_acc i arg3 harg3 arg4 harg4 arg5 harg5 arg6 harg6 arg7 harg7) K } := by
  refine ⟨?_, ?_, fun E K => ?run⟩
  case run =>
    simp only [cc2__linear_kernel_acc_eq_skeleton]; unfold cc2__linear_kernel_acc_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Region2

end Cert.Kernel.Hand

end
-- ==== Proof.Kernel.Region2.lean ====
/-
  The output projection, region by itself, second half: what the output block and the accumulator hold after each grid
  point (by recursion on the point: the accumulator's contents pass from a point to the next), the region's invariant, the
  proof data, and the launch's obligation for the body at every point.
-/
import proofs.«150687_j35459249996685_2_alg».proof.Proof.Kernel.Region2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Case A: the pieces stored into the accumulator tile it. -/
theorem scoverA2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : first2 i) (hl : ¬last2 i) (x0 : Vec F S1024x1024 .bf16) (x1 : Vec F S1024x512 .bf16) (x2 : Vec F S1024x1 .f32) (y : S1024x512.Idx) :
    ∃ pc ∈ (runA2 c i arg3 harg3 arg4 harg4 arg5 harg5 arg6 harg6 arg7 harg7 hf hl x0 x1 x2).2.1, y ∈ pc.1.set :=
  View.cover_of_tiledL (runA2 c i arg3 harg3 arg4 harg4 arg5 harg5 arg6 harg6 arg7 harg7 hf hl x0 x1 x2).2.1 S1024x512.size (by sl_kernel_rfl) y
/-- Case A: what the accumulator holds after the body, its pieces read back. -/
def accA2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : first2 i) (hl : ¬last2 i) (x0 : Vec F S1024x1024 .bf16) (x1 : Vec F S1024x512 .bf16) (x2 : Vec F S1024x1 .f32) : Vec F S1024x512 .f32 :=
  VS2.read (Elt F) (VS2.writes (Elt F) VS2.junk (runA2 c i arg3 harg3 arg4 harg4 arg5 harg5 arg6 harg6 arg7 harg7 hf hl x0 x1 x2).2.1)
/-- Case A: what the output buffer holds after the body (nothing is stored: a placeholder no one consults, the window being idle and not written back). -/
def outA2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : first2 i) (hl : ¬last2 i) (x0 : Vec F S1024x1024 .bf16) (x1 : Vec F S1024x512 .bf16) (x2 : Vec F S1024x1 .f32) : Vec F S1024x512 .f32 :=
  VO2.read (Elt F) (VO2.writes (Elt F) VO2.junk (runA2 c i arg3 harg3 arg4 harg4 arg5 harg5 arg6 harg6 arg7 harg7 hf hl x0 x1 x2).1)
/-- Case B: the pieces stored into the accumulator tile it. -/
theorem scoverB2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : ¬last2 i) (x0 : Vec F S1024x1024 .bf16) (x1 : Vec F S1024x512 .bf16) (x2 : Vec F S1024x1 .f32) (xs : Vec F S1024x512 .f32) (y : S1024x512.Idx) :
    ∃ pc ∈ (runB2 c i arg3 harg3 arg4 harg4 arg5 harg5 arg6 harg6 arg7 harg7 hf hl x0 x1 x2 xs).2.1, y ∈ pc.1.set :=
  View.cover_of_tiledL (runB2 c i arg3 harg3 arg4 harg4 arg5 harg5 arg6 harg6 arg7 harg7 hf hl x0 x1 x2 xs).2.1 S1024x512.size (by sl_kernel_rfl) y
/-- Case B: what the accumulator holds after the body, its pieces read back. -/
def accB2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : ¬last2 i) (x0 : Vec F S1024x1024 .bf16) (x1 : Vec F S1024x512 .bf16) (x2 : Vec F S1024x1 .f32) (xs : Vec F S1024x512 .f32) : Vec F S1024x512 .f32 :=
  VS2.read (Elt F) (VS2.writes (Elt F) VS2.junk (runB2 c i arg3 harg3 arg4 harg4 arg5 harg5 arg6 harg6 arg7 harg7 hf hl x0 x1 x2 xs).2.1)
/-- Case B: what the output buffer holds after the body (nothing is stored: a placeholder no one consults, the window being idle and not written back). -/
def outB2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : ¬last2 i) (x0 : Vec F S1024x1024 .bf16) (x1 : Vec F S1024x512 .bf16) (x2 : Vec F S1024x1 .f32) (xs : Vec F S1024x512 .f32) : Vec F S1024x512 .f32 :=
  VO2.read (Elt F) (VO2.writes (Elt F) VO2.junk (runB2 c i arg3 harg3 arg4 harg4 arg5 harg5 arg6 harg6 arg7 harg7 hf hl x0 x1 x2 xs).1)
/-- Case C: the pieces stored into the accumulator tile it. -/
theorem scoverC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) (y : S1024x512.Idx) :
    ∃ pc ∈ (runC2 c i arg3 harg3 arg4 harg4 arg5 harg5 arg6 harg6 arg7 harg7 hf hl x0 x1 x2 xs).2.1, y ∈ pc.1.set :=
  View.cover_of_tiledL (runC2 c i arg3 harg3 arg4 harg4 arg5 harg5 arg6 harg6 arg7 harg7 hf hl x0 x1 x2 xs).2.1 S1024x512.size (by sl_kernel_rfl) y
/-- Case C: what the accumulator holds after the body, its pieces read back. -/
def accC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) : Vec F S1024x512 .f32 :=
  VS2.read (Elt F) (VS2.writes (Elt F) VS2.junk (runC2 c i arg3 harg3 arg4 harg4 arg5 harg5 arg6 harg6 arg7 harg7 hf hl x0 x1 x2 xs).2.1)
/-- Case C: what the output buffer holds after the body. -/
def outC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) : Vec F S1024x512 .f32 :=
  VO2.read (Elt F) (VO2.writes (Elt F) VO2.junk (runC2 c i arg3 harg3 arg4 harg4 arg5 harg5 arg6 harg6 arg7 harg7 hf hl x0 x1 x2 xs).1)
/-- Case C: the one store into the output buffer is the whole block. -/
theorem coverC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) (y : S1024x512.Idx) :
    ∃ pc ∈ (runC2 c i arg3 harg3 arg4 harg4 arg5 harg5 arg6 harg6 arg7 harg7 hf hl x0 x1 x2 xs).1, y ∈ pc.1.set :=
  View.cover_of_tiledL (runC2 c i arg3 harg3 arg4 harg4 arg5 harg5 arg6 harg6 arg7 harg7 hf hl x0 x1 x2 xs).1 S1024x512.size (by sl_kernel_rfl) y

/-! ## Point by point -/

/-- What the output buffer and the accumulator hold after the body at position `n`: the case the reduction coordinate
    selects, run on the point's blocks, from what the point before left in the accumulator. -/
def at2 (c : Dev nD) : (n : ℕ) → n < cfg2.N → Vec F S1024x512 .f32 × Vec F S1024x512 .f32
  | 0, hn => (outA2 c (grid2.coords ⟨0, hn⟩) (m2_0 ⟨0, hn⟩) (h2_0 ⟨0, hn⟩) (m2_1 ⟨0, hn⟩) (h2_1 ⟨0, hn⟩) (m2_2 ⟨0, hn⟩) (h2_2 ⟨0, hn⟩) (m2_3 ⟨0, hn⟩) (h2_3 ⟨0, hn⟩) scM2 (Memref.isWhole_whole _) ((first2_iff ⟨0, hn⟩).mpr (Nat.zero_mod _)) (fun h => (fun h => by (try dsimp only at h); omega) ((last2_iff ⟨0, hn⟩).mp h)) (blk2 V c 0 ⟨0, hn⟩) (blk2 V c 1 ⟨0, hn⟩) (blk2 V c 2 ⟨0, hn⟩), accA2 c (grid2.coords ⟨0, hn⟩) (m2_0 ⟨0, hn⟩) (h2_0 ⟨0, hn⟩) (m2_1 ⟨0, hn⟩) (h2_1 ⟨0, hn⟩) (m2_2 ⟨0, hn⟩) (h2_2 ⟨0, hn⟩) (m2_3 ⟨0, hn⟩) (h2_3 ⟨0, hn⟩) scM2 (Memref.isWhole_whole _) ((first2_iff ⟨0, hn⟩).mpr (Nat.zero_mod _)) (fun h => (fun h => by (try dsimp only at h); omega) ((last2_iff ⟨0, hn⟩).mp h)) (blk2 V c 0 ⟨0, hn⟩) (blk2 V c 1 ⟨0, hn⟩) (blk2 V c 2 ⟨0, hn⟩))
  | n + 1, hn =>
    if h0 : (n + 1) % 8 = 0 then
      if h1 : (n + 1) % 8 = 7 then
        False.elim (by omega)
      else
        (outA2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) ((first2_iff ⟨n + 1, hn⟩).mpr h0) (fun h => h1 ((last2_iff ⟨n + 1, hn⟩).mp h)) (blk2 V c 0 ⟨n + 1, hn⟩) (blk2 V c 1 ⟨n + 1, hn⟩) (blk2 V c 2 ⟨n + 1, hn⟩), accA2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) ((first2_iff ⟨n + 1, hn⟩).mpr h0) (fun h => h1 ((last2_iff ⟨n + 1, hn⟩).mp h)) (blk2 V c 0 ⟨n + 1, hn⟩) (blk2 V c 1 ⟨n + 1, hn⟩) (blk2 V c 2 ⟨n + 1, hn⟩))
    else
      if h1 : (n + 1) % 8 = 7 then
        (outC2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) (fun h => h0 ((first2_iff ⟨n + 1, hn⟩).mp h)) ((last2_iff ⟨n + 1, hn⟩).mpr h1) (blk2 V c 0 ⟨n + 1, hn⟩) (blk2 V c 1 ⟨n + 1, hn⟩) (blk2 V c 2 ⟨n + 1, hn⟩) (at2 c n (Nat.lt_of_succ_lt hn)).2, accC2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) (fun h => h0 ((first2_iff ⟨n + 1, hn⟩).mp h)) ((last2_iff ⟨n + 1, hn⟩).mpr h1) (blk2 V c 0 ⟨n + 1, hn⟩) (blk2 V c 1 ⟨n + 1, hn⟩) (blk2 V c 2 ⟨n + 1, hn⟩) (at2 c n (Nat.lt_of_succ_lt hn)).2)
      else
        (outB2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) (fun h => h0 ((first2_iff ⟨n + 1, hn⟩).mp h)) (fun h => h1 ((last2_iff ⟨n + 1, hn⟩).mp h)) (blk2 V c 0 ⟨n + 1, hn⟩) (blk2 V c 1 ⟨n + 1, hn⟩) (blk2 V c 2 ⟨n + 1, hn⟩) (at2 c n (Nat.lt_of_succ_lt hn)).2, accB2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) (fun h => h0 ((first2_iff ⟨n + 1, hn⟩).mp h)) (fun h => h1 ((last2_iff ⟨n + 1, hn⟩).mp h)) (blk2 V c 0 ⟨n + 1, hn⟩) (blk2 V c 1 ⟨n + 1, hn⟩) (blk2 V c 2 ⟨n + 1, hn⟩) (at2 c n (Nat.lt_of_succ_lt hn)).2)

theorem at2_A (c : Dev nD) (t : Fin cfg2.N) (h0 : t.val % 8 = 0) (h1 : ¬t.val % 8 = 7) :
    at2 V c t.val t.isLt = (outA2 c (grid2.coords t) (m2_0 t) (h2_0 t) (m2_1 t) (h2_1 t) (m2_2 t) (h2_2 t) (m2_3 t) (h2_3 t) scM2 (Memref.isWhole_whole _) ((first2_iff t).mpr h0) (fun h => h1 ((last2_iff t).mp h)) (blk2 V c 0 t) (blk2 V c 1 t) (blk2 V c 2 t), accA2 c (grid2.coords t) (m2_0 t) (h2_0 t) (m2_1 t) (h2_1 t) (m2_2 t) (h2_2 t) (m2_3 t) (h2_3 t) scM2 (Memref.isWhole_whole _) ((first2_iff t).mpr h0) (fun h => h1 ((last2_iff t).mp h)) (blk2 V c 0 t) (blk2 V c 1 t) (blk2 V c 2 t)) := by
  obtain ⟨n, hn⟩ := t
  cases n with
  | zero => exact rfl
  | succ n => exact (dif_pos h0).trans ((dif_neg h1).trans rfl)

theorem at2_B (c : Dev nD) (t : Fin cfg2.N) (h0 : ¬t.val % 8 = 0) (h1 : ¬t.val % 8 = 7) :
    at2 V c t.val t.isLt = (outB2 c (grid2.coords t) (m2_0 t) (h2_0 t) (m2_1 t) (h2_1 t) (m2_2 t) (h2_2 t) (m2_3 t) (h2_3 t) scM2 (Memref.isWhole_whole _) (fun h => h0 ((first2_iff t).mp h)) (fun h => h1 ((last2_iff t).mp h)) (blk2 V c 0 t) (blk2 V c 1 t) (blk2 V c 2 t) (at2 V c (t.val - 1) (Nat.lt_of_le_of_lt (Nat.sub_le _ _) t.isLt)).2, accB2 c (grid2.coords t) (m2_0 t) (h2_0 t) (m2_1 t) (h2_1 t) (m2_2 t) (h2_2 t) (m2_3 t) (h2_3 t) scM2 (Memref.isWhole_whole _) (fun h => h0 ((first2_iff t).mp h)) (fun h => h1 ((last2_iff t).mp h)) (blk2 V c 0 t) (blk2 V c 1 t) (blk2 V c 2 t) (at2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem at2_C (c : Dev nD) (t : Fin cfg2.N) (h0 : ¬t.val % 8 = 0) (h1 : t.val % 8 = 7) :
    at2 V c t.val t.isLt = (outC2 c (grid2.coords t) (m2_0 t) (h2_0 t) (m2_1 t) (h2_1 t) (m2_2 t) (h2_2 t) (m2_3 t) (h2_3 t) scM2 (Memref.isWhole_whole _) (fun h => h0 ((first2_iff t).mp h)) ((last2_iff t).mpr h1) (blk2 V c 0 t) (blk2 V c 1 t) (blk2 V c 2 t) (at2 V c (t.val - 1) (Nat.lt_of_le_of_lt (Nat.sub_le _ _) t.isLt)).2, accC2 c (grid2.coords t) (m2_0 t) (h2_0 t) (m2_1 t) (h2_1 t) (m2_2 t) (h2_2 t) (m2_3 t) (h2_3 t) scM2 (Memref.isWhole_whole _) (fun h => h0 ((first2_iff t).mp h)) ((last2_iff t).mpr h1) (blk2 V c 0 t) (blk2 V c 1 t) (blk2 V c 2 t) (at2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left in it, the other scoped buffers and the generator register. -/
def inv2 (c : Dev nD) : (n : ℕ) → n ≤ cfg2.N → sProp 𝕄
  | 0, _ => Pipeline.ΦA spec2 c
  | n + 1, hn => iprop(iprop(owns (c : Thread nD τ) scM2 fullShare ((at2 V c n hn).2) ∗ rest2 c) ∗ (∃ r, prngReg c r))

theorem inv2_zero (c : Dev nD) (n : ℕ) (h : n ≤ cfg2.N) (hz : n = 0) : inv2 V c n h = Pipeline.ΦA spec2 c := by
  subst hz; rfl
theorem inv2_succ (c : Dev nD) (n : ℕ) (hn : n < cfg2.N) :
    inv2 V c (n + 1) hn = iprop(iprop(owns (c : Thread nD τ) scM2 fullShare ((at2 V c n hn).2) ∗ rest2 c) ∗ (∃ r, prngReg c r)) := rfl
theorem inv2_pos (c : Dev nD) (n : ℕ) (h : n ≤ cfg2.N) (hz : n ≠ 0) :
    inv2 V c n h = iprop(iprop(owns (c : Thread nD τ) scM2 fullShare ((at2 V c (n - 1) (by omega)).2) ∗ rest2 c) ∗ (∃ r, prngReg c r)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => (at2 V c t.val t.isLt).1
  Φ t := inv2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_inv (c : Dev nD) (t : Fin cfg2.N) :
    (dat2 V c).Φ t.castSucc = inv2 V c t.val (Nat.le_of_lt t.isLt) := by
  dsimp only [dat2]; simp only [Fin.coe_castSucc]
theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = (at2 V c t.val t.isLt).1 := by dsimp only [dat2]
theorem dat2_before_0 (c : Dev nD) (t : Fin cfg2.N) (d) : (dat2 V c).before 0 t d = blk2 V c 0 t :=
  in2_0_of V (dat2 V c) (dat2_A V c 0) (dat2_after_0 V c) t d
theorem dat2_before_1 (c : Dev nD) (t : Fin cfg2.N) (d) : (dat2 V c).before 1 t d = blk2 V c 1 t :=
  in2_1_of V (dat2 V c) (dat2_A V c 1) (dat2_after_1 V c) t d
theorem dat2_before_2 (c : Dev nD) (t : Fin cfg2.N) (d) : (dat2 V c).before 2 t d = blk2 V c 2 t :=
  in2_2_of V (dat2 V c) (dat2_A V c 2) (dat2_after_2 V c) t d

/-- What the body is entered with at point `t`, -/
def pre2 (c : Dev nD) (t : Fin cfg2.N) : sProp 𝕄 :=
  iprop((dat2 V c).Φ t.castSucc ∗ (dat2 V c).owesAt () t.castSucc
    ∗ (∃ d, owns (c : Thread nD τ) (m2_0 t) fullShare ((dat2 V c).before 0 t d))
    ∗ (∃ d, owns (c : Thread nD τ) (m2_1 t) fullShare ((dat2 V c).before 1 t d))
    ∗ (∃ d, owns (c : Thread nD τ) (m2_2 t) fullShare ((dat2 V c).before 2 t d))
    ∗ (∃ d, owns (c : Thread nD τ) (m2_3 t) fullShare ((dat2 V c).before 3 t d)))

/-- and what it returns. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the reduction coordinate says which case the point is in; the invariant hands the body the
    accumulator (at anything before the first point, else at what the point before left) and takes it back at this
    point's contents. -/
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before_0, dat2_before_1, dat2_before_2]
  rw [show (dat2 V c).owesAt () t.succ = (dat2 V c).owesAt () t.castSucc from rfl]
  rw [show (dat2 V c).Φ t.succ = inv2 V c (t.val + 1) t.isLt from rfl, inv2_succ]
  have hN : t.val < 32 := lt_of_lt_of_eq t.isLt (show cfg2.N = 32 from N_2)
  rw [show (dat2 V c).leavesExact 0 t = owns (c : Thread nD τ) (m2_0 t) fullShare ((dat2 V c).after 0 t) from by
    unfold Dat.leavesExact; rw [live2_0 t], dat2_after_0]
  rw [show (dat2 V c).leavesExact 1 t = owns (c : Thread nD τ) (m2_1 t) fullShare ((dat2 V c).after 1 t) from by
    unfold Dat.leavesExact; rw [live2_1 t], dat2_after_1]
  rw [show (dat2 V c).leavesExact 2 t = owns (c : Thread nD τ) (m2_2 t) fullShare ((dat2 V c).after 2 t) from by
    unfold Dat.leavesExact; rw [live2_2 t], dat2_after_2]
  by_cases h0 : t.val % 8 = 0
  · have h1 : ¬t.val % 8 = 7 := by omega
    rw [Dat.leavesExact_idle (dat2 V c) 3 t (idle2_3 t (fun h => h1 ((last2_iff t).mp h))) (noFlush2_3 t (fun h => h1 ((last2_iff t).mp h)))]
    rw [at2_A V c t h0 h1]
    unfold accA2; (try dsimp only)
    by_cases hz : t.val = 0
    · rw [dat2_inv V c t, inv2_zero V c _ _ hz, PhiA2_eq]
      iintro ⟨⟨⟨HS, Hr⟩, Hg⟩, Ho, ⟨%d0, H0⟩, ⟨%d1, H1⟩, ⟨%d2, H2⟩, ⟨%d3, H3⟩⟩
      iapply ((runA2 c (grid2.coords t) _ _ _ _ _ _ _ _ _ _ ((first2_iff t).mpr h0) (fun h => h1 ((last2_iff t).mp h)) (blk2 V c 0 t) (blk2 V c 1 t) (blk2 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverA2 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [dat2_inv V c t, inv2_pos V c _ _ hz]
      iintro ⟨⟨⟨HS, Hr⟩, Hg⟩, Ho, ⟨%d0, H0⟩, ⟨%d1, H1⟩, ⟨%d2, H2⟩, ⟨%d3, H3⟩⟩
      iapply ((runA2 c (grid2.coords t) _ _ _ _ _ _ _ _ _ _ ((first2_iff t).mpr h0) (fun h => h1 ((last2_iff t).mp h)) (blk2 V c 0 t) (blk2 V c 1 t) (blk2 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverA2 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat2 V c).leavesExact 3 t = owns (c : Thread nD τ) (m2_3 t) fullShare ((dat2 V c).after 3 t) from by
        unfold Dat.leavesExact; rw [live2_3 t ((last2_iff t).mpr h1)], dat2_after_3]
      rw [at2_C V c t h0 h1]
      unfold outC2 accC2; (try dsimp only)
      rw [dat2_inv V c t, inv2_pos V c _ _ hz]
      iintro ⟨⟨⟨HS, Hr⟩, Hg⟩, Ho, ⟨%d0, H0⟩, ⟨%d1, H1⟩, ⟨%d2, H2⟩, ⟨%d3, H3⟩⟩
      iapply ((runC2 c (grid2.coords t) _ _ _ _ _ _ _ _ _ _ (fun h => h0 ((first2_iff t).mp h)) ((last2_iff t).mpr h1) (blk2 V c 0 t) (blk2 V c 1 t) (blk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scoverC2 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC2 c _ _ _ _ _ _ _ _ _ _ _ _ _ _ _ _ _)
    · rw [Dat.leavesExact_idle (dat2 V c) 3 t (idle2_3 t (fun h => h1 ((last2_iff t).mp h))) (noFlush2_3 t (fun h => h1 ((last2_iff t).mp h)))]
      rw [at2_B V c t h0 h1]
      unfold accB2; (try dsimp only)
      rw [dat2_inv V c t, inv2_pos V c _ _ hz]
      iintro ⟨⟨⟨HS, Hr⟩, Hg⟩, Ho, ⟨%d0, H0⟩, ⟨%d1, H1⟩, ⟨%d2, H2⟩, ⟨%d3, H3⟩⟩
      iapply ((runB2 c (grid2.coords t) _ _ _ _ _ _ _ _ _ _ (fun h => h0 ((first2_iff t).mp h)) (fun h => h1 ((last2_iff t).mp h)) (blk2 V c 0 t) (blk2 V c 1 t) (blk2 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverB2 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The launch's obligation for the body, at every point. -/
theorem obligation2 (c : Dev nD) : BodyObligation (dat2 (F := F) V c) (defs₀ (F := F)) Variants.none () Set.univ := fun t => by
  rw [bigSep_W2, bigSep_W2]
  exact body2 V c t

/-- What the launch hands the region is the invariant before the first point. -/
theorem enter2 (c : Dev nD) : Pipeline.ΦA spec2 c ⊢ (dat2 V c).Φ 0 := by
  rw [show (dat2 V c).Φ 0 = inv2 V c 0 (Nat.zero_le _) from rfl, inv2_zero V c 0 _ rfl]
  try exact Idealize.SL.BI.Entails.refl _

/-- After the last point the invariant gives it back, the accumulator's contents forgotten. -/
theorem leave2 (c : Dev nD) : (dat2 V c).Φ (Fin.last cfg2.N) ⊢ Pipeline.ΦA spec2 c := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 32 := N_2; omega), PhiA2_eq]
  iintro ⟨⟨HS, Hr⟩, Hg⟩
  isplitl [HS Hr]
  · isplitl [HS]
    · iexists _; iexact HS
    iexact Hr
  iexact Hg

end Region2

end Cert.Kernel.Hand

end
-- ==== Proof.Kernel.Run.lean ====
/-
  The whole program's run: three stretches of host operations (casts, the stacking of the three weight matrices and
  biases; the three slices and head splits; the merge of the heads and the output weights' cast) around the three
  regions. The contents of the core's unscoped buffers are followed from the launch through every boundary as a fold —
  a host stretch applies its operations, a region replaces its windows' arrays by what its write-backs leave — and the
  run ends with every unscoped buffer at the fold's last value. The argument arrays are written by nothing on the way.
-/
import proofs.«150687_j35459249996685_2_alg».proof.Proof.Kernel.Region0
import proofs.«150687_j35459249996685_2_alg».proof.Proof.Kernel.Region1
import proofs.«150687_j35459249996685_2_alg».proof.Proof.Kernel.Region2
import proofs.«150687_j35459249996685_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At region 0's exit: its windows' arrays at what the pipeline's write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem left0 (c : Dev nD) (w : Fin cfg0.W) : (dat0 (E1 m ρ) c).arrAt w cfg0.N = E2 m ρ c (Pipeline.arrRef spec0 w) :=
  (W2_arr m ρ c w).symm
theorem kept0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit: its windows' arrays at what the pipeline's write-backs leave, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem left1 (c : Dev nD) (w : Fin cfg1.W) : (dat1 (E3 m ρ) c).arrAt w cfg1.N = E4 m ρ c (Pipeline.arrRef spec1 w) :=
  (W4_arr m ρ c w).symm
theorem kept1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the third host stretch: region 2's entry. -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At region 2's exit: its windows' arrays at what the pipeline's write-backs leave, every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev E6 : (c : Dev nD) → (b : Ref sig .tc) → Buf (Elt F) ((c : Thread nD τ).loc b) := fun c b => W6 m ρ c b
theorem left2 (c : Dev nD) (w : Fin cfg2.W) : (dat2 (E5 m ρ) c).arrAt w cfg2.N = E6 m ρ c (Pipeline.arrRef spec2 w) :=
  (W6_arr m ρ c w).symm
theorem kept2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-- A buffer that no host operation writes and that is no window's array of any region ends as launched. -/
theorem W6_launch (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  calc W6 m ρ c (Proc.devRef .tc b)
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

/-- The result array ends at what region 2's write-backs leave in it. -/
theorem W6_result (c : Dev nD) : W6 m ρ c (Proc.devRef .tc main_v19) = (dat2 (E5 m ρ) c).arrAt 3 cfg2.N :=
  W6_arr m ρ c 3

/-! ## The proof data family and what rides beside the buffers -/

abbrev radm : (p : Fin 3) → (pcfgs (F := F) p).Adm := fun p => (cfgs p).toPCfg_adm
/-- Every region's proof data, each at its region's entry contents. -/
def pdat : (p : Fin 3) → (c : Dev nD) → Dat τ (Elt F) Unit ℕ (UR sig nD τ) ℕ (Pipeline.pin (pcfgs (F := F)) radm p) c
  | ⟨0, _⟩ => fun c => dat0 (E1 m ρ) c
  | ⟨1, _⟩ => fun c => dat1 (E3 m ρ) c
  | ⟨2, _⟩ => fun c => dat2 (E5 m ρ) c
abbrev 𝒱n : Variants := Variants.none
abbrev Ln : GSem nD τ sig → Finset Unit := fun _ => ∅
abbrev lvn : GSem nD τ sig → Unit → ℕ := fun _ _ => 0
/-- Beside the buffers, through every segment: the generator register at some state, and the core owing nothing. -/
abbrev ride (c : Dev nD) : sProp 𝕄 := iprop((∃ r, prngReg c r) ∗ ∃ W, owes (c : Thread nD τ) (0 : CellTallies nD τ sig Unit) W)
/-- A host stretch as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev lastT (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at `W1`, left at `W2`. Its windows' arrays are split
    out of the unscoped buffers and put back at what the pipeline leaves; the generator register goes into the region's
    invariant and comes out; nothing is owed and the kernel has no semaphore of its own. -/
def reg0 : Pipeline.RegionSeg (pcfgs (F := F)) radm (pdat m ρ) () defs₀ 𝒱n Ln lvn 0 where
  win := launch0.win.to₀
  block_pos := launch0.block_pos
  stage_whole := launch0.stage_whole
  K := PEmpty
  osem k := k.elim
  ho := Pipeline.OwnSemFacts.none _
  hbody c := (obligation0 (E1 m ρ) c).loose
  hwaits := Pipeline.hwaits_of_owed_zero _ _ _ _ Ln lvn 0 fun _ _ => rfl
  pre c := iprop(StableHlo.held (c : Thread nD τ) (Pipeline.ucRefs τ sig) (W1 m ρ c) ∗ ride c)
  post c := iprop(StableHlo.held (c : Thread nD τ) (Pipeline.ucRefs τ sig) (W2 m ρ c) ∗ ride c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) radm (pdat m ρ) launch0.win launch0.arr_whole c
      ((pdat m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) radm (Ix := Unit) (Name := ℕ) (U := UR sig nD τ) (Lvl := ℕ)
      launch0.win launch0.arr_whole c (pdat m ρ) ((pdat m ρ 0 c).share_full fun _ => rfl)
      (E1 m ρ c) (E2 m ρ c) ((pdat m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W3`, left at `W4`. Its windows' arrays are split
    out of the unscoped buffers and put back at what the pipeline leaves; the generator register goes into the region's
    invariant and comes out; nothing is owed and the kernel has no semaphore of its own. -/
def reg1 : Pipeline.RegionSeg (pcfgs (F := F)) radm (pdat m ρ) () defs₀ 𝒱n Ln lvn 1 where
  win := launch1.win.to₀
  block_pos := launch1.block_pos
  stage_whole := launch1.stage_whole
  K := PEmpty
  osem k := k.elim
  ho := Pipeline.OwnSemFacts.none _
  hbody c := (obligation1 (E3 m ρ) c).loose
  hwaits := Pipeline.hwaits_of_owed_zero _ _ _ _ Ln lvn 1 fun _ _ => rfl
  pre c := iprop(StableHlo.held (c : Thread nD τ) (Pipeline.ucRefs τ sig) (W3 m ρ c) ∗ ride c)
  post c := iprop(StableHlo.held (c : Thread nD τ) (Pipeline.ucRefs τ sig) (W4 m ρ c) ∗ ride c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) radm (pdat m ρ) launch1.win launch1.arr_whole c
      ((pdat m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdat m ρ 1 c).Φ (Fin.last _) ⊢ (Pipeline.ΦA spec1 c : sProp 𝕄) from leave1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) radm (Ix := Unit) (Name := ℕ) (U := UR sig nD τ) (Lvl := ℕ)
      launch1.win launch1.arr_whole c (pdat m ρ) ((pdat m ρ 1 c).share_full fun _ => rfl)
      (E3 m ρ c) (E4 m ρ c) ((pdat m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W5`, left at `W6`. Its windows' arrays are split
    out of the unscoped buffers and put back at what the pipeline leaves; the generator register goes into the region's
    invariant and comes out; nothing is owed and the kernel has no semaphore of its own. -/
def reg2 : Pipeline.RegionSeg (pcfgs (F := F)) radm (pdat m ρ) () defs₀ 𝒱n Ln lvn 2 where
  win := launch2.win.to₀
  block_pos := launch2.block_pos
  stage_whole := launch2.stage_whole
  K := PEmpty
  osem k := k.elim
  ho := Pipeline.OwnSemFacts.none _
  hbody c := (obligation2 (E5 m ρ) c).loose
  hwaits := Pipeline.hwaits_of_owed_zero _ _ _ _ Ln lvn 2 fun _ _ => rfl
  pre c := iprop(StableHlo.held (c : Thread nD τ) (Pipeline.ucRefs τ sig) (W5 m ρ c) ∗ ride c)
  post c := iprop(lastT m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) radm (pdat m ρ) launch2.win launch2.arr_whole c
      ((pdat m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdat m ρ 2 c).Φ (Fin.last _) ⊢ (Pipeline.ΦA spec2 c : sProp 𝕄) from leave2 (E5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) radm (Ix := Unit) (Name := ℕ) (U := UR sig nD τ) (Lvl := ℕ)
      launch2.win launch2.arr_whole c (pdat m ρ) ((pdat m ρ 2 c).share_full fun _ => rfl)
      (E5 m ρ c) (E6 m ρ c) ((pdat m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev rsegs : List (Pipeline.Seg (pcfgs (F := F)) radm (pdat m ρ) () defs₀ 𝒱n Ln lvn) :=
  [ .host (hostSeg hostOps0 hostOps0_sub hostOps0_fresh (W0 m ρ)),
    .region (reg0 m ρ),
    .host (hostSeg hostOps1 hostOps1_sub hostOps1_fresh (W2 m ρ)),
    .region (reg1 m ρ),
    .host (hostSeg hostOps2 hostOps2_sub hostOps2_fresh (W4 m ρ)),
    .region (reg2 m ρ) ]
theorem main_is_rsegs (c : Dev nD) : main (F := F) c = Pipeline.Seg.run (rsegs m ρ) := (main_chain c).trans (by chain_rfl)

set_option backward.isDefEq.respectTransparency.types false in
/-- THE RUN: from any memory with zero counters every weakly fair execution of the program terminates, nothing
    faulting, and every unscoped buffer of every core ends at the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) radm (pdat m ρ) () cellOf_inj emb₁ defs₀ 𝒱n Ln lvn m ρ main (rsegs m ρ)
    (fun c Q => by rw [main_is_rsegs m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ ride c)) (Tₙ := lastT m ρ)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the nine argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W6_launch m ρ c main_arg0 (by decide) (by decide) (by decide) (by decide) (by decide) (by decide)),
    (h c _ (mem_uc main_arg1 (by decide))).trans (W6_launch m ρ c main_arg1 (by decide) (by decide) (by decide) (by decide) (by decide) (by decide)),
    (h c _ (mem_uc main_arg2 (by decide))).trans (W6_launch m ρ c main_arg2 (by decide) (by decide) (by decide) (by decide) (by decide) (by decide)),
    (h c _ (mem_uc main_arg3 (by decide))).trans (W6_launch m ρ c main_arg3 (by decide) (by decide) (by decide) (by decide) (by decide) (by decide)),
    (h c _ (mem_uc main_arg4 (by decide))).trans (W6_launch m ρ c main_arg4 (by decide) (by decide) (by decide) (by decide) (by decide) (by decide)),
    (h c _ (mem_uc main_arg5 (by decide))).trans (W6_launch m ρ c main_arg5 (by decide) (by decide) (by decide) (by decide) (by decide) (by decide)),
    (h c _ (mem_uc main_arg6 (by decide))).trans (W6_launch m ρ c main_arg6 (by decide) (by decide) (by decide) (by decide) (by decide) (by decide)),
    (h c _ (mem_uc main_arg7 (by decide))).trans (W6_launch m ρ c main_arg7 (by decide) (by decide) (by decide) (by decide) (by decide) (by decide)),
    (h c _ (mem_uc main_arg8 (by decide))).trans (W6_launch m ρ c main_arg8 (by decide) (by decide) (by decide) (by decide) (by decide) (by decide))⟩) (run_all m ρ)

end Cert.Kernel.Hand

end
-- ==== Proof.KernelIdeal.Region0.lean ====
/-
  The fused query/key/value projection, region by itself: one grid point multiplies a 1024-row band of the
  stacked weight matrix by a 512-column band of the tokens, adds the band's bias column to every column and
  stores the 1024 x 512 block whole. Stated at ANY contents `V` of the core's buffers when the region is
  entered: what each window's staging buffer holds after the body, the body's triple, and the obligation
  the launch asks for at every grid point. Nothing is carried from one point to the next.
-/
import proofs.«150687_j35459249996685_2_alg».proof.Proof.Gen.KernelIdeal.Launch
import proofs.«150687_j35459249996685_2_alg».proof.Proof.Gen.KernelIdeal.Skeleton
import proofs.«150687_j35459249996685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Block `t` of window `w`, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the point fetched it: an unfetched
    point has the index of the point before, and the body leaves the buffer as it found it. -/
theorem in0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem in0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem in0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body's four accesses: each the whole of its buffer. -/
abbrev rW0 : Rect S1024x1024 := Rect.unit (s := S1024x1024) ![0, 0] S1024x1024.size inb_S1024x1024_S1024x1024_0_0
abbrev rX0 : Rect S1024x512 := Rect.unit (s := S1024x512) ![0, 0] S1024x512.size inb_S1024x512_S1024x512_0_0
abbrev rB0 : Rect S1024x1 := Rect.unit (s := S1024x1) ![0, 0] S1024x1.size inb_S1024x1_S1024x1_0_0

/-- What the body leaves in the output block: the one store, of the product plus the bias column. -/
def proj0 (w : Vec F S1024x1024 .bf16) (x : Vec F S1024x512 .bf16) (b : Vec F S1024x1 .f32) : Vec F S1024x512 .bf16 :=
  View.canon [⟨rX0, k0_pay1 (View.ld w rW0) (View.ld x rX0) (View.ld b rB0)⟩]

/-- The one store is the whole block. -/
theorem proj0_cover (p0 : Vec F S1024x512 .bf16) (y : S1024x512.Idx) :
    ∃ pc ∈ ([⟨rX0, p0⟩] : List (View.Piece (Elt F) S1024x512 .bf16)), y ∈ pc.1.set :=
  View.cover_of_tiled [⟨rX0, p0⟩] S1024x512.size (by rfl) y

set_option maxHeartbeats 1000000 in
/-- The body on whole staging buffers: the three inputs are read and kept, the output buffer ends at `proj0` of them
    whatever it held. -/
theorem run0 (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S1024x1 .f32) (harg4 : arg4.IsWhole) (arg5 : Memref sig .tc .vmem S1024x512 .bf16) (harg5 : arg5.IsWhole)
    (w : Vec F S1024x1024 .bf16) (x : Vec F S1024x512 .bf16) (b : Vec F S1024x1 .f32) (K : PUnit → sProp 𝕄) :
    iprop(owns (c : Thread nD τ) arg2 fullShare w ∗ owns (c : Thread nD τ) arg3 fullShare x ∗ owns (c : Thread nD τ) arg4 fullShare b
        ∗ (∃ d, owns (c : Thread nD τ) arg5 fullShare d)
        ∗ (iprop(owns (c : Thread nD τ) arg2 fullShare w ∗ owns (c : Thread nD τ) arg3 fullShare x ∗ owns (c : Thread nD τ) arg4 fullShare b
            ∗ owns (c : Thread nD τ) arg5 fullShare (proj0 w x b)) -∗ K ⟨⟩))
      ⊢ wp frame (wpE (defs₀ (F := F)) Variants.none c none) E (cc0__linear_kernel_single i arg2 harg2 arg3 harg3 arg4 harg4 arg5 harg5) K := by
  simp only [cc0__linear_kernel_single_eq_skeleton]; unfold cc0__linear_kernel_single_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (proj0_cover _)

/-- The region's proof data on core `c`: the arrays as found; after the body each input's buffer at its block and the
    output's at `proj0` of the three input blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => proj0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = blk0 V c 2 t := by dsimp only [dat0]
theorem dat0_after_3 (c : Dev nD) (t : Fin cfg0.N) :
    (dat0 V c).after 3 t = proj0 (blk0 V c 0 t) (blk0 V c 1 t) (blk0 V c 2 t) := by dsimp only [dat0]

theorem dat0_before_0 (c : Dev nD) (t : Fin cfg0.N) (d) : (dat0 V c).before 0 t d = blk0 V c 0 t :=
  in0_0_of V (dat0 V c) (dat0_A V c 0) (dat0_after_0 V c) t d
theorem dat0_before_1 (c : Dev nD) (t : Fin cfg0.N) (d) : (dat0 V c).before 1 t d = blk0 V c 1 t :=
  in0_1_of V (dat0 V c) (dat0_A V c 1) (dat0_after_1 V c) t d
theorem dat0_before_2 (c : Dev nD) (t : Fin cfg0.N) (d) : (dat0 V c).before 2 t d = blk0 V c 2 t :=
  in0_2_of V (dat0 V c) (dat0_A V c 2) (dat0_after_2 V c) t d

/-- What the body is entered with at point `t`, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1, dat0_before_2]
  rw [show (dat0 V c).Φ t.succ = (dat0 V c).Φ t.castSucc from rfl,
    show (dat0 V c).owesAt () t.succ = (dat0 V c).owesAt () t.castSucc from rfl,
    dat0_after_0, dat0_after_1, dat0_after_2, dat0_after_3]
  iintro ⟨HΦ, Ho, ⟨%d0, H0⟩, ⟨%d1, H1⟩, ⟨%d2, H2⟩, ⟨%d3, H3⟩⟩
  iapply (run0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch's obligation for the body, at every point. -/
theorem obligation0 (c : Dev nD) : BodyObligation (dat0 (F := F) V c) (defs₀ (F := F)) Variants.none () Set.univ := fun t => by
  rw [bigSep_W0, bigSep_W0]
  exact body0 V c t

end Region0

end Cert.KernelIdeal.Hand

end
-- ==== Proof.KernelIdeal.Region1Runs.lean ====
/-
  The attention core, region by itself, first half: the body's runs. One grid point (i, j) takes the 256 query positions of
  tile i and the 128 key positions of tile j for all eight heads: the scaled scores, their softmax ACROSS THE HEADS at each
  (query, key) pair, and the weighted sum of the values over the tile's keys, added to an accumulator kept in a scoped buffer
  from one point to the next: reset at j = 0, stored into the output block i at j = 15. Three cases of the two conditions meet
  the grid (first, middle, last); each case's run finds the pieces it stores.
-/
import proofs.«150687_j35459249996685_2_alg».proof.Proof.Gen.KernelIdeal.Launch
import proofs.«150687_j35459249996685_2_alg».proof.Proof.Gen.KernelIdeal.Skeleton
import proofs.«150687_j35459249996685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Block `t` of window `w`, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the point's block whether or not the point fetched it. -/
theorem in1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
/-- Input window 1's staging buffer holds the point's block whether or not the point fetched it. -/
theorem in1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
/-- Input window 2's staging buffer holds the point's block whether or not the point fetched it. -/
theorem in1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two conditions on the reduction coordinate, and where the output window is idle -/

/-- The body's first branch: the reduction coordinate is 0 (the accumulator is reset). -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 16 = 0 :=
  (by decide +kernel : ∀ t : Fin grid1.N, first1 (grid1.coords t) ↔ t.val % 16 = 0)
/-- The body's second branch: the reduction coordinate is the last (the accumulator is written out). -/
abbrev last1 (i : grid1.Coords) : Prop := k1_cond2 i = 1#1
theorem last1_iff : ∀ t : Fin cfg1.N, last1 (grid1.coords t) ↔ t.val % 16 = 15 :=
  (by decide +kernel : ∀ t : Fin grid1.N, last1 (grid1.coords t) ↔ t.val % 16 = 15)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last reduction step the output window is idle and not written back. -/
theorem idle1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel
theorem live1_3 : ∀ t : Fin cfg1.N, last1 (grid1.coords t) → cfg1.idle 3 (grid1.coords t) = false := by decide +kernel

/-! ## The buffers the body is called with -/

abbrev m1_0 (t : Fin cfg1.N) : Memref sig .tc .vmem S8x1024x256 .bf16 := win1_0.stage (cfg1.slots t 0)
abbrev h1_0 (t : Fin cfg1.N) : (m1_0 t).IsWhole := hstage1_0 ((cfg1.slots t 0).cast nbuf1_0)
abbrev m1_1 (t : Fin cfg1.N) : Memref sig .tc .vmem S8x1024x128 .bf16 := win1_1.stage (cfg1.slots t 1)
abbrev h1_1 (t : Fin cfg1.N) : (m1_1 t).IsWhole := hstage1_1 ((cfg1.slots t 1).cast nbuf1_1)
abbrev m1_2 (t : Fin cfg1.N) : Memref sig .tc .vmem S8x1024x128 .bf16 := win1_2.stage (cfg1.slots t 2)
abbrev h1_2 (t : Fin cfg1.N) : (m1_2 t).IsWhole := hstage1_2 ((cfg1.slots t 2).cast nbuf1_2)
abbrev m1_3 (t : Fin cfg1.N) : Memref sig .tc .vmem S8x1024x256 .bf16 := win1_3.stage (cfg1.slots t 3)
abbrev h1_3 (t : Fin cfg1.N) : (m1_3 t).IsWhole := hstage1_3 ((cfg1.slots t 3).cast nbuf1_3)
/-- The accumulator: a scoped buffer of the kernel's own, kept from one grid point to the next. -/
abbrev scM1 : Memref sig .tc .vmem S8x1024x256 .f32 := Memref.whole cc1_scratch0
abbrev VS1 : View sig .tc .vmem S8x1024x256 .f32 := scM1.view
/-- One staging buffer of the output window, through which its contents are stated. -/
abbrev VO1 : View sig .tc .vmem S8x1024x256 .bf16 := (Memref.whole cc1_stg3_0 : Memref sig .tc .vmem S8x1024x256 .bf16).view

/-- Every other scoped buffer of the core (the other regions' staging buffers and accumulator), at anything. -/
def rest1 (c : Dev nD) : sProp 𝕄 :=
  Pipeline.scopedRestBut (Ix := Unit) (Name := ℕ) (U := UR sig nD τ) (Lvl := ℕ) (Val := Elt F) spec1 c [cc1_scratch0]

/-- What the launch hands the body beside the windows: the accumulator at anything, the other scoped buffers, the
    generator register. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA rest1
  rw [Pipeline.scopedRest_split_of_list spec1 c [cc1_scratch0] (by decide) (by decide)]
  simp only [scM1, owns_whole, bigSepL_singleton]
  rfl

/-! ## The body, case by case: what it stores, as pieces the run finds -/

set_option maxHeartbeats 1000000 in
/-- FIRST reduction step: the accumulator, at anything, is reset and the step's product added; the output buffer is not
    touched. The pieces left in the accumulator are found by the run. -/
noncomputable def runA1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : first1 i) (hl : ¬last1 i)
    (x0 : Vec F S8x1024x256 .bf16) (x1 : Vec F S8x1024x128 .bf16) (x2 : Vec F S8x1024x128 .bf16) :
    Σ' (L3 : List (View.Piece (Elt F) S8x1024x256 .bf16)), { LS : List (View.Piece (Elt F) S8x1024x256 .f32) //
      ∀ (xo : Vec F S8x1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨[], ?_, fun xo E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A MIDDLE reduction step: the step's product is added to what the accumulator held; the output buffer is not touched. -/
noncomputable def runB1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : ¬last1 i)
    (x0 : Vec F S8x1024x256 .bf16) (x1 : Vec F S8x1024x128 .bf16) (x2 : Vec F S8x1024x128 .bf16) (xs : Vec F S8x1024x256 .f32) :
    Σ' (L3 : List (View.Piece (Elt F) S8x1024x256 .bf16)), { LS : List (View.Piece (Elt F) S8x1024x256 .f32) //
      ∀ (xo : Vec F S8x1024x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨[], ?_, fun xo E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The LAST reduction step: the step's product is added to what the accumulator held, and the output buffer, at
    anything, is stored whole from the accumulator. -/
noncomputable def runC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i)
    (x0 : Vec F S8x1024x256 .bf16) (x1 : Vec F S8x1024x128 .bf16) (x2 : Vec F S8x1024x128 .bf16) (xs : Vec F S8x1024x256 .f32) :
    Σ' (L3 : List (View.Piece (Elt F) S8x1024x256 .bf16)), { LS : List (View.Piece (Elt F) S8x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Region1

end Cert.KernelIdeal.Hand

end
-- ==== Proof.KernelIdeal.Region1.lean ====
/-
  The attention core, region by itself, second half: what the output block and the accumulator hold after each grid point
  (by recursion on the point: the accumulator's contents pass from a point to the next), the region's invariant, the proof
  data, and the launch's obligation for the body at every point.
-/
import proofs.«150687_j35459249996685_2_alg».proof.Proof.KernelIdeal.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Case A: the pieces stored into the accumulator tile it. -/
theorem scoverA1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : first1 i) (hl : ¬last1 i) (x0 : Vec F S8x1024x256 .bf16) (x1 : Vec F S8x1024x128 .bf16) (x2 : Vec F S8x1024x128 .bf16) (y : S8x1024x256.Idx) :
    ∃ pc ∈ (runA1 c i arg2 harg2 arg3 harg3 arg4 harg4 arg5 harg5 arg6 harg6 hf hl x0 x1 x2).2.1, y ∈ pc.1.set :=
  View.cover_of_tiledL (runA1 c i arg2 harg2 arg3 harg3 arg4 harg4 arg5 harg5 arg6 harg6 hf hl x0 x1 x2).2.1 S8x1024x256.size (by sl_kernel_rfl) y
/-- Case A: what the accumulator holds after the body, its pieces read back. -/
def accA1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : first1 i) (hl : ¬last1 i) (x0 : Vec F S8x1024x256 .bf16) (x1 : Vec F S8x1024x128 .bf16) (x2 : Vec F S8x1024x128 .bf16) : Vec F S8x1024x256 .f32 :=
  VS1.read (Elt F) (VS1.writes (Elt F) VS1.junk (runA1 c i arg2 harg2 arg3 harg3 arg4 harg4 arg5 harg5 arg6 harg6 hf hl x0 x1 x2).2.1)
/-- Case A: what the output buffer holds after the body (nothing is stored: a placeholder no one consults, the window being idle and not written back). -/
def outA1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : first1 i) (hl : ¬last1 i) (x0 : Vec F S8x1024x256 .bf16) (x1 : Vec F S8x1024x128 .bf16) (x2 : Vec F S8x1024x128 .bf16) : Vec F S8x1024x256 .bf16 :=
  VO1.read (Elt F) (VO1.writes (Elt F) VO1.junk (runA1 c i arg2 harg2 arg3 harg3 arg4 harg4 arg5 harg5 arg6 harg6 hf hl x0 x1 x2).1)
/-- Case B: the pieces stored into the accumulator tile it. -/
theorem scoverB1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : ¬last1 i) (x0 : Vec F S8x1024x256 .bf16) (x1 : Vec F S8x1024x128 .bf16) (x2 : Vec F S8x1024x128 .bf16) (xs : Vec F S8x1024x256 .f32) (y : S8x1024x256.Idx) :
    ∃ pc ∈ (runB1 c i arg2 harg2 arg3 harg3 arg4 harg4 arg5 harg5 arg6 harg6 hf hl x0 x1 x2 xs).2.1, y ∈ pc.1.set :=
  View.cover_of_tiledL (runB1 c i arg2 harg2 arg3 harg3 arg4 harg4 arg5 harg5 arg6 harg6 hf hl x0 x1 x2 xs).2.1 S8x1024x256.size (by sl_kernel_rfl) y
/-- Case B: what the accumulator holds after the body, its pieces read back. -/
def accB1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : ¬last1 i) (x0 : Vec F S8x1024x256 .bf16) (x1 : Vec F S8x1024x128 .bf16) (x2 : Vec F S8x1024x128 .bf16) (xs : Vec F S8x1024x256 .f32) : Vec F S8x1024x256 .f32 :=
  VS1.read (Elt F) (VS1.writes (Elt F) VS1.junk (runB1 c i arg2 harg2 arg3 harg3 arg4 harg4 arg5 harg5 arg6 harg6 hf hl x0 x1 x2 xs).2.1)
/-- Case B: what the output buffer holds after the body (nothing is stored: a placeholder no one consults, the window being idle and not written back). -/
def outB1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : ¬last1 i) (x0 : Vec F S8x1024x256 .bf16) (x1 : Vec F S8x1024x128 .bf16) (x2 : Vec F S8x1024x128 .bf16) (xs : Vec F S8x1024x256 .f32) : Vec F S8x1024x256 .bf16 :=
  VO1.read (Elt F) (VO1.writes (Elt F) VO1.junk (runB1 c i arg2 harg2 arg3 harg3 arg4 harg4 arg5 harg5 arg6 harg6 hf hl x0 x1 x2 xs).1)
/-- Case C: the pieces stored into the accumulator tile it. -/
theorem scoverC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) (y : S8x1024x256.Idx) :
    ∃ pc ∈ (runC1 c i arg2 harg2 arg3 harg3 arg4 harg4 arg5 harg5 arg6 harg6 hf hl x0 x1 x2 xs).2.1, y ∈ pc.1.set :=
  View.cover_of_tiledL (runC1 c i arg2 harg2 arg3 harg3 arg4 harg4 arg5 harg5 arg6 harg6 hf hl x0 x1 x2 xs).2.1 S8x1024x256.size (by sl_kernel_rfl) y
/-- Case C: what the accumulator holds after the body, its pieces read back. -/
def accC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) : Vec F S8x1024x256 .f32 :=
  VS1.read (Elt F) (VS1.writes (Elt F) VS1.junk (runC1 c i arg2 harg2 arg3 harg3 arg4 harg4 arg5 harg5 arg6 harg6 hf hl x0 x1 x2 xs).2.1)
/-- Case C: what the output buffer holds after the body. -/
def outC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) : Vec F S8x1024x256 .bf16 :=
  VO1.read (Elt F) (VO1.writes (Elt F) VO1.junk (runC1 c i arg2 harg2 arg3 harg3 arg4 harg4 arg5 harg5 arg6 harg6 hf hl x0 x1 x2 xs).1)
/-- Case C: the one store into the output buffer is the whole block. -/
theorem coverC1 (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) (y : S8x1024x256.Idx) :
    ∃ pc ∈ (runC1 c i arg2 harg2 arg3 harg3 arg4 harg4 arg5 harg5 arg6 harg6 hf hl x0 x1 x2 xs).1, y ∈ pc.1.set :=
  View.cover_of_tiledL (runC1 c i arg2 harg2 arg3 harg3 arg4 harg4 arg5 harg5 arg6 harg6 hf hl x0 x1 x2 xs).1 S8x1024x256.size (by sl_kernel_rfl) y

/-! ## Point by point -/

/-- What the output buffer and the accumulator hold after the body at position `n`: the case the reduction coordinate
    selects, run on the point's blocks, from what the point before left in the accumulator. -/
def at1 (c : Dev nD) : (n : ℕ) → n < cfg1.N → Vec F S8x1024x256 .bf16 × Vec F S8x1024x256 .f32
  | 0, hn => (outA1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) scM1 (Memref.isWhole_whole _) ((first1_iff ⟨0, hn⟩).mpr (Nat.zero_mod _)) (fun h => (fun h => by (try dsimp only at h); omega) ((last1_iff ⟨0, hn⟩).mp h)) (blk1 V c 0 ⟨0, hn⟩) (blk1 V c 1 ⟨0, hn⟩) (blk1 V c 2 ⟨0, hn⟩), accA1 c (grid1.coords ⟨0, hn⟩) (m1_0 ⟨0, hn⟩) (h1_0 ⟨0, hn⟩) (m1_1 ⟨0, hn⟩) (h1_1 ⟨0, hn⟩) (m1_2 ⟨0, hn⟩) (h1_2 ⟨0, hn⟩) (m1_3 ⟨0, hn⟩) (h1_3 ⟨0, hn⟩) scM1 (Memref.isWhole_whole _) ((first1_iff ⟨0, hn⟩).mpr (Nat.zero_mod _)) (fun h => (fun h => by (try dsimp only at h); omega) ((last1_iff ⟨0, hn⟩).mp h)) (blk1 V c 0 ⟨0, hn⟩) (blk1 V c 1 ⟨0, hn⟩) (blk1 V c 2 ⟨0, hn⟩))
  | n + 1, hn =>
    if h0 : (n + 1) % 16 = 0 then
      if h1 : (n + 1) % 16 = 15 then
        False.elim (by omega)
      else
        (outA1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) ((first1_iff ⟨n + 1, hn⟩).mpr h0) (fun h => h1 ((last1_iff ⟨n + 1, hn⟩).mp h)) (blk1 V c 0 ⟨n + 1, hn⟩) (blk1 V c 1 ⟨n + 1, hn⟩) (blk1 V c 2 ⟨n + 1, hn⟩), accA1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) ((first1_iff ⟨n + 1, hn⟩).mpr h0) (fun h => h1 ((last1_iff ⟨n + 1, hn⟩).mp h)) (blk1 V c 0 ⟨n + 1, hn⟩) (blk1 V c 1 ⟨n + 1, hn⟩) (blk1 V c 2 ⟨n + 1, hn⟩))
    else
      if h1 : (n + 1) % 16 = 15 then
        (outC1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) (fun h => h0 ((first1_iff ⟨n + 1, hn⟩).mp h)) ((last1_iff ⟨n + 1, hn⟩).mpr h1) (blk1 V c 0 ⟨n + 1, hn⟩) (blk1 V c 1 ⟨n + 1, hn⟩) (blk1 V c 2 ⟨n + 1, hn⟩) (at1 c n (Nat.lt_of_succ_lt hn)).2, accC1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) (fun h => h0 ((first1_iff ⟨n + 1, hn⟩).mp h)) ((last1_iff ⟨n + 1, hn⟩).mpr h1) (blk1 V c 0 ⟨n + 1, hn⟩) (blk1 V c 1 ⟨n + 1, hn⟩) (blk1 V c 2 ⟨n + 1, hn⟩) (at1 c n (Nat.lt_of_succ_lt hn)).2)
      else
        (outB1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) (fun h => h0 ((first1_iff ⟨n + 1, hn⟩).mp h)) (fun h => h1 ((last1_iff ⟨n + 1, hn⟩).mp h)) (blk1 V c 0 ⟨n + 1, hn⟩) (blk1 V c 1 ⟨n + 1, hn⟩) (blk1 V c 2 ⟨n + 1, hn⟩) (at1 c n (Nat.lt_of_succ_lt hn)).2, accB1 c (grid1.coords ⟨n + 1, hn⟩) (m1_0 ⟨n + 1, hn⟩) (h1_0 ⟨n + 1, hn⟩) (m1_1 ⟨n + 1, hn⟩) (h1_1 ⟨n + 1, hn⟩) (m1_2 ⟨n + 1, hn⟩) (h1_2 ⟨n + 1, hn⟩) (m1_3 ⟨n + 1, hn⟩) (h1_3 ⟨n + 1, hn⟩) scM1 (Memref.isWhole_whole _) (fun h => h0 ((first1_iff ⟨n + 1, hn⟩).mp h)) (fun h => h1 ((last1_iff ⟨n + 1, hn⟩).mp h)) (blk1 V c 0 ⟨n + 1, hn⟩) (blk1 V c 1 ⟨n + 1, hn⟩) (blk1 V c 2 ⟨n + 1, hn⟩) (at1 c n (Nat.lt_of_succ_lt hn)).2)

theorem at1_A (c : Dev nD) (t : Fin cfg1.N) (h0 : t.val % 16 = 0) (h1 : ¬t.val % 16 = 15) :
    at1 V c t.val t.isLt = (outA1 c (grid1.coords t) (m1_0 t) (h1_0 t) (m1_1 t) (h1_1 t) (m1_2 t) (h1_2 t) (m1_3 t) (h1_3 t) scM1 (Memref.isWhole_whole _) ((first1_iff t).mpr h0) (fun h => h1 ((last1_iff t).mp h)) (blk1 V c 0 t) (blk1 V c 1 t) (blk1 V c 2 t), accA1 c (grid1.coords t) (m1_0 t) (h1_0 t) (m1_1 t) (h1_1 t) (m1_2 t) (h1_2 t) (m1_3 t) (h1_3 t) scM1 (Memref.isWhole_whole _) ((first1_iff t).mpr h0) (fun h => h1 ((last1_iff t).mp h)) (blk1 V c 0 t) (blk1 V c 1 t) (blk1 V c 2 t)) := by
  obtain ⟨n, hn⟩ := t
  cases n with
  | zero => exact rfl
  | succ n => exact (dif_pos h0).trans ((dif_neg h1).trans rfl)

theorem at1_B (c : Dev nD) (t : Fin cfg1.N) (h0 : ¬t.val % 16 = 0) (h1 : ¬t.val % 16 = 15) :
    at1 V c t.val t.isLt = (outB1 c (grid1.coords t) (m1_0 t) (h1_0 t) (m1_1 t) (h1_1 t) (m1_2 t) (h1_2 t) (m1_3 t) (h1_3 t) scM1 (Memref.isWhole_whole _) (fun h => h0 ((first1_iff t).mp h)) (fun h => h1 ((last1_iff t).mp h)) (blk1 V c 0 t) (blk1 V c 1 t) (blk1 V c 2 t) (at1 V c (t.val - 1) (Nat.lt_of_le_of_lt (Nat.sub_le _ _) t.isLt)).2, accB1 c (grid1.coords t) (m1_0 t) (h1_0 t) (m1_1 t) (h1_1 t) (m1_2 t) (h1_2 t) (m1_3 t) (h1_3 t) scM1 (Memref.isWhole_whole _) (fun h => h0 ((first1_iff t).mp h)) (fun h => h1 ((last1_iff t).mp h)) (blk1 V c 0 t) (blk1 V c 1 t) (blk1 V c 2 t) (at1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem at1_C (c : Dev nD) (t : Fin cfg1.N) (h0 : ¬t.val % 16 = 0) (h1 : t.val % 16 = 15) :
    at1 V c t.val t.isLt = (outC1 c (grid1.coords t) (m1_0 t) (h1_0 t) (m1_1 t) (h1_1 t) (m1_2 t) (h1_2 t) (m1_3 t) (h1_3 t) scM1 (Memref.isWhole_whole _) (fun h => h0 ((first1_iff t).mp h)) ((last1_iff t).mpr h1) (blk1 V c 0 t) (blk1 V c 1 t) (blk1 V c 2 t) (at1 V c (t.val - 1) (Nat.lt_of_le_of_lt (Nat.sub_le _ _) t.isLt)).2, accC1 c (grid1.coords t) (m1_0 t) (h1_0 t) (m1_1 t) (h1_1 t) (m1_2 t) (h1_2 t) (m1_3 t) (h1_3 t) scM1 (Memref.isWhole_whole _) (fun h => h0 ((first1_iff t).mp h)) ((last1_iff t).mpr h1) (blk1 V c 0 t) (blk1 V c 1 t) (blk1 V c 2 t) (at1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left in it, the other scoped buffers and the generator register. -/
def inv1 (c : Dev nD) : (n : ℕ) → n ≤ cfg1.N → sProp 𝕄
  | 0, _ => Pipeline.ΦA spec1 c
  | n + 1, hn => iprop(iprop(owns (c : Thread nD τ) scM1 fullShare ((at1 V c n hn).2) ∗ rest1 c) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop(iprop(owns (c : Thread nD τ) scM1 fullShare ((at1 V c n hn).2) ∗ rest1 c) ∗ (∃ r, prngReg c r)) := rfl
theorem inv1_pos (c : Dev nD) (n : ℕ) (h : n ≤ cfg1.N) (hz : n ≠ 0) :
    inv1 V c n h = iprop(iprop(owns (c : Thread nD τ) scM1 fullShare ((at1 V c (n - 1) (by omega)).2) ∗ rest1 c) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (at1 V c t.val t.isLt).1
  Φ t := inv1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_inv (c : Dev nD) (t : Fin cfg1.N) :
    (dat1 V c).Φ t.castSucc = inv1 V c t.val (Nat.le_of_lt t.isLt) := by
  dsimp only [dat1]; simp only [Fin.coe_castSucc]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = (at1 V c t.val t.isLt).1 := by dsimp only [dat1]
theorem dat1_before_0 (c : Dev nD) (t : Fin cfg1.N) (d) : (dat1 V c).before 0 t d = blk1 V c 0 t :=
  in1_0_of V (dat1 V c) (dat1_A V c 0) (dat1_after_0 V c) t d
theorem dat1_before_1 (c : Dev nD) (t : Fin cfg1.N) (d) : (dat1 V c).before 1 t d = blk1 V c 1 t :=
  in1_1_of V (dat1 V c) (dat1_A V c 1) (dat1_after_1 V c) t d
theorem dat1_before_2 (c : Dev nD) (t : Fin cfg1.N) (d) : (dat1 V c).before 2 t d = blk1 V c 2 t :=
  in1_2_of V (dat1 V c) (dat1_A V c 2) (dat1_after_2 V c) t d

/-- What the body is entered with at point `t`, -/
def pre1 (c : Dev nD) (t : Fin cfg1.N) : sProp 𝕄 :=
  iprop((dat1 V c).Φ t.castSucc ∗ (dat1 V c).owesAt () t.castSucc
    ∗ (∃ d, owns (c : Thread nD τ) (m1_0 t) fullShare ((dat1 V c).before 0 t d))
    ∗ (∃ d, owns (c : Thread nD τ) (m1_1 t) fullShare ((dat1 V c).before 1 t d))
    ∗ (∃ d, owns (c : Thread nD τ) (m1_2 t) fullShare ((dat1 V c).before 2 t d))
    ∗ (∃ d, owns (c : Thread nD τ) (m1_3 t) fullShare ((dat1 V c).before 3 t d)))

/-- and what it returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the reduction coordinate says which case the point is in; the invariant hands the body the
    accumulator (at anything before the first point, else at what the point before left) and takes it back at this
    point's contents. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2]
  rw [show (dat1 V c).owesAt () t.succ = (dat1 V c).owesAt () t.castSucc from rfl]
  rw [show (dat1 V c).Φ t.succ = inv1 V c (t.val + 1) t.isLt from rfl, inv1_succ]
  have hN : t.val < 128 := lt_of_lt_of_eq t.isLt (show cfg1.N = 128 from N_1)
  rw [show (dat1 V c).leavesExact 0 t = owns (c : Thread nD τ) (m1_0 t) fullShare ((dat1 V c).after 0 t) from by
    unfold Dat.leavesExact; rw [live1_0 t], dat1_after_0]
  rw [show (dat1 V c).leavesExact 1 t = owns (c : Thread nD τ) (m1_1 t) fullShare ((dat1 V c).after 1 t) from by
    unfold Dat.leavesExact; rw [live1_1 t], dat1_after_1]
  rw [show (dat1 V c).leavesExact 2 t = owns (c : Thread nD τ) (m1_2 t) fullShare ((dat1 V c).after 2 t) from by
    unfold Dat.leavesExact; rw [live1_2 t], dat1_after_2]
  by_cases h0 : t.val % 16 = 0
  · have h1 : ¬t.val % 16 = 15 := by omega
    rw [Dat.leavesExact_idle (dat1 V c) 3 t (idle1_3 t (fun h => h1 ((last1_iff t).mp h))) (noFlush1_3 t (fun h => h1 ((last1_iff t).mp h)))]
    rw [at1_A V c t h0 h1]
    unfold accA1; (try dsimp only)
    by_cases hz : t.val = 0
    · rw [dat1_inv V c t, inv1_zero V c _ _ hz, PhiA1_eq]
      iintro ⟨⟨⟨HS, Hr⟩, Hg⟩, Ho, ⟨%d0, H0⟩, ⟨%d1, H1⟩, ⟨%d2, H2⟩, ⟨%d3, H3⟩⟩
      iapply ((runA1 c (grid1.coords t) _ _ _ _ _ _ _ _ _ _ ((first1_iff t).mpr h0) (fun h => h1 ((last1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverA1 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [dat1_inv V c t, inv1_pos V c _ _ hz]
      iintro ⟨⟨⟨HS, Hr⟩, Hg⟩, Ho, ⟨%d0, H0⟩, ⟨%d1, H1⟩, ⟨%d2, H2⟩, ⟨%d3, H3⟩⟩
      iapply ((runA1 c (grid1.coords t) _ _ _ _ _ _ _ _ _ _ ((first1_iff t).mpr h0) (fun h => h1 ((last1_iff t).mp h)) (blk1 V c 0 t) (blk1 V c 1 t) (blk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverA1 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · rw [show (dat1 V c).leavesExact 3 t = owns (c : Thread nD τ) (m1_3 t) fullShare ((dat1 V c).after 3 t) from by
        unfold Dat.leavesExact; rw [live1_3 t ((last1_iff t).mpr h1)], dat1_after_3]
      rw [at1_C V c t h0 h1]
      unfold outC1 accC1; (try dsimp only)
      rw [dat1_inv V c t, inv1_pos V c _ _ hz]
      iintro ⟨⟨⟨HS, Hr⟩, Hg⟩, Ho, ⟨%d0, H0⟩, ⟨%d1, H1⟩, ⟨%d2, H2⟩, ⟨%d3, H3⟩⟩
      iapply ((runC1 c (grid1.coords t) _ _ _ _ _ _ _ _ _ _ (fun h => h0 ((first1_iff t).mp h)) ((last1_iff t).mpr h1) (blk1 V c 0 t) (blk1 V c 1 t) (blk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scoverC1 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC1 c _ _ _ _ _ _ _ _ _ _ _ _ _ _ _ _ _)
    · rw [Dat.leavesExact_idle (dat1 V c) 3 t (idle1_3 t (fun h => h1 ((last1_iff t).mp h))) (noFlush1_3 t (fun h => h1 ((last1_iff t).mp h)))]
      rw [at1_B V c t h0 h1]
      unfold accB1; (try dsimp only)
      rw [dat1_inv V c t, inv1_pos V c _ _ hz]
      iintro ⟨⟨⟨HS, Hr⟩, Hg⟩, Ho, ⟨%d0, H0⟩, ⟨%d1, H1⟩, ⟨%d2, H2⟩, ⟨%d3, H3⟩⟩
      iapply ((runB1 c (grid1.coords t) _ _ _ _ _ _ _ _ _ _ (fun h => h0 ((first1_iff t).mp h)) (fun h => h1 ((last1_iff t).mp h)) (blk1 V c 0 t) (blk1 V c 1 t) (blk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverB1 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The launch's obligation for the body, at every point. -/
theorem obligation1 (c : Dev nD) : BodyObligation (dat1 (F := F) V c) (defs₀ (F := F)) Variants.none () Set.univ := fun t => by
  rw [bigSep_W1, bigSep_W1]
  exact body1 V c t

/-- What the launch hands the region is the invariant before the first point. -/
theorem enter1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives it back, the accumulator's contents forgotten. -/
theorem leave1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 128 := N_1; omega), PhiA1_eq]
  iintro ⟨⟨HS, Hr⟩, Hg⟩
  isplitl [HS Hr]
  · isplitl [HS]
    · iexists _; iexact HS
    iexact Hr
  iexact Hg

end Region1

end Cert.KernelIdeal.Hand

end
-- ==== Proof.KernelIdeal.Region2Runs.lean ====
/-
  The output projection, region by itself, first half: the body's runs. One grid point multiplies the 1024 x 1024 band k of the
  output weights by the 1024 x 512 block (k, j) of the context and adds the product to an accumulator kept in a scoped
  buffer from one point to the next: reset at k = 0, and at k = 7 stored, with the bias column added, into the output block j.
  Three cases of the two conditions meet the grid (first, middle, last); each case's run finds the pieces it stores.
-/
import proofs.«150687_j35459249996685_2_alg».proof.Proof.Gen.KernelIdeal.Launch
import proofs.«150687_j35459249996685_2_alg».proof.Proof.Gen.KernelIdeal.Skeleton
import proofs.«150687_j35459249996685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Block `t` of window `w`, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the point's block whether or not the point fetched it. -/
theorem in2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
/-- Input window 1's staging buffer holds the point's block whether or not the point fetched it. -/
theorem in2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
/-- Input window 2's staging buffer holds the point's block whether or not the point fetched it. -/
theorem in2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! ## The two conditions on the reduction coordinate, and where the output window is idle -/

/-- The body's first branch: the reduction coordinate is 0 (the accumulator is reset). -/
abbrev first2 (i : grid2.Coords) : Prop := (Scalar.cmpi .ne (Scalar.extui (Scalar.cmpi .eq (BitVec.ofNat 32 (i 2).val) 0#32)) 0#32) = 1#1
theorem first2_iff : ∀ t : Fin cfg2.N, first2 (grid2.coords t) ↔ t.val % 8 = 0 :=
  (by decide +kernel : ∀ t : Fin grid2.N, first2 (grid2.coords t) ↔ t.val % 8 = 0)
/-- The body's second branch: the reduction coordinate is the last (the accumulator is written out). -/
abbrev last2 (i : grid2.Coords) : Prop := k2_cond2 i = 1#1
theorem last2_iff : ∀ t : Fin cfg2.N, last2 (grid2.coords t) ↔ t.val % 8 = 7 :=
  (by decide +kernel : ∀ t : Fin grid2.N, last2 (grid2.coords t) ↔ t.val % 8 = 7)

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from the last reduction step the output window is idle and not written back. -/
theorem idle2_3 : ∀ t : Fin cfg2.N, ¬last2 (grid2.coords t) → cfg2.idle 3 (grid2.coords t) = true := by decide +kernel
theorem noFlush2_3 : ∀ t : Fin cfg2.N, ¬last2 (grid2.coords t) → (cfg2.win 3).flush t = false := by decide +kernel
theorem live2_3 : ∀ t : Fin cfg2.N, last2 (grid2.coords t) → cfg2.idle 3 (grid2.coords t) = false := by decide +kernel

/-! ## The buffers the body is called with -/

abbrev m2_0 (t : Fin cfg2.N) : Memref sig .tc .vmem S1024x1024 .bf16 := win2_0.stage (cfg2.slots t 0)
abbrev h2_0 (t : Fin cfg2.N) : (m2_0 t).IsWhole := hstage2_0 ((cfg2.slots t 0).cast nbuf2_0)
abbrev m2_1 (t : Fin cfg2.N) : Memref sig .tc .vmem S1024x512 .bf16 := win2_1.stage (cfg2.slots t 1)
abbrev h2_1 (t : Fin cfg2.N) : (m2_1 t).IsWhole := hstage2_1 ((cfg2.slots t 1).cast nbuf2_1)
abbrev m2_2 (t : Fin cfg2.N) : Memref sig .tc .vmem S1024x1 .f32 := win2_2.stage (cfg2.slots t 2)
abbrev h2_2 (t : Fin cfg2.N) : (m2_2 t).IsWhole := hstage2_2 ((cfg2.slots t 2).cast nbuf2_2)
abbrev m2_3 (t : Fin cfg2.N) : Memref sig .tc .vmem S1024x512 .f32 := win2_3.stage (cfg2.slots t 3)
abbrev h2_3 (t : Fin cfg2.N) : (m2_3 t).IsWhole := hstage2_3 ((cfg2.slots t 3).cast nbuf2_3)
/-- The accumulator: a scoped buffer of the kernel's own, kept from one grid point to the next. -/
abbrev scM2 : Memref sig .tc .vmem S1024x512 .f32 := Memref.whole cc2_scratch0
abbrev VS2 : View sig .tc .vmem S1024x512 .f32 := scM2.view
/-- One staging buffer of the output window, through which its contents are stated. -/
abbrev VO2 : View sig .tc .vmem S1024x512 .f32 := (Memref.whole cc2_stg3_0 : Memref sig .tc .vmem S1024x512 .f32).view

/-- Every other scoped buffer of the core (the other regions' staging buffers and accumulator), at anything. -/
def rest2 (c : Dev nD) : sProp 𝕄 :=
  Pipeline.scopedRestBut (Ix := Unit) (Name := ℕ) (U := UR sig nD τ) (Lvl := ℕ) (Val := Elt F) spec2 c [cc2_scratch0]

/-- What the launch hands the body beside the windows: the accumulator at anything, the other scoped buffers, the
    generator register. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA rest2
  rw [Pipeline.scopedRest_split_of_list spec2 c [cc2_scratch0] (by decide) (by decide)]
  simp only [scM2, owns_whole, bigSepL_singleton]
  rfl

/-! ## The body, case by case: what it stores, as pieces the run finds -/

set_option maxHeartbeats 1000000 in
/-- FIRST reduction step: the accumulator, at anything, is reset and the step's product added; the output buffer is not
    touched. The pieces left in the accumulator are found by the run. -/
noncomputable def runA2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : first2 i) (hl : ¬last2 i)
    (x0 : Vec F S1024x1024 .bf16) (x1 : Vec F S1024x512 .bf16) (x2 : Vec F S1024x1 .f32) :
    Σ' (L3 : List (View.Piece (Elt F) S1024x512 .f32)), { LS : List (View.Piece (Elt F) S1024x512 .f32) //
      ∀ (xo : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc2__linear_kernel_acc i arg3 harg3 arg4 harg4 arg5 harg5 arg6 harg6 arg7 harg7) K } := by
  refine ⟨[], ?_, fun xo E K => ?run⟩
  case run =>
    simp only [cc2__linear_kernel_acc_eq_skeleton]; unfold cc2__linear_kernel_acc_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- A MIDDLE reduction step: the step's product is added to what the accumulator held; the output buffer is not touched. -/
noncomputable def runB2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : ¬last2 i)
    (x0 : Vec F S1024x1024 .bf16) (x1 : Vec F S1024x512 .bf16) (x2 : Vec F S1024x1 .f32) (xs : Vec F S1024x512 .f32) :
    Σ' (L3 : List (View.Piece (Elt F) S1024x512 .f32)), { LS : List (View.Piece (Elt F) S1024x512 .f32) //
      ∀ (xo : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc2__linear_kernel_acc i arg3 harg3 arg4 harg4 arg5 harg5 arg6 harg6 arg7 harg7) K } := by
  refine ⟨[], ?_, fun xo E K => ?run⟩
  case run =>
    simp only [cc2__linear_kernel_acc_eq_skeleton]; unfold cc2__linear_kernel_acc_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- The LAST reduction step: the step's product is added to what the accumulator held, and the output buffer, at
    anything, is stored whole from the accumulator. -/
noncomputable def runC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i)
    (x0 : Vec F S1024x1024 .bf16) (x1 : Vec F S1024x512 .bf16) (x2 : Vec F S1024x1 .f32) (xs : Vec F S1024x512 .f32) :
    Σ' (L3 : List (View.Piece (Elt F) S1024x512 .f32)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__linear_kernel_acc i arg3 harg3 arg4 harg4 arg5 harg5 arg6 harg6 arg7 harg7) K } := by
  refine ⟨?_, ?_, fun E K => ?run⟩
  case run =>
    simp only [cc2__linear_kernel_acc_eq_skeleton]; unfold cc2__linear_kernel_acc_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Region2

end Cert.KernelIdeal.Hand

end
-- ==== Proof.KernelIdeal.Region2.lean ====
/-
  The output projection, region by itself, second half: what the output block and the accumulator hold after each grid
  point (by recursion on the point: the accumulator's contents pass from a point to the next), the region's invariant, the
  proof data, and the launch's obligation for the body at every point.
-/
import proofs.«150687_j35459249996685_2_alg».proof.Proof.KernelIdeal.Region2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Case A: the pieces stored into the accumulator tile it. -/
theorem scoverA2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : first2 i) (hl : ¬last2 i) (x0 : Vec F S1024x1024 .bf16) (x1 : Vec F S1024x512 .bf16) (x2 : Vec F S1024x1 .f32) (y : S1024x512.Idx) :
    ∃ pc ∈ (runA2 c i arg3 harg3 arg4 harg4 arg5 harg5 arg6 harg6 arg7 harg7 hf hl x0 x1 x2).2.1, y ∈ pc.1.set :=
  View.cover_of_tiledL (runA2 c i arg3 harg3 arg4 harg4 arg5 harg5 arg6 harg6 arg7 harg7 hf hl x0 x1 x2).2.1 S1024x512.size (by sl_kernel_rfl) y
/-- Case A: what the accumulator holds after the body, its pieces read back. -/
def accA2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : first2 i) (hl : ¬last2 i) (x0 : Vec F S1024x1024 .bf16) (x1 : Vec F S1024x512 .bf16) (x2 : Vec F S1024x1 .f32) : Vec F S1024x512 .f32 :=
  VS2.read (Elt F) (VS2.writes (Elt F) VS2.junk (runA2 c i arg3 harg3 arg4 harg4 arg5 harg5 arg6 harg6 arg7 harg7 hf hl x0 x1 x2).2.1)
/-- Case A: what the output buffer holds after the body (nothing is stored: a placeholder no one consults, the window being idle and not written back). -/
def outA2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : first2 i) (hl : ¬last2 i) (x0 : Vec F S1024x1024 .bf16) (x1 : Vec F S1024x512 .bf16) (x2 : Vec F S1024x1 .f32) : Vec F S1024x512 .f32 :=
  VO2.read (Elt F) (VO2.writes (Elt F) VO2.junk (runA2 c i arg3 harg3 arg4 harg4 arg5 harg5 arg6 harg6 arg7 harg7 hf hl x0 x1 x2).1)
/-- Case B: the pieces stored into the accumulator tile it. -/
theorem scoverB2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : ¬last2 i) (x0 : Vec F S1024x1024 .bf16) (x1 : Vec F S1024x512 .bf16) (x2 : Vec F S1024x1 .f32) (xs : Vec F S1024x512 .f32) (y : S1024x512.Idx) :
    ∃ pc ∈ (runB2 c i arg3 harg3 arg4 harg4 arg5 harg5 arg6 harg6 arg7 harg7 hf hl x0 x1 x2 xs).2.1, y ∈ pc.1.set :=
  View.cover_of_tiledL (runB2 c i arg3 harg3 arg4 harg4 arg5 harg5 arg6 harg6 arg7 harg7 hf hl x0 x1 x2 xs).2.1 S1024x512.size (by sl_kernel_rfl) y
/-- Case B: what the accumulator holds after the body, its pieces read back. -/
def accB2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : ¬last2 i) (x0 : Vec F S1024x1024 .bf16) (x1 : Vec F S1024x512 .bf16) (x2 : Vec F S1024x1 .f32) (xs : Vec F S1024x512 .f32) : Vec F S1024x512 .f32 :=
  VS2.read (Elt F) (VS2.writes (Elt F) VS2.junk (runB2 c i arg3 harg3 arg4 harg4 arg5 harg5 arg6 harg6 arg7 harg7 hf hl x0 x1 x2 xs).2.1)
/-- Case B: what the output buffer holds after the body (nothing is stored: a placeholder no one consults, the window being idle and not written back). -/
def outB2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : ¬last2 i) (x0 : Vec F S1024x1024 .bf16) (x1 : Vec F S1024x512 .bf16) (x2 : Vec F S1024x1 .f32) (xs : Vec F S1024x512 .f32) : Vec F S1024x512 .f32 :=
  VO2.read (Elt F) (VO2.writes (Elt F) VO2.junk (runB2 c i arg3 harg3 arg4 harg4 arg5 harg5 arg6 harg6 arg7 harg7 hf hl x0 x1 x2 xs).1)
/-- Case C: the pieces stored into the accumulator tile it. -/
theorem scoverC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) (y : S1024x512.Idx) :
    ∃ pc ∈ (runC2 c i arg3 harg3 arg4 harg4 arg5 harg5 arg6 harg6 arg7 harg7 hf hl x0 x1 x2 xs).2.1, y ∈ pc.1.set :=
  View.cover_of_tiledL (runC2 c i arg3 harg3 arg4 harg4 arg5 harg5 arg6 harg6 arg7 harg7 hf hl x0 x1 x2 xs).2.1 S1024x512.size (by sl_kernel_rfl) y
/-- Case C: what the accumulator holds after the body, its pieces read back. -/
def accC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) : Vec F S1024x512 .f32 :=
  VS2.read (Elt F) (VS2.writes (Elt F) VS2.junk (runC2 c i arg3 harg3 arg4 harg4 arg5 harg5 arg6 harg6 arg7 harg7 hf hl x0 x1 x2 xs).2.1)
/-- Case C: what the output buffer holds after the body. -/
def outC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) : Vec F S1024x512 .f32 :=
  VO2.read (Elt F) (VO2.writes (Elt F) VO2.junk (runC2 c i arg3 harg3 arg4 harg4 arg5 harg5 arg6 harg6 arg7 harg7 hf hl x0 x1 x2 xs).1)
/-- Case C: the one store into the output buffer is the whole block. -/
theorem coverC2 (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) (y : S1024x512.Idx) :
    ∃ pc ∈ (runC2 c i arg3 harg3 arg4 harg4 arg5 harg5 arg6 harg6 arg7 harg7 hf hl x0 x1 x2 xs).1, y ∈ pc.1.set :=
  View.cover_of_tiledL (runC2 c i arg3 harg3 arg4 harg4 arg5 harg5 arg6 harg6 arg7 harg7 hf hl x0 x1 x2 xs).1 S1024x512.size (by sl_kernel_rfl) y

/-! ## Point by point -/

/-- What the output buffer and the accumulator hold after the body at position `n`: the case the reduction coordinate
    selects, run on the point's blocks, from what the point before left in the accumulator. -/
def at2 (c : Dev nD) : (n : ℕ) → n < cfg2.N → Vec F S1024x512 .f32 × Vec F S1024x512 .f32
  | 0, hn => (outA2 c (grid2.coords ⟨0, hn⟩) (m2_0 ⟨0, hn⟩) (h2_0 ⟨0, hn⟩) (m2_1 ⟨0, hn⟩) (h2_1 ⟨0, hn⟩) (m2_2 ⟨0, hn⟩) (h2_2 ⟨0, hn⟩) (m2_3 ⟨0, hn⟩) (h2_3 ⟨0, hn⟩) scM2 (Memref.isWhole_whole _) ((first2_iff ⟨0, hn⟩).mpr (Nat.zero_mod _)) (fun h => (fun h => by (try dsimp only at h); omega) ((last2_iff ⟨0, hn⟩).mp h)) (blk2 V c 0 ⟨0, hn⟩) (blk2 V c 1 ⟨0, hn⟩) (blk2 V c 2 ⟨0, hn⟩), accA2 c (grid2.coords ⟨0, hn⟩) (m2_0 ⟨0, hn⟩) (h2_0 ⟨0, hn⟩) (m2_1 ⟨0, hn⟩) (h2_1 ⟨0, hn⟩) (m2_2 ⟨0, hn⟩) (h2_2 ⟨0, hn⟩) (m2_3 ⟨0, hn⟩) (h2_3 ⟨0, hn⟩) scM2 (Memref.isWhole_whole _) ((first2_iff ⟨0, hn⟩).mpr (Nat.zero_mod _)) (fun h => (fun h => by (try dsimp only at h); omega) ((last2_iff ⟨0, hn⟩).mp h)) (blk2 V c 0 ⟨0, hn⟩) (blk2 V c 1 ⟨0, hn⟩) (blk2 V c 2 ⟨0, hn⟩))
  | n + 1, hn =>
    if h0 : (n + 1) % 8 = 0 then
      if h1 : (n + 1) % 8 = 7 then
        False.elim (by omega)
      else
        (outA2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) ((first2_iff ⟨n + 1, hn⟩).mpr h0) (fun h => h1 ((last2_iff ⟨n + 1, hn⟩).mp h)) (blk2 V c 0 ⟨n + 1, hn⟩) (blk2 V c 1 ⟨n + 1, hn⟩) (blk2 V c 2 ⟨n + 1, hn⟩), accA2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) ((first2_iff ⟨n + 1, hn⟩).mpr h0) (fun h => h1 ((last2_iff ⟨n + 1, hn⟩).mp h)) (blk2 V c 0 ⟨n + 1, hn⟩) (blk2 V c 1 ⟨n + 1, hn⟩) (blk2 V c 2 ⟨n + 1, hn⟩))
    else
      if h1 : (n + 1) % 8 = 7 then
        (outC2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) (fun h => h0 ((first2_iff ⟨n + 1, hn⟩).mp h)) ((last2_iff ⟨n + 1, hn⟩).mpr h1) (blk2 V c 0 ⟨n + 1, hn⟩) (blk2 V c 1 ⟨n + 1, hn⟩) (blk2 V c 2 ⟨n + 1, hn⟩) (at2 c n (Nat.lt_of_succ_lt hn)).2, accC2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) (fun h => h0 ((first2_iff ⟨n + 1, hn⟩).mp h)) ((last2_iff ⟨n + 1, hn⟩).mpr h1) (blk2 V c 0 ⟨n + 1, hn⟩) (blk2 V c 1 ⟨n + 1, hn⟩) (blk2 V c 2 ⟨n + 1, hn⟩) (at2 c n (Nat.lt_of_succ_lt hn)).2)
      else
        (outB2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) (fun h => h0 ((first2_iff ⟨n + 1, hn⟩).mp h)) (fun h => h1 ((last2_iff ⟨n + 1, hn⟩).mp h)) (blk2 V c 0 ⟨n + 1, hn⟩) (blk2 V c 1 ⟨n + 1, hn⟩) (blk2 V c 2 ⟨n + 1, hn⟩) (at2 c n (Nat.lt_of_succ_lt hn)).2, accB2 c (grid2.coords ⟨n + 1, hn⟩) (m2_0 ⟨n + 1, hn⟩) (h2_0 ⟨n + 1, hn⟩) (m2_1 ⟨n + 1, hn⟩) (h2_1 ⟨n + 1, hn⟩) (m2_2 ⟨n + 1, hn⟩) (h2_2 ⟨n + 1, hn⟩) (m2_3 ⟨n + 1, hn⟩) (h2_3 ⟨n + 1, hn⟩) scM2 (Memref.isWhole_whole _) (fun h => h0 ((first2_iff ⟨n + 1, hn⟩).mp h)) (fun h => h1 ((last2_iff ⟨n + 1, hn⟩).mp h)) (blk2 V c 0 ⟨n + 1, hn⟩) (blk2 V c 1 ⟨n + 1, hn⟩) (blk2 V c 2 ⟨n + 1, hn⟩) (at2 c n (Nat.lt_of_succ_lt hn)).2)

theorem at2_A (c : Dev nD) (t : Fin cfg2.N) (h0 : t.val % 8 = 0) (h1 : ¬t.val % 8 = 7) :
    at2 V c t.val t.isLt = (outA2 c (grid2.coords t) (m2_0 t) (h2_0 t) (m2_1 t) (h2_1 t) (m2_2 t) (h2_2 t) (m2_3 t) (h2_3 t) scM2 (Memref.isWhole_whole _) ((first2_iff t).mpr h0) (fun h => h1 ((last2_iff t).mp h)) (blk2 V c 0 t) (blk2 V c 1 t) (blk2 V c 2 t), accA2 c (grid2.coords t) (m2_0 t) (h2_0 t) (m2_1 t) (h2_1 t) (m2_2 t) (h2_2 t) (m2_3 t) (h2_3 t) scM2 (Memref.isWhole_whole _) ((first2_iff t).mpr h0) (fun h => h1 ((last2_iff t).mp h)) (blk2 V c 0 t) (blk2 V c 1 t) (blk2 V c 2 t)) := by
  obtain ⟨n, hn⟩ := t
  cases n with
  | zero => exact rfl
  | succ n => exact (dif_pos h0).trans ((dif_neg h1).trans rfl)

theorem at2_B (c : Dev nD) (t : Fin cfg2.N) (h0 : ¬t.val % 8 = 0) (h1 : ¬t.val % 8 = 7) :
    at2 V c t.val t.isLt = (outB2 c (grid2.coords t) (m2_0 t) (h2_0 t) (m2_1 t) (h2_1 t) (m2_2 t) (h2_2 t) (m2_3 t) (h2_3 t) scM2 (Memref.isWhole_whole _) (fun h => h0 ((first2_iff t).mp h)) (fun h => h1 ((last2_iff t).mp h)) (blk2 V c 0 t) (blk2 V c 1 t) (blk2 V c 2 t) (at2 V c (t.val - 1) (Nat.lt_of_le_of_lt (Nat.sub_le _ _) t.isLt)).2, accB2 c (grid2.coords t) (m2_0 t) (h2_0 t) (m2_1 t) (h2_1 t) (m2_2 t) (h2_2 t) (m2_3 t) (h2_3 t) scM2 (Memref.isWhole_whole _) (fun h => h0 ((first2_iff t).mp h)) (fun h => h1 ((last2_iff t).mp h)) (blk2 V c 0 t) (blk2 V c 1 t) (blk2 V c 2 t) (at2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem at2_C (c : Dev nD) (t : Fin cfg2.N) (h0 : ¬t.val % 8 = 0) (h1 : t.val % 8 = 7) :
    at2 V c t.val t.isLt = (outC2 c (grid2.coords t) (m2_0 t) (h2_0 t) (m2_1 t) (h2_1 t) (m2_2 t) (h2_2 t) (m2_3 t) (h2_3 t) scM2 (Memref.isWhole_whole _) (fun h => h0 ((first2_iff t).mp h)) ((last2_iff t).mpr h1) (blk2 V c 0 t) (blk2 V c 1 t) (blk2 V c 2 t) (at2 V c (t.val - 1) (Nat.lt_of_le_of_lt (Nat.sub_le _ _) t.isLt)).2, accC2 c (grid2.coords t) (m2_0 t) (h2_0 t) (m2_1 t) (h2_1 t) (m2_2 t) (h2_2 t) (m2_3 t) (h2_3 t) scM2 (Memref.isWhole_whole _) (fun h => h0 ((first2_iff t).mp h)) ((last2_iff t).mpr h1) (blk2 V c 0 t) (blk2 V c 1 t) (blk2 V c 2 t) (at2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    accumulator at what the point before left in it, the other scoped buffers and the generator register. -/
def inv2 (c : Dev nD) : (n : ℕ) → n ≤ cfg2.N → sProp 𝕄
  | 0, _ => Pipeline.ΦA spec2 c
  | n + 1, hn => iprop(iprop(owns (c : Thread nD τ) scM2 fullShare ((at2 V c n hn).2) ∗ rest2 c) ∗ (∃ r, prngReg c r))

theorem inv2_zero (c : Dev nD) (n : ℕ) (h : n ≤ cfg2.N) (hz : n = 0) : inv2 V c n h = Pipeline.ΦA spec2 c := by
  subst hz; rfl
theorem inv2_succ (c : Dev nD) (n : ℕ) (hn : n < cfg2.N) :
    inv2 V c (n + 1) hn = iprop(iprop(owns (c : Thread nD τ) scM2 fullShare ((at2 V c n hn).2) ∗ rest2 c) ∗ (∃ r, prngReg c r)) := rfl
theorem inv2_pos (c : Dev nD) (n : ℕ) (h : n ≤ cfg2.N) (hz : n ≠ 0) :
    inv2 V c n h = iprop(iprop(owns (c : Thread nD τ) scM2 fullShare ((at2 V c (n - 1) (by omega)).2) ∗ rest2 c) ∗ (∃ r, prngReg c r)) := by
  cases n with
  | zero => exact absurd rfl hz
  | succ n => rfl

/-- The region's proof data on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => (at2 V c t.val t.isLt).1
  Φ t := inv2 V c t.val (Nat.le_of_lt_succ t.isLt)
  q _ := fullShare
  owed _ := 0

theorem dat2_A (c : Dev nD) (w : Fin cfg2.W) : (dat2 V c).A w = V c (Pipeline.arrRef spec2 w) := by
  dsimp only [dat2]
theorem dat2_inv (c : Dev nD) (t : Fin cfg2.N) :
    (dat2 V c).Φ t.castSucc = inv2 V c t.val (Nat.le_of_lt t.isLt) := by
  dsimp only [dat2]; simp only [Fin.coe_castSucc]
theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) : (dat2 V c).after 3 t = (at2 V c t.val t.isLt).1 := by dsimp only [dat2]
theorem dat2_before_0 (c : Dev nD) (t : Fin cfg2.N) (d) : (dat2 V c).before 0 t d = blk2 V c 0 t :=
  in2_0_of V (dat2 V c) (dat2_A V c 0) (dat2_after_0 V c) t d
theorem dat2_before_1 (c : Dev nD) (t : Fin cfg2.N) (d) : (dat2 V c).before 1 t d = blk2 V c 1 t :=
  in2_1_of V (dat2 V c) (dat2_A V c 1) (dat2_after_1 V c) t d
theorem dat2_before_2 (c : Dev nD) (t : Fin cfg2.N) (d) : (dat2 V c).before 2 t d = blk2 V c 2 t :=
  in2_2_of V (dat2 V c) (dat2_A V c 2) (dat2_after_2 V c) t d

/-- What the body is entered with at point `t`, -/
def pre2 (c : Dev nD) (t : Fin cfg2.N) : sProp 𝕄 :=
  iprop((dat2 V c).Φ t.castSucc ∗ (dat2 V c).owesAt () t.castSucc
    ∗ (∃ d, owns (c : Thread nD τ) (m2_0 t) fullShare ((dat2 V c).before 0 t d))
    ∗ (∃ d, owns (c : Thread nD τ) (m2_1 t) fullShare ((dat2 V c).before 1 t d))
    ∗ (∃ d, owns (c : Thread nD τ) (m2_2 t) fullShare ((dat2 V c).before 2 t d))
    ∗ (∃ d, owns (c : Thread nD τ) (m2_3 t) fullShare ((dat2 V c).before 3 t d)))

/-- and what it returns. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the reduction coordinate says which case the point is in; the invariant hands the body the
    accumulator (at anything before the first point, else at what the point before left) and takes it back at this
    point's contents. -/
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [dat2_before_0, dat2_before_1, dat2_before_2]
  rw [show (dat2 V c).owesAt () t.succ = (dat2 V c).owesAt () t.castSucc from rfl]
  rw [show (dat2 V c).Φ t.succ = inv2 V c (t.val + 1) t.isLt from rfl, inv2_succ]
  have hN : t.val < 32 := lt_of_lt_of_eq t.isLt (show cfg2.N = 32 from N_2)
  rw [show (dat2 V c).leavesExact 0 t = owns (c : Thread nD τ) (m2_0 t) fullShare ((dat2 V c).after 0 t) from by
    unfold Dat.leavesExact; rw [live2_0 t], dat2_after_0]
  rw [show (dat2 V c).leavesExact 1 t = owns (c : Thread nD τ) (m2_1 t) fullShare ((dat2 V c).after 1 t) from by
    unfold Dat.leavesExact; rw [live2_1 t], dat2_after_1]
  rw [show (dat2 V c).leavesExact 2 t = owns (c : Thread nD τ) (m2_2 t) fullShare ((dat2 V c).after 2 t) from by
    unfold Dat.leavesExact; rw [live2_2 t], dat2_after_2]
  by_cases h0 : t.val % 8 = 0
  · have h1 : ¬t.val % 8 = 7 := by omega
    rw [Dat.leavesExact_idle (dat2 V c) 3 t (idle2_3 t (fun h => h1 ((last2_iff t).mp h))) (noFlush2_3 t (fun h => h1 ((last2_iff t).mp h)))]
    rw [at2_A V c t h0 h1]
    unfold accA2; (try dsimp only)
    by_cases hz : t.val = 0
    · rw [dat2_inv V c t, inv2_zero V c _ _ hz, PhiA2_eq]
      iintro ⟨⟨⟨HS, Hr⟩, Hg⟩, Ho, ⟨%d0, H0⟩, ⟨%d1, H1⟩, ⟨%d2, H2⟩, ⟨%d3, H3⟩⟩
      iapply ((runA2 c (grid2.coords t) _ _ _ _ _ _ _ _ _ _ ((first2_iff t).mpr h0) (fun h => h1 ((last2_iff t).mp h)) (blk2 V c 0 t) (blk2 V c 1 t) (blk2 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverA2 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [dat2_inv V c t, inv2_pos V c _ _ hz]
      iintro ⟨⟨⟨HS, Hr⟩, Hg⟩, Ho, ⟨%d0, H0⟩, ⟨%d1, H1⟩, ⟨%d2, H2⟩, ⟨%d3, H3⟩⟩
      iapply ((runA2 c (grid2.coords t) _ _ _ _ _ _ _ _ _ _ ((first2_iff t).mpr h0) (fun h => h1 ((last2_iff t).mp h)) (blk2 V c 0 t) (blk2 V c 1 t) (blk2 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverA2 c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat2 V c).leavesExact 3 t = owns (c : Thread nD τ) (m2_3 t) fullShare ((dat2 V c).after 3 t) from by
        unfold Dat.leavesExact; rw [live2_3 t ((last2_iff t).mpr h1)], dat2_after_3]
      rw [at2_C V c t h0 h1]
      unfold outC2 accC2; (try dsimp only)
      rw [dat2_inv V c t, inv2_pos V c _ _ hz]
      iintro ⟨⟨⟨HS, Hr⟩, Hg⟩, Ho, ⟨%d0, H0⟩, ⟨%d1, H1⟩, ⟨%d2, H2⟩, ⟨%d3, H3⟩⟩
      iapply ((runC2 c (grid2.coords t) _ _ _ _ _ _ _ _ _ _ (fun h => h0 ((first2_iff t).mp h)) ((last2_iff t).mpr h1) (blk2 V c 0 t) (blk2 V c 1 t) (blk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scoverC2 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC2 c _ _ _ _ _ _ _ _ _ _ _ _ _ _ _ _ _)
    · rw [Dat.leavesExact_idle (dat2 V c) 3 t (idle2_3 t (fun h => h1 ((last2_iff t).mp h))) (noFlush2_3 t (fun h => h1 ((last2_iff t).mp h)))]
      rw [at2_B V c t h0 h1]
      unfold accB2; (try dsimp only)
      rw [dat2_inv V c t, inv2_pos V c _ _ hz]
      iintro ⟨⟨⟨HS, Hr⟩, Hg⟩, Ho, ⟨%d0, H0⟩, ⟨%d1, H1⟩, ⟨%d2, H2⟩, ⟨%d3, H3⟩⟩
      iapply ((runB2 c (grid2.coords t) _ _ _ _ _ _ _ _ _ _ (fun h => h0 ((first2_iff t).mp h)) (fun h => h1 ((last2_iff t).mp h)) (blk2 V c 0 t) (blk2 V c 1 t) (blk2 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scoverB2 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The launch's obligation for the body, at every point. -/
theorem obligation2 (c : Dev nD) : BodyObligation (dat2 (F := F) V c) (defs₀ (F := F)) Variants.none () Set.univ := fun t => by
  rw [bigSep_W2, bigSep_W2]
  exact body2 V c t

/-- What the launch hands the region is the invariant before the first point. -/
theorem enter2 (c : Dev nD) : Pipeline.ΦA spec2 c ⊢ (dat2 V c).Φ 0 := by
  rw [show (dat2 V c).Φ 0 = inv2 V c 0 (Nat.zero_le _) from rfl, inv2_zero V c 0 _ rfl]
  try exact Idealize.SL.BI.Entails.refl _

/-- After the last point the invariant gives it back, the accumulator's contents forgotten. -/
theorem leave2 (c : Dev nD) : (dat2 V c).Φ (Fin.last cfg2.N) ⊢ Pipeline.ΦA spec2 c := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 32 := N_2; omega), PhiA2_eq]
  iintro ⟨⟨HS, Hr⟩, Hg⟩
  isplitl [HS Hr]
  · isplitl [HS]
    · iexists _; iexact HS
    iexact Hr
  iexact Hg

end Region2

end Cert.KernelIdeal.Hand

end
-- ==== Proof.KernelIdeal.Run.lean ====
/-
  The whole program's run: three stretches of host operations (casts, the stacking of the three weight matrices and
  biases; the three slices and head splits; the merge of the heads and the output weights' cast) around the three
  regions. The contents of the core's unscoped buffers are followed from the launch through every boundary as a fold —
  a host stretch applies its operations, a region replaces its windows' arrays by what its write-backs leave — and the
  run ends with every unscoped buffer at the fold's last value. The argument arrays are written by nothing on the way.
-/
import proofs.«150687_j35459249996685_2_alg».proof.Proof.KernelIdeal.Region0
import proofs.«150687_j35459249996685_2_alg».proof.Proof.KernelIdeal.Region1
import proofs.«150687_j35459249996685_2_alg».proof.Proof.KernelIdeal.Region2
import proofs.«150687_j35459249996685_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At region 0's exit: its windows' arrays at what the pipeline's write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem left0 (c : Dev nD) (w : Fin cfg0.W) : (dat0 (E1 m ρ) c).arrAt w cfg0.N = E2 m ρ c (Pipeline.arrRef spec0 w) :=
  (W2_arr m ρ c w).symm
theorem kept0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit: its windows' arrays at what the pipeline's write-backs leave, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem left1 (c : Dev nD) (w : Fin cfg1.W) : (dat1 (E3 m ρ) c).arrAt w cfg1.N = E4 m ρ c (Pipeline.arrRef spec1 w) :=
  (W4_arr m ρ c w).symm
theorem kept1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the third host stretch: region 2's entry. -/
abbrev W5 : Dev nD → Valuation τ sig (Elt F) := fun c => StableHlo.after hostOps2 (W4 m ρ c)
abbrev E5 : (c : Dev nD) → (b : Ref sig .tc) → Buf (Elt F) ((c : Thread nD τ).loc b) := fun c b => W5 m ρ c b
/-- At region 2's exit: its windows' arrays at what the pipeline's write-backs leave, every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev E6 : (c : Dev nD) → (b : Ref sig .tc) → Buf (Elt F) ((c : Thread nD τ).loc b) := fun c b => W6 m ρ c b
theorem left2 (c : Dev nD) (w : Fin cfg2.W) : (dat2 (E5 m ρ) c).arrAt w cfg2.N = E6 m ρ c (Pipeline.arrRef spec2 w) :=
  (W6_arr m ρ c w).symm
theorem kept2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-- A buffer that no host operation writes and that is no window's array of any region ends as launched. -/
theorem W6_launch (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b) :
    W6 m ρ c (Proc.devRef .tc b) = m ((c : Thread nD τ).loc b) :=
  calc W6 m ρ c (Proc.devRef .tc b)
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

/-- The result array ends at what region 2's write-backs leave in it. -/
theorem W6_result (c : Dev nD) : W6 m ρ c (Proc.devRef .tc main_v19) = (dat2 (E5 m ρ) c).arrAt 3 cfg2.N :=
  W6_arr m ρ c 3

/-! ## The proof data family and what rides beside the buffers -/

abbrev radm : (p : Fin 3) → (pcfgs (F := F) p).Adm := fun p => (cfgs p).toPCfg_adm
/-- Every region's proof data, each at its region's entry contents. -/
def pdat : (p : Fin 3) → (c : Dev nD) → Dat τ (Elt F) Unit ℕ (UR sig nD τ) ℕ (Pipeline.pin (pcfgs (F := F)) radm p) c
  | ⟨0, _⟩ => fun c => dat0 (E1 m ρ) c
  | ⟨1, _⟩ => fun c => dat1 (E3 m ρ) c
  | ⟨2, _⟩ => fun c => dat2 (E5 m ρ) c
abbrev 𝒱n : Variants := Variants.none
abbrev Ln : GSem nD τ sig → Finset Unit := fun _ => ∅
abbrev lvn : GSem nD τ sig → Unit → ℕ := fun _ _ => 0
/-- Beside the buffers, through every segment: the generator register at some state, and the core owing nothing. -/
abbrev ride (c : Dev nD) : sProp 𝕄 := iprop((∃ r, prngReg c r) ∗ ∃ W, owes (c : Thread nD τ) (0 : CellTallies nD τ sig Unit) W)
/-- A host stretch as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev lastT (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment: entered from every unscoped buffer at `W1`, left at `W2`. Its windows' arrays are split
    out of the unscoped buffers and put back at what the pipeline leaves; the generator register goes into the region's
    invariant and comes out; nothing is owed and the kernel has no semaphore of its own. -/
def reg0 : Pipeline.RegionSeg (pcfgs (F := F)) radm (pdat m ρ) () defs₀ 𝒱n Ln lvn 0 where
  win := launch0.win.to₀
  block_pos := launch0.block_pos
  stage_whole := launch0.stage_whole
  K := PEmpty
  osem k := k.elim
  ho := Pipeline.OwnSemFacts.none _
  hbody c := (obligation0 (E1 m ρ) c).loose
  hwaits := Pipeline.hwaits_of_owed_zero _ _ _ _ Ln lvn 0 fun _ _ => rfl
  pre c := iprop(StableHlo.held (c : Thread nD τ) (Pipeline.ucRefs τ sig) (W1 m ρ c) ∗ ride c)
  post c := iprop(StableHlo.held (c : Thread nD τ) (Pipeline.ucRefs τ sig) (W2 m ρ c) ∗ ride c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) radm (pdat m ρ) launch0.win launch0.arr_whole c
      ((pdat m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) radm (Ix := Unit) (Name := ℕ) (U := UR sig nD τ) (Lvl := ℕ)
      launch0.win launch0.arr_whole c (pdat m ρ) ((pdat m ρ 0 c).share_full fun _ => rfl)
      (E1 m ρ c) (E2 m ρ c) ((pdat m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W3`, left at `W4`. Its windows' arrays are split
    out of the unscoped buffers and put back at what the pipeline leaves; the generator register goes into the region's
    invariant and comes out; nothing is owed and the kernel has no semaphore of its own. -/
def reg1 : Pipeline.RegionSeg (pcfgs (F := F)) radm (pdat m ρ) () defs₀ 𝒱n Ln lvn 1 where
  win := launch1.win.to₀
  block_pos := launch1.block_pos
  stage_whole := launch1.stage_whole
  K := PEmpty
  osem k := k.elim
  ho := Pipeline.OwnSemFacts.none _
  hbody c := (obligation1 (E3 m ρ) c).loose
  hwaits := Pipeline.hwaits_of_owed_zero _ _ _ _ Ln lvn 1 fun _ _ => rfl
  pre c := iprop(StableHlo.held (c : Thread nD τ) (Pipeline.ucRefs τ sig) (W3 m ρ c) ∗ ride c)
  post c := iprop(StableHlo.held (c : Thread nD τ) (Pipeline.ucRefs τ sig) (W4 m ρ c) ∗ ride c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) radm (pdat m ρ) launch1.win launch1.arr_whole c
      ((pdat m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdat m ρ 1 c).Φ (Fin.last _) ⊢ (Pipeline.ΦA spec1 c : sProp 𝕄) from leave1 (E3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) radm (Ix := Unit) (Name := ℕ) (U := UR sig nD τ) (Lvl := ℕ)
      launch1.win launch1.arr_whole c (pdat m ρ) ((pdat m ρ 1 c).share_full fun _ => rfl)
      (E3 m ρ c) (E4 m ρ c) ((pdat m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W5`, left at `W6`. Its windows' arrays are split
    out of the unscoped buffers and put back at what the pipeline leaves; the generator register goes into the region's
    invariant and comes out; nothing is owed and the kernel has no semaphore of its own. -/
def reg2 : Pipeline.RegionSeg (pcfgs (F := F)) radm (pdat m ρ) () defs₀ 𝒱n Ln lvn 2 where
  win := launch2.win.to₀
  block_pos := launch2.block_pos
  stage_whole := launch2.stage_whole
  K := PEmpty
  osem k := k.elim
  ho := Pipeline.OwnSemFacts.none _
  hbody c := (obligation2 (E5 m ρ) c).loose
  hwaits := Pipeline.hwaits_of_owed_zero _ _ _ _ Ln lvn 2 fun _ _ => rfl
  pre c := iprop(StableHlo.held (c : Thread nD τ) (Pipeline.ucRefs τ sig) (W5 m ρ c) ∗ ride c)
  post c := iprop(lastT m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) radm (pdat m ρ) launch2.win launch2.arr_whole c
      ((pdat m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdat m ρ 2 c).Φ (Fin.last _) ⊢ (Pipeline.ΦA spec2 c : sProp 𝕄) from leave2 (E5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) radm (Ix := Unit) (Name := ℕ) (U := UR sig nD τ) (Lvl := ℕ)
      launch2.win launch2.arr_whole c (pdat m ρ) ((pdat m ρ 2 c).share_full fun _ => rfl)
      (E5 m ρ c) (E6 m ρ c) ((pdat m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev rsegs : List (Pipeline.Seg (pcfgs (F := F)) radm (pdat m ρ) () defs₀ 𝒱n Ln lvn) :=
  [ .host (hostSeg hostOps0 hostOps0_sub hostOps0_fresh (W0 m ρ)),
    .region (reg0 m ρ),
    .host (hostSeg hostOps1 hostOps1_sub hostOps1_fresh (W2 m ρ)),
    .region (reg1 m ρ),
    .host (hostSeg hostOps2 hostOps2_sub hostOps2_fresh (W4 m ρ)),
    .region (reg2 m ρ) ]
theorem main_is_rsegs (c : Dev nD) : main (F := F) c = Pipeline.Seg.run (rsegs m ρ) := (main_chain c).trans (by chain_rfl)

set_option backward.isDefEq.respectTransparency.types false in
/-- THE RUN: from any memory with zero counters every weakly fair execution of the program terminates, nothing
    faulting, and every unscoped buffer of every core ends at the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) radm (pdat m ρ) () cellOf_inj emb₁ defs₀ 𝒱n Ln lvn m ρ main (rsegs m ρ)
    (fun c Q => by rw [main_is_rsegs m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ ride c)) (Tₙ := lastT m ρ)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the nine argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W6_launch m ρ c main_arg0 (by decide) (by decide) (by decide) (by decide) (by decide) (by decide)),
    (h c _ (mem_uc main_arg1 (by decide))).trans (W6_launch m ρ c main_arg1 (by decide) (by decide) (by decide) (by decide) (by decide) (by decide)),
    (h c _ (mem_uc main_arg2 (by decide))).trans (W6_launch m ρ c main_arg2 (by decide) (by decide) (by decide) (by decide) (by decide) (by decide)),
    (h c _ (mem_uc main_arg3 (by decide))).trans (W6_launch m ρ c main_arg3 (by decide) (by decide) (by decide) (by decide) (by decide) (by decide)),
    (h c _ (mem_uc main_arg4 (by decide))).trans (W6_launch m ρ c main_arg4 (by decide) (by decide) (by decide) (by decide) (by decide) (by decide)),
    (h c _ (mem_uc main_arg5 (by decide))).trans (W6_launch m ρ c main_arg5 (by decide) (by decide) (by decide) (by decide) (by decide) (by decide)),
    (h c _ (mem_uc main_arg6 (by decide))).trans (W6_launch m ρ c main_arg6 (by decide) (by decide) (by decide) (by decide) (by decide) (by decide)),
    (h c _ (mem_uc main_arg7 (by decide))).trans (W6_launch m ρ c main_arg7 (by decide) (by decide) (by decide) (by decide) (by decide) (by decide)),
    (h c _ (mem_uc main_arg8 (by decide))).trans (W6_launch m ρ c main_arg8 (by decide) (by decide) (by decide) (by decide) (by decide) (by decide))⟩) (run_all m ρ)

end Cert.KernelIdeal.Hand

end
-- ==== Proof.KernelIdeal.Entries.lean ====
/-
  The host stretches between the regions, read: what each region is entered with, as the host operations' terms of the
  launch memory and of what the region before left.
-/
import proofs.«150687_j35459249996685_2_alg».proof.Proof.KernelIdeal.Run
import Idealize.ShloMosaic.Lib.StableHlo.Run
import Idealize.ShloMosaic.PureOps.Ideal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable (m : (ℓ : Loc nD τ sig) → Buf (Elt Ideal) ℓ) (ρ : Dev nD → PrngReg)

/-- Region 0 is entered with the stacked weights, the tokens and the stacked biases as a column. -/
theorem entry0_w (c : Dev nD) : E1 m ρ c main_v2
    = ((truncf (F := Ideal) .bf16 · bitsLt_bf16_f32) : (⟨S24576x1024, .f32⟩ : BufTy).Contents (Elt Ideal) → (⟨S24576x1024, .bf16⟩ : BufTy).Contents (Elt Ideal)) (concatenate S24576x1024 0 [⟨S8192x1024, m ((c : Thread nD τ).loc main_arg1)⟩, ⟨S8192x1024, m ((c : Thread nD τ).loc main_arg3)⟩, ⟨S8192x1024, m ((c : Thread nD τ).loc main_arg5)⟩] concatenates_S8192x1024_S8192x1024_S8192x1024_S24576x1024_d0) := by
  show StableHlo.after hostOps0 (W0 m ρ c) (Proc.devRef .tc main_v2) = _
  after_results
  try rfl
theorem entry0_x (c : Dev nD) : E1 m ρ c main_v0 = ((truncf (F := Ideal) .bf16 · bitsLt_bf16_f32) : (⟨S1024x2048, .f32⟩ : BufTy).Contents (Elt Ideal) → (⟨S1024x2048, .bf16⟩ : BufTy).Contents (Elt Ideal)) (m ((c : Thread nD τ).loc main_arg0)) := by
  show StableHlo.after hostOps0 (W0 m ρ c) (Proc.devRef .tc main_v0) = _
  after_results
  try rfl
theorem entry0_b (c : Dev nD) : E1 m ρ c main_v4
    = shapeCast S24576x1 (concatenate S24576 0 [⟨S8192, m ((c : Thread nD τ).loc main_arg2)⟩, ⟨S8192, m ((c : Thread nD τ).loc main_arg4)⟩, ⟨S8192, m ((c : Thread nD τ).loc main_arg6)⟩] concatenates_S8192_S8192_S8192_S24576_d0) shapeCasts_S24576_S24576x1 := by
  show StableHlo.after hostOps0 (W0 m ρ c) (Proc.devRef .tc main_v4) = _
  after_results
  try rfl

/-- Region 1 is entered with the three row bands of region 0's result, each split into heads. -/
theorem entry1_q (c : Dev nD) : E3 m ρ c main_v10
    = transpose S8x1024x2048 [1, 2, 0] (shapeCast S2048x8x1024 (extractStridedSlice S8192x2048 ![0, 0] (W2 m ρ c (Proc.devRef .tc main_v5)) slices_S24576x2048_S8192x2048_0_0) shapeCasts_S8192x2048_S2048x8x1024) transposes_S2048x8x1024_S8x1024x2048_1_2_0 := by
  show StableHlo.after hostOps1 (W2 m ρ c) (Proc.devRef .tc main_v10) = _
  after_results
  try rfl
theorem entry1_k (c : Dev nD) : E3 m ρ c main_v12
    = transpose S8x1024x2048 [1, 2, 0] (shapeCast S2048x8x1024 (extractStridedSlice S8192x2048 ![8192, 0] (W2 m ρ c (Proc.devRef .tc main_v5)) slices_S24576x2048_S8192x2048_8192_0) shapeCasts_S8192x2048_S2048x8x1024) transposes_S2048x8x1024_S8x1024x2048_1_2_0 := by
  show StableHlo.after hostOps1 (W2 m ρ c) (Proc.devRef .tc main_v12) = _
  after_results
  try rfl
theorem entry1_v (c : Dev nD) : E3 m ρ c main_v14
    = transpose S8x1024x2048 [1, 2, 0] (shapeCast S2048x8x1024 (extractStridedSlice S8192x2048 ![16384, 0] (W2 m ρ c (Proc.devRef .tc main_v5)) slices_S24576x2048_S8192x2048_16384_0) shapeCasts_S8192x2048_S2048x8x1024) transposes_S2048x8x1024_S8x1024x2048_1_2_0 := by
  show StableHlo.after hostOps1 (W2 m ρ c) (Proc.devRef .tc main_v14) = _
  after_results
  try rfl

/-- Region 2 is entered with the output weights, the context with its heads merged, and the output bias as a column. -/
theorem entry2_w (c : Dev nD) : E5 m ρ c main_v17 = ((truncf (F := Ideal) .bf16 · bitsLt_bf16_f32) : (⟨S1024x8192, .f32⟩ : BufTy).Contents (Elt Ideal) → (⟨S1024x8192, .bf16⟩ : BufTy).Contents (Elt Ideal)) (W4 m ρ c (Proc.devRef .tc main_arg7)) := by
  show StableHlo.after hostOps2 (W4 m ρ c) (Proc.devRef .tc main_v17) = _
  after_results
  try rfl
theorem entry2_x (c : Dev nD) : E5 m ρ c main_v16 = shapeCast S8192x2048 (W4 m ρ c (Proc.devRef .tc main_v15)) shapeCasts_S8x1024x2048_S8192x2048 := by
  show StableHlo.after hostOps2 (W4 m ρ c) (Proc.devRef .tc main_v16) = _
  after_results
  try rfl
theorem entry2_b (c : Dev nD) : E5 m ρ c main_v18 = shapeCast S1024x1 (W4 m ρ c (Proc.devRef .tc main_arg8)) shapeCasts_S1024_S1024x1 := by
  show StableHlo.after hostOps2 (W4 m ρ c) (Proc.devRef .tc main_v18) = _
  after_results
  try rfl

/-- The output weights and bias reach region 2 as launched. -/
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

end Cert.KernelIdeal.Hand

end
-- ==== Proof.KernelIdeal.Value0.lean ====
/-
  The fused query/key/value projection, read: what the result array holds once every grid point has written its block
  back. Point (i, j) multiplies the 1024-row band i of the stacked weights by the 512-column band j of the tokens and
  adds the band's bias column; an entry of the stored block is therefore one row of the weights against one column of
  the tokens plus the row's bias, and the 24 x 4 blocks tile the [24576, 2048] result. So the array ends at
  (r, c) ↦ Σ_k W(r, k) · X(k, c) + β(r), over the extended reals, with nothing rounded.
-/
import proofs.«150687_j35459249996685_2_alg».proof.Proof.KernelIdeal.Region0
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## One stored entry -/

/-- The product's left operand index at (output index, contraction index): the output's row on axis 0. -/
theorem dotBand_lhs0 (i : S1024x512.Idx) (q : (dot_S1024x1024_S1024x512_S1024x512_1_0_0_1_n_n).contr.Idx) :
    ((dot_S1024x1024_S1024x512_S1024x512_1_0_0_1_n_n).lhsIdx i q 0).val = (i 0).val := by
  unfold DotDims.lhsIdx
  rw [dif_neg (show ¬(0 : Fin S1024x1024.rank) ∈ (dot_S1024x1024_S1024x512_S1024x512_1_0_0_1_n_n).lhsBatch by decide), dif_pos (show (0 : Fin S1024x1024.rank) ∈ (dot_S1024x1024_S1024x512_S1024x512_1_0_0_1_n_n).lhsNonContracting by decide)]
  rfl
/-- The right operand's: the output's column on axis 1. -/
theorem dotBand_rhs1 (i : S1024x512.Idx) (q : (dot_S1024x1024_S1024x512_S1024x512_1_0_0_1_n_n).contr.Idx) :
    ((dot_S1024x1024_S1024x512_S1024x512_1_0_0_1_n_n).rhsIdx i q 1).val = (i 1).val := by
  unfold DotDims.rhsIdx
  rw [dif_neg (show ¬(1 : Fin S1024x512.rank) ∈ (dot_S1024x1024_S1024x512_S1024x512_1_0_0_1_n_n).rhsBatch by decide), dif_pos (show (1 : Fin S1024x512.rank) ∈ (dot_S1024x1024_S1024x512_S1024x512_1_0_0_1_n_n).rhsNonContracting by decide)]
  rfl

/-- The band product into the zero splat, at an entry: row p of the left band against column q of the right one. -/
theorem band_apply (w : FVec Ideal S1024x1024 .bf16) (x : FVec Ideal S1024x512 .bf16) (p : Fin 1024) (q : Fin 512) :
    (matmul (dot_S1024x1024_S1024x512_S1024x512_1_0_0_1_n_n) none w x (constant (F := Ideal) S1024x512 .f32 0x00000000#32) : FVec Ideal S1024x512 .f32) (ix2 p q)
      = ∑ k : Fin 1024, w (ix2 p k) * x (ix2 k q) := by
  simp only [matmul]
  rw [Ideal.matmul_constant_zero_apply, ← Equiv.sum_comp (contrEquiv1 (dot_S1024x1024_S1024x512_S1024x512_1_0_0_1_n_n) 1024 rfl rfl).symm]
  refine Finset.sum_congr rfl fun k _ => ?_
  have hk := contrEquiv1_symm_val (dot_S1024x1024_S1024x512_S1024x512_1_0_0_1_n_n) 1024 rfl rfl k
  have el : (dot_S1024x1024_S1024x512_S1024x512_1_0_0_1_n_n).lhsIdx (ix2 p q) ((contrEquiv1 (dot_S1024x1024_S1024x512_S1024x512_1_0_0_1_n_n) 1024 rfl rfl).symm k) = ix2 p k := funext fun a => Fin.ext (by
    match a with
    | ⟨0, _⟩ => exact dotBand_lhs0 _ _
    | ⟨1, _⟩ => exact ((dot_S1024x1024_S1024x512_S1024x512_1_0_0_1_n_n).lhsIdx_val_of_single rfl _ _).trans hk)
  have er : (dot_S1024x1024_S1024x512_S1024x512_1_0_0_1_n_n).rhsIdx (ix2 p q) ((contrEquiv1 (dot_S1024x1024_S1024x512_S1024x512_1_0_0_1_n_n) 1024 rfl rfl).symm k) = ix2 k q := funext fun a => Fin.ext (by
    match a with
    | ⟨0, _⟩ => exact ((dot_S1024x1024_S1024x512_S1024x512_1_0_0_1_n_n).rhsIdx_val_of_single rfl _ _).trans hk
    | ⟨1, _⟩ => exact dotBand_rhs1 _ _)
  rw [el, er]

/-- A bias column spread over the 512 columns, at an entry: the row's bias. -/
theorem biasCol_apply (b : FVec Ideal S1024x1 .f32) (p : Fin 1024) (q : Fin 512) :
    (broadcastTo S1024x512 b broadcasts_S1024x1_S1024x512 : FVec Ideal S1024x512 .f32) (ix2 p q) = b (ix2 p 0) :=
  broadcastTo_apply b broadcasts_S1024x1_S1024x512 (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- The stored value at an entry: row p of the weight band against column q of the token band, plus the row's bias
    (the narrowing of the format is the identity on extended reals). -/
theorem pay0_apply (w : Vec Ideal S1024x1024 .bf16) (x : Vec Ideal S1024x512 .bf16) (b : Vec Ideal S1024x1 .f32) (p : Fin 1024) (q : Fin 512) :
    (k0_pay1 w x b : S1024x512.Idx → EReal) (ix2 p q)
      = (∑ k : Fin 1024, (w : S1024x1024.Idx → EReal) (ix2 p k) * (x : S1024x512.Idx → EReal) (ix2 k q)) + (b : S1024x1.Idx → EReal) (ix2 p 0) := by
  unfold k0_pay1
  simp only [shapeCast_self]
  exact congrArg₂ (fun u v : EReal => u + v) (band_apply w x p q) (biasCol_apply b p q)

theorem zeroOffsets2 : (![0, 0] : Fin 2 → Nat) = fun _ => 0 := funext fun a => by fin_cases a <;> rfl

/-- What the body leaves in its output block, at an entry: the body loads its three buffers whole and stores the block whole. -/
theorem proj0_apply (w : Vec Ideal S1024x1024 .bf16) (x : Vec Ideal S1024x512 .bf16) (b : Vec Ideal S1024x1 .f32) (p : Fin 1024) (q : Fin 512) :
    (proj0 w x b : S1024x512.Idx → EReal) (ix2 p q)
      = (∑ k : Fin 1024, (w : S1024x1024.Idx → EReal) (ix2 p k) * (x : S1024x512.Idx → EReal) (ix2 k q)) + (b : S1024x1.Idx → EReal) (ix2 p 0) := by
  unfold proj0
  rw [View.canon_unit_zero zeroOffsets2]
  simp only [View.ld_unit_zero (S := S1024x1024) zeroOffsets2, View.ld_unit_zero (S := S1024x512) zeroOffsets2, View.ld_unit_zero (S := S1024x1) zeroOffsets2]
  exact pay0_apply w x b p q

/-! ## The blocks in their arrays -/

/-- The index maps, decided over the 96 points: the weights' and the bias's row band is the output's, the tokens'
    column band is the output's, the other block indices are zero, and the output's block indices stay in 24 x 4. -/
theorem bands0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = win0_3.index t (0 : Fin 2) ∧ win0_2.index t (1 : Fin 2) = 0
    ∧ win0_3.index t (0 : Fin 2) ≤ 23 ∧ win0_3.index t (1 : Fin 2) ≤ 3 :=
  (by decide +kernel : ∀ t : Fin grid0.N, _)

/-- Every block of the 24 x 4 tiling is some point's. -/
theorem bands0_onto : ∀ (q0 : Fin 24) (q1 : Fin 4), ∃ t : Fin cfg0.N, win0_3.index t = ![q0.val, q1.val] :=
  (by decide +kernel : ∀ (q0 : Fin 24) (q1 : Fin 4), ∃ t : Fin grid0.N, win0_3.index t = ![q0.val, q1.val])

variable (V : (c : Dev nD) → (b : Ref sig .tc) → Buf (Elt Ideal) ((c : Thread nD τ).loc b))

/-- The weights' block at a point, at an entry: the stacked weights at the band's row, same column. -/
theorem wblk0_apply (c : Dev nD) (t : Fin cfg0.N) (p k : Fin 1024) (r : Fin 24576)
    (hr : r.val = win0_0.index t (0 : Fin 2) * 1024 + p.val) (h1 : win0_0.index t (1 : Fin 2) = 0) :
    (blk0 V c 0 t : S1024x1024.Idx → EReal) (ix2 p k) = (V c main_v2 : S24576x1024.Idx → EReal) (ix2 r k) := by
  show (V c main_v2 : S24576x1024.Idx → EReal) (((cfg0.win 0).blk t).view.emb (ix2 p k)) = _
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; rw [h1]; omega

/-- The tokens' block at a point, at an entry: the tokens at the same row, the band's column. -/
theorem xblk0_apply (c : Dev nD) (t : Fin cfg0.N) (k : Fin 1024) (q : Fin 512) (s : Fin 2048)
    (h0 : win0_1.index t (0 : Fin 2) = 0) (hs : s.val = win0_1.index t (1 : Fin 2) * 512 + q.val) :
    (blk0 V c 1 t : S1024x512.Idx → EReal) (ix2 k q) = (V c main_v0 : S1024x2048.Idx → EReal) (ix2 k s) := by
  show (V c main_v0 : S1024x2048.Idx → EReal) (((cfg0.win 1).blk t).view.emb (ix2 k q)) = _
  refine congrArg _ (funext fun a => Fin.ext ?_)
  match a with
  | ⟨0, _⟩ => show win0_1.index t (0 : Fin 2) * 1024 + 1 * k.val = k.val; rw [h0]; omega
  | ⟨1, _⟩ => show win0_1.index t (1 : Fin 2) * 512 + 1 * q.val = s.val; omega

/-- The bias's block at a point, at an entry of its one column: the stacked bias at the band's row. -/
theorem bblk0_apply (c : Dev nD) (t : Fin cfg0.N) (p : Fin 1024) (r : Fin 24576)
    (hr : r.val = win0_2.index t (0 : Fin 2) * 1024 + p.val) (h1 : win0_2.index t (1 : Fin 2) = 0) :
    (blk0 V c 2 t : S1024x1.Idx → EReal) (ix2 p 0) = (V c main_v4 : S24576x1.Idx → EReal) (ix2 r 0) := by
  show (V c main_v4 : S24576x1.Idx → EReal) (((cfg0.win 2).blk t).view.emb (ix2 p 0)) = _
  refine congrArg _ (funext fun a => Fin.ext ?_)
  match a with
  | ⟨0, _⟩ => show win0_2.index t (0 : Fin 2) * 1024 + 1 * p.val = r.val; omega
  | ⟨1, _⟩ => show win0_2.index t (1 : Fin 2) * 1 + 1 * 0 = 0; rw [h1]

/-- The projection of whole arrays: row r of the weights against column c of the tokens, plus the row's bias. -/
abbrev lin0 (W : S24576x1024.Idx → EReal) (X : S1024x2048.Idx → EReal) (B : S24576x1.Idx → EReal) : S24576x2048.Idx → EReal :=
  fun i => (∑ k : Fin 1024, W (ix2 (i 0) k) * X (ix2 k (i 1))) + B (ix2 (i 0) 0)

/-- What point t leaves at entry (p, q) of its block is the projection at the entry's place (r, s) in the array. -/
theorem proj0_at (c : Dev nD) (t : Fin cfg0.N) (p : Fin 1024) (q : Fin 512) (r : Fin 24576) (s : Fin 2048)
    (hr : r.val = win0_3.index t (0 : Fin 2) * 1024 + p.val) (hs : s.val = win0_3.index t (1 : Fin 2) * 512 + q.val) :
    (proj0 (blk0 V c 0 t) (blk0 V c 1 t) (blk0 V c 2 t) : S1024x512.Idx → EReal) (ix2 p q)
      = lin0 (V c main_v2) (V c main_v0) (V c main_v4) (ix2 r s) := by
  obtain ⟨e0, e1, e2, e3, e4, e5, e6, e7⟩ := bands0 t
  refine (proj0_apply (blk0 V c 0 t) (blk0 V c 1 t) (blk0 V c 2 t) p q).trans ?_
  refine congrArg₂ (fun u v : EReal => u + v) (Finset.sum_congr rfl fun k _ => congrArg₂ (fun u v : EReal => u * v) ?_ ?_) ?_
  · exact wblk0_apply V c t p k r (by omega) e1
  · exact xblk0_apply V c t k q s e2 (by omega)
  · exact bblk0_apply V c t p r (by omega) e5

/-- What point t writes back is its block of the projection of the arrays as the region finds them. -/
theorem flushed0_eq (c : Dev nD) (t : Fin cfg0.N) :
    (dat0 V c).flushed 3 t = ((cfg0.win 3).blk t).view.read (Elt Ideal) (lin0 (V c main_v2) (V c main_v0) (V c main_v4)) := by
  show (cfg0.win 3).cut (grid0.coords t) ((dat0 V c).after 3 t) = _
  rw [dat0_after_3]
  obtain ⟨e0, e1, e2, e3, e4, e5, e6, e7⟩ := bands0 t
  funext j
  have hj0 : (j 0).val < 1024 := (j 0).isLt
  have hj1 : (j 1).val < 512 := (j 1).isLt
  have hx : (cfg0.win 3).xinj (grid0.coords t) j = ix2 (⟨(j 0).val, hj0⟩ : Fin 1024) (⟨(j 1).val, hj1⟩ : Fin 512) :=
    funext fun a => by match a with | ⟨0, _⟩ => rfl | ⟨1, _⟩ => rfl
  have hy : ((cfg0.win 3).blk t).view.emb j
      = ix2 (⟨win0_3.index t (0 : Fin 2) * 1024 + (j 0).val, by omega⟩ : Fin 24576) (⟨win0_3.index t (1 : Fin 2) * 512 + (j 1).val, by omega⟩ : Fin 2048) :=
    funext fun a => Fin.ext (by
      match a with
      | ⟨0, _⟩ => show win0_3.index t (0 : Fin 2) * 1024 + 1 * (j 0).val = win0_3.index t (0 : Fin 2) * 1024 + (j 0).val; omega
      | ⟨1, _⟩ => show win0_3.index t (1 : Fin 2) * 512 + 1 * (j 1).val = win0_3.index t (1 : Fin 2) * 512 + (j 1).val; omega)
  show (proj0 (blk0 V c 0 t) (blk0 V c 1 t) (blk0 V c 2 t) : S1024x512.Idx → EReal) ((cfg0.win 3).xinj (grid0.coords t) j)
    = lin0 (V c main_v2) (V c main_v0) (V c main_v4) (((cfg0.win 3).blk t).view.emb j)
  rw [hx, hy]
  exact proj0_at V c t _ _ _ _ rfl rfl

/-! ## The array -/

/-- An index of the array is in point t's block iff each coordinate is in the block's range on its axis. -/
theorem mem_blk0 (t : Fin cfg0.N) (i : S24576x2048.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v5).slice (win0_3.rect t)).set ↔ _
  rw [View.set_slice_whole, Rect.mem_set_unit]
  exact Iff.rfl

/-- The blocks tile the array: row r is in band r / 1024, column s in band s / 512. -/
theorem cover0 (i : S24576x2048.Idx) : ∃ t : Fin cfg0.N, (cfg0.win 3).flush t = true ∧ i ∈ ((cfg0.win 3).blk t).view.set := by
  have hi0 : (i 0).val < 24576 := (i 0).isLt
  have hi1 : (i 1).val < 2048 := (i 1).isLt
  obtain ⟨t, ht⟩ := bands0_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE RESULT ARRAY after the region: the projection of the stacked weights, the tokens and the stacked bias, entry by entry. -/
theorem final0 (c : Dev nD) :
    (dat0 V c).arrAt 3 cfg0.N = lin0 (V c main_v2) (V c main_v0) (V c main_v4) :=
  (dat0 V c).arrAt_eq_of_cover 3 (lin0 (V c main_v2) (V c main_v0) (V c main_v4)) (fun t _ => flushed0_eq V c t) cover0

/-- The same with the three arrays named: the formula spelt out, entry by entry. -/
theorem final0_named (c : Dev nD) (W : S24576x1024.Idx → EReal) (X : S1024x2048.Idx → EReal) (B : S24576x1.Idx → EReal)
    (hW : W = V c main_v2) (hX : X = V c main_v0) (hB : B = V c main_v4) :
    (dat0 V c).arrAt 3 cfg0.N = fun i : S24576x2048.Idx => (∑ k : Fin 1024, W (ix2 (i 0) k) * X (ix2 k (i 1))) + B (ix2 (i 0) 0) := by
  subst hW; subst hX; subst hB
  exact final0 V c

end Cert.KernelIdeal.Hand

end
-- ==== Proof.Spec.lean ====
/-
  What the program computes, stated once, index by index, over the extended reals.

  Three stages. A PROJECTION is a product plus a bias per row: (W·X)(r, c) + β(r). The ATTENTION core takes queries,
  keys and values indexed (head, channel, position): the score of head h between query position l and key position m
  is the contraction over the channels, times 1/32; the weights are the softmax of the scores ACROSS THE EIGHT HEADS
  at each pair (l, m) — the maximum over the heads is subtracted before the exponential, and the exponentials are
  divided by their sum over the heads —; the context of head h at channel d and query position l is the sum over the
  key positions of value times weight. The OUTPUT is again a product plus a bias per row.
  Arrays enter curried by their coordinates, so that both programs' results can be read against one formula.
-/
import Idealize.ShloMosaic.PureOps.Ideal
import Idealize.ShloMosaic.Lib.ValueIdx

noncomputable section

namespace Cert.Spec

open Idealize.ShloMosaic Idealize.ShloMosaic.ValueIdx

/-- An array of rank 1, 2, 3 as a function of its coordinates. -/
def cur1 {a : ℕ} (A : (⟨1, ![a]⟩ : Shape).Idx → EReal) : Fin a → EReal := fun r => A (ix1 r)
def cur2 {a b : ℕ} (A : (⟨2, ![a, b]⟩ : Shape).Idx → EReal) : Fin a → Fin b → EReal := fun r c => A (ix2 r c)
def cur3 {a b c : ℕ} (A : (⟨3, ![a, b, c]⟩ : Shape).Idx → EReal) : Fin a → Fin b → Fin c → EReal := fun x y z => A (ix3 x y z)

/-- A projection of the tokens: row `r` of the weights against column `c` of the tokens, plus the row's bias. -/
def lin (W : Fin 8192 → Fin 1024 → EReal) (X : Fin 1024 → Fin 2048 → EReal) (β : Fin 8192 → EReal)
    (r : Fin 8192) (c : Fin 2048) : EReal :=
  (∑ k : Fin 1024, W r k * X k c) + β r

/-- The scaled score of head `h` between query position `l` and key position `m`. -/
def score (q k : Fin 8 → Fin 1024 → Fin 2048 → EReal) (h : Fin 8) (l m : Fin 2048) : EReal :=
  (∑ d : Fin 1024, q h d l * k h d m) * ((1 / 32 : ℝ) : EReal)

/-- The largest score over the heads at the pair (l, m). -/
def top (q k : Fin 8 → Fin 1024 → Fin 2048 → EReal) (l m : Fin 2048) : EReal :=
  (Finset.univ : Finset (Fin 8)).fold max ⊥ fun h => score q k h l m

/-- The exponential of a score less the largest. -/
def expo (q k : Fin 8 → Fin 1024 → Fin 2048 → EReal) (h : Fin 8) (l m : Fin 2048) : EReal :=
  Ideal.exp (score q k h l m - top q k l m)

/-- The softmax weight of head `h` at the pair (l, m): its exponential over the sum of the eight. -/
def weight (q k : Fin 8 → Fin 1024 → Fin 2048 → EReal) (h : Fin 8) (l m : Fin 2048) : EReal :=
  Ideal.div (expo q k h l m) (∑ h' : Fin 8, expo q k h' l m)

/-- The context: values weighted over the key positions. -/
def att (q k v : Fin 8 → Fin 1024 → Fin 2048 → EReal) (h : Fin 8) (d : Fin 1024) (l : Fin 2048) : EReal :=
  ∑ m : Fin 2048, v h d m * weight q k h l m

/-- The output projection of the merged heads. -/
def out (W : Fin 1024 → Fin 8192 → EReal) (C : Fin 8192 → Fin 2048 → EReal) (β : Fin 1024 → EReal)
    (r : Fin 1024) (c : Fin 2048) : EReal :=
  (∑ k : Fin 8192, W r k * C k c) + β r

end Cert.Spec

end
-- ==== Proof.LibSumTiles.lean ====
/-
  A finite sum cut into consecutive tiles.

  A function f on the first N naturals is extended by zero to every natural; psum f n is the sum of the first n
  values. The partial sum over no rows is zero, the partial sum over all N rows is the sum over Fin N, and the
  partial sum grows by one tile of T consecutive rows at a time:  psum f (n + T) = psum f n + ∑ p < T, f (n + p).
  So a sum over Fin (T · k) accumulated tile by tile, first tile to last, is the whole sum. Only the commutative
  monoid laws of + are used; nothing here depends on a program.
-/
import Mathlib.Algebra.BigOperators.Fin
import Mathlib.Algebra.BigOperators.Intervals

open scoped BigOperators

namespace Cert.SumTiles

variable {β : Type*} [AddCommMonoid β] {N : ℕ}

/-- A function on the first N naturals, extended by zero. -/
def ext0 (f : Fin N → β) (n : ℕ) : β := if h : n < N then f ⟨n, h⟩ else 0

theorem ext0_of_lt (f : Fin N → β) (n : ℕ) (h : n < N) : ext0 f n = f ⟨n, h⟩ := dif_pos h

/-- The sum of the first n values of f (the values past N count as zero). -/
def psum (f : Fin N → β) (n : ℕ) : β := ∑ r ∈ Finset.range n, ext0 f r

/-- No rows: zero. -/
theorem psum_zero (f : Fin N → β) : psum f 0 = 0 := Finset.sum_range_zero _

/-- All N rows: the sum over Fin N. -/
theorem psum_full (f : Fin N → β) : psum f N = ∑ r : Fin N, f r := by
  unfold psum
  rw [← Fin.sum_univ_eq_sum_range (fun r => ext0 f r) N]
  exact Finset.sum_congr rfl fun r _ => ext0_of_lt f r.val r.isLt

/-- One more tile of T consecutive rows n, n + 1, …, n + T − 1, all below N. -/
theorem psum_add_tile (f : Fin N → β) (n T : ℕ) (h : n + T ≤ N) :
    psum f (n + T) = psum f n + ∑ p : Fin T, f ⟨n + p.val, by have := p.isLt; omega⟩ := by
  unfold psum
  rw [Finset.sum_range_add, ← Fin.sum_univ_eq_sum_range (fun p => ext0 f (n + p)) T]
  exact congrArg _ (Finset.sum_congr rfl fun p _ => ext0_of_lt f _ _)

/-- The first tile, from nothing: the zero in front is kept, as an accumulator started at zero has it. -/
theorem psum_first_tile (f : Fin N → β) (T : ℕ) (h : T ≤ N) :
    psum f T = 0 + ∑ p : Fin T, f ⟨p.val, by have := p.isLt; omega⟩ := by
  have e := psum_add_tile f 0 T (by omega)
  rw [psum_zero] at e
  simp only [Nat.zero_add] at e
  exact e

end Cert.SumTiles
-- ==== Proof.KernelIdeal.Value1.lean ====
/-
  The attention region's pieces as values. What each case of the body leaves in the accumulator and in the output block
  is the stores' payload of what the body loaded: the reset-and-add of the first reduction step, the add of a later
  one, the copy-out of the last. And the two products of the payload read at an index, over the extended reals: the
  scores' tile at (head h, query l, key m) is the contraction over the 1024 channels of the query and key blocks, and
  the context's tile at (head h, channel d, query l) is the sum over the tile's 128 keys of value times weight.
-/
import proofs.«150687_j35459249996685_2_alg».proof.Proof.KernelIdeal.Region1
import proofs.«150687_j35459249996685_2_alg».proof.Proof.Spec
import proofs.«150687_j35459249996685_2_alg».proof.Proof.LibSumTiles
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

section Pieces

variable {F : FTy → Type} [FloatOps F]

theorem hz3 : (![0, 0, 0] : Fin 3 → Nat) = fun _ => 0 := funext fun a => by fin_cases a <;> rfl

/-- A later reduction step leaves, in the accumulator holding `xs`, the payload of the three blocks and `xs`. -/
theorem accB1_eq (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : ¬last1 i) (x0 : Vec F S8x1024x256 .bf16) (x1 : Vec F S8x1024x128 .bf16) (x2 : Vec F S8x1024x128 .bf16) (xs : Vec F S8x1024x256 .f32) :
    accB1 c i arg2 harg2 arg3 harg3 arg4 harg4 arg5 harg5 arg6 harg6 hf hl x0 x1 x2 xs = k1_pay2 x0 x1 x2 xs := by
  unfold accB1
  rw [View.read_writes_eq_canon _ _ _ (scoverB1 c i arg2 harg2 arg3 harg3 arg4 harg4 arg5 harg5 arg6 harg6 hf hl x0 x1 x2 xs)]
  unfold runB1
  dsimp only
  rw [View.canon_unit_zero hz3]
  simp only [View.readAt_eq_ld, harg2.read_unread, harg3.read_unread, harg4.read_unread, harg6.read_unread,
    View.ld_unit_zero (S := S8x1024x256) hz3, View.ld_unit_zero (S := S8x1024x128) hz3]

/-- The first reduction step resets the accumulator to the zero splat and then adds: the payload over the splat. -/
theorem accA1_eq (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : first1 i) (hl : ¬last1 i) (x0 : Vec F S8x1024x256 .bf16) (x1 : Vec F S8x1024x128 .bf16) (x2 : Vec F S8x1024x128 .bf16) :
    accA1 c i arg2 harg2 arg3 harg3 arg4 harg4 arg5 harg5 arg6 harg6 hf hl x0 x1 x2 = k1_pay2 x0 x1 x2 (k1_pay1 (F := F)) := by
  unfold accA1
  rw [View.read_writes_eq_canon _ _ _ (scoverA1 c i arg2 harg2 arg3 harg3 arg4 harg4 arg5 harg5 arg6 harg6 hf hl x0 x1 x2)]
  unfold runA1
  dsimp only
  sl_unfold_words
  rw [View.canon_cons_unit_zero (S := S8x1024x256) hz3, View.readCov_unit_zero (S := S8x1024x256) _ hz3]
  simp only [View.readAt_eq_ld, harg2.read_unread, harg3.read_unread, harg4.read_unread,
    View.ld_unit_zero (S := S8x1024x256) hz3, View.ld_unit_zero (S := S8x1024x128) hz3]

/-- The last reduction step adds like a later one, -/
theorem accC1_eq (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) :
    accC1 c i arg2 harg2 arg3 harg3 arg4 harg4 arg5 harg5 arg6 harg6 hf hl x0 x1 x2 xs = k1_pay2 x0 x1 x2 xs := by
  unfold accC1
  rw [View.read_writes_eq_canon _ _ _ (scoverC1 c i arg2 harg2 arg3 harg3 arg4 harg4 arg5 harg5 arg6 harg6 hf hl x0 x1 x2 xs)]
  unfold runC1
  dsimp only
  sl_unfold_words
  rw [View.canon_unit_zero hz3]
  simp only [View.readAt_eq_ld, harg2.read_unread, harg3.read_unread, harg4.read_unread, harg6.read_unread,
    View.ld_unit_zero (S := S8x1024x256) hz3, View.ld_unit_zero (S := S8x1024x128) hz3]

/-- and stores the accumulator, read back, into the output block. -/
theorem outC1_eq (c : Dev nD) (i : grid1.Coords) (arg2 : Memref sig .tc .vmem S8x1024x256 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x1024x256 .bf16) (harg5 : arg5.IsWhole) (arg6 : Memref sig .tc .vmem S8x1024x256 .f32) (harg6 : arg6.IsWhole) (hf : ¬first1 i) (hl : last1 i) (x0 : Vec F S8x1024x256 .bf16) (x1 : Vec F S8x1024x128 .bf16) (x2 : Vec F S8x1024x128 .bf16) (xs : Vec F S8x1024x256 .f32) :
    outC1 c i arg2 harg2 arg3 harg3 arg4 harg4 arg5 harg5 arg6 harg6 hf hl x0 x1 x2 xs = k1_pay3 (k1_pay2 x0 x1 x2 xs) := by
  unfold outC1
  rw [View.read_writes_eq_canon _ _ _ (coverC1 c i arg2 harg2 arg3 harg3 arg4 harg4 arg5 harg5 arg6 harg6 hf hl x0 x1 x2 xs)]
  unfold runC1
  dsimp only
  sl_unfold_words
  rw [View.canon_unit_zero hz3, View.readCov_unit_zero (S := S8x1024x256) _ hz3]
  simp only [View.readAt_eq_ld, harg2.read_unread, harg3.read_unread, harg4.read_unread, harg6.read_unread,
    View.ld_unit_zero (S := S8x1024x256) hz3, View.ld_unit_zero (S := S8x1024x128) hz3]

end Pieces

/-! ## The payload's two products at an index, over the extended reals -/

section Products

theorem sd_l0 (i : S8x256x128.Idx) (q : dot_S8x1024x256_S8x1024x128_S8x256x128_1_1_2_2_0_0.contr.Idx) : (dot_S8x1024x256_S8x1024x128_S8x256x128_1_1_2_2_0_0.lhsIdx i q 0).val = (i 0).val := by
  unfold DotDims.lhsIdx
  rw [dif_pos (show (0 : Fin S8x1024x256.rank) ∈ dot_S8x1024x256_S8x1024x128_S8x256x128_1_1_2_2_0_0.lhsBatch by decide)]
  rfl
theorem sd_l1 (i : S8x256x128.Idx) (q : dot_S8x1024x256_S8x1024x128_S8x256x128_1_1_2_2_0_0.contr.Idx) : (dot_S8x1024x256_S8x1024x128_S8x256x128_1_1_2_2_0_0.lhsIdx i q 1).val = (q ⟨0, by decide⟩).val :=
  dot_S8x1024x256_S8x1024x128_S8x256x128_1_1_2_2_0_0.lhsIdx_val_of_single rfl i q
theorem sd_l2 (i : S8x256x128.Idx) (q : dot_S8x1024x256_S8x1024x128_S8x256x128_1_1_2_2_0_0.contr.Idx) : (dot_S8x1024x256_S8x1024x128_S8x256x128_1_1_2_2_0_0.lhsIdx i q 2).val = (i 1).val := by
  unfold DotDims.lhsIdx
  rw [dif_neg (show ¬(2 : Fin S8x1024x256.rank) ∈ dot_S8x1024x256_S8x1024x128_S8x256x128_1_1_2_2_0_0.lhsBatch by decide), dif_pos (show (2 : Fin S8x1024x256.rank) ∈ dot_S8x1024x256_S8x1024x128_S8x256x128_1_1_2_2_0_0.lhsNonContracting by decide)]
  rfl
theorem sd_r0 (i : S8x256x128.Idx) (q : dot_S8x1024x256_S8x1024x128_S8x256x128_1_1_2_2_0_0.contr.Idx) : (dot_S8x1024x256_S8x1024x128_S8x256x128_1_1_2_2_0_0.rhsIdx i q 0).val = (i 0).val := by
  unfold DotDims.rhsIdx
  rw [dif_pos (show (0 : Fin S8x1024x128.rank) ∈ dot_S8x1024x256_S8x1024x128_S8x256x128_1_1_2_2_0_0.rhsBatch by decide)]
  rfl
theorem sd_r1 (i : S8x256x128.Idx) (q : dot_S8x1024x256_S8x1024x128_S8x256x128_1_1_2_2_0_0.contr.Idx) : (dot_S8x1024x256_S8x1024x128_S8x256x128_1_1_2_2_0_0.rhsIdx i q 1).val = (q ⟨0, by decide⟩).val :=
  dot_S8x1024x256_S8x1024x128_S8x256x128_1_1_2_2_0_0.rhsIdx_val_of_single rfl i q
theorem sd_r2 (i : S8x256x128.Idx) (q : dot_S8x1024x256_S8x1024x128_S8x256x128_1_1_2_2_0_0.contr.Idx) : (dot_S8x1024x256_S8x1024x128_S8x256x128_1_1_2_2_0_0.rhsIdx i q 2).val = (i 2).val := by
  unfold DotDims.rhsIdx
  rw [dif_neg (show ¬(2 : Fin S8x1024x128.rank) ∈ dot_S8x1024x256_S8x1024x128_S8x256x128_1_1_2_2_0_0.rhsBatch by decide), dif_pos (show (2 : Fin S8x1024x128.rank) ∈ dot_S8x1024x256_S8x1024x128_S8x256x128_1_1_2_2_0_0.rhsNonContracting by decide)]
  rfl
theorem cd_l0 (i : S8x1024x256.Idx) (q : dot_S8x1024x128_S8x256x128_S8x1024x256_2_2_1_1_0_0.contr.Idx) : (dot_S8x1024x128_S8x256x128_S8x1024x256_2_2_1_1_0_0.lhsIdx i q 0).val = (i 0).val := by
  unfold DotDims.lhsIdx
  rw [dif_pos (show (0 : Fin S8x1024x128.rank) ∈ dot_S8x1024x128_S8x256x128_S8x1024x256_2_2_1_1_0_0.lhsBatch by decide)]
  rfl
theorem cd_l1 (i : S8x1024x256.Idx) (q : dot_S8x1024x128_S8x256x128_S8x1024x256_2_2_1_1_0_0.contr.Idx) : (dot_S8x1024x128_S8x256x128_S8x1024x256_2_2_1_1_0_0.lhsIdx i q 1).val = (i 1).val := by
  unfold DotDims.lhsIdx
  rw [dif_neg (show ¬(1 : Fin S8x1024x128.rank) ∈ dot_S8x1024x128_S8x256x128_S8x1024x256_2_2_1_1_0_0.lhsBatch by decide), dif_pos (show (1 : Fin S8x1024x128.rank) ∈ dot_S8x1024x128_S8x256x128_S8x1024x256_2_2_1_1_0_0.lhsNonContracting by decide)]
  rfl
theorem cd_l2 (i : S8x1024x256.Idx) (q : dot_S8x1024x128_S8x256x128_S8x1024x256_2_2_1_1_0_0.contr.Idx) : (dot_S8x1024x128_S8x256x128_S8x1024x256_2_2_1_1_0_0.lhsIdx i q 2).val = (q ⟨0, by decide⟩).val :=
  dot_S8x1024x128_S8x256x128_S8x1024x256_2_2_1_1_0_0.lhsIdx_val_of_single rfl i q
theorem cd_r0 (i : S8x1024x256.Idx) (q : dot_S8x1024x128_S8x256x128_S8x1024x256_2_2_1_1_0_0.contr.Idx) : (dot_S8x1024x128_S8x256x128_S8x1024x256_2_2_1_1_0_0.rhsIdx i q 0).val = (i 0).val := by
  unfold DotDims.rhsIdx
  rw [dif_pos (show (0 : Fin S8x256x128.rank) ∈ dot_S8x1024x128_S8x256x128_S8x1024x256_2_2_1_1_0_0.rhsBatch by decide)]
  rfl
theorem cd_r1 (i : S8x1024x256.Idx) (q : dot_S8x1024x128_S8x256x128_S8x1024x256_2_2_1_1_0_0.contr.Idx) : (dot_S8x1024x128_S8x256x128_S8x1024x256_2_2_1_1_0_0.rhsIdx i q 1).val = (i 2).val := by
  unfold DotDims.rhsIdx
  rw [dif_neg (show ¬(1 : Fin S8x256x128.rank) ∈ dot_S8x1024x128_S8x256x128_S8x1024x256_2_2_1_1_0_0.rhsBatch by decide), dif_pos (show (1 : Fin S8x256x128.rank) ∈ dot_S8x1024x128_S8x256x128_S8x1024x256_2_2_1_1_0_0.rhsNonContracting by decide)]
  rfl
theorem cd_r2 (i : S8x1024x256.Idx) (q : dot_S8x1024x128_S8x256x128_S8x1024x256_2_2_1_1_0_0.contr.Idx) : (dot_S8x1024x128_S8x256x128_S8x1024x256_2_2_1_1_0_0.rhsIdx i q 2).val = (q ⟨0, by decide⟩).val :=
  dot_S8x1024x128_S8x256x128_S8x1024x256_2_2_1_1_0_0.rhsIdx_val_of_single rfl i q

/-- The scores' tile: at (head, query, key) the contraction of the query and key blocks over the channels. -/
theorem scoreTile_apply (a : FVec Ideal S8x1024x256 .bf16) (b : FVec Ideal S8x1024x128 .bf16) (h : Fin 8) (l : Fin 256) (m : Fin 128) :
    matmul dot_S8x1024x256_S8x1024x128_S8x256x128_1_1_2_2_0_0 none a b (constant S8x256x128 .f32 0x00000000#32) (ix3 h l m)
      = ∑ d : Fin 1024, a (ix3 h d l) * b (ix3 h d m) := by
  simp only [matmul]
  rw [Ideal.matmul_constant_zero_apply, ← Equiv.sum_comp (contrEquiv1 dot_S8x1024x256_S8x1024x128_S8x256x128_1_1_2_2_0_0 1024 rfl rfl).symm]
  refine Finset.sum_congr rfl fun k _ => ?_
  have hk := contrEquiv1_symm_val dot_S8x1024x256_S8x1024x128_S8x256x128_1_1_2_2_0_0 1024 rfl rfl k
  have el : dot_S8x1024x256_S8x1024x128_S8x256x128_1_1_2_2_0_0.lhsIdx (ix3 h l m) ((contrEquiv1 dot_S8x1024x256_S8x1024x128_S8x256x128_1_1_2_2_0_0 1024 rfl rfl).symm k) = ix3 h k l := funext fun x => Fin.ext (by
    match x with
    | ⟨0, _⟩ => exact sd_l0 _ _
    | ⟨1, _⟩ => exact (sd_l1 _ _).trans hk
    | ⟨2, _⟩ => exact sd_l2 _ _)
  have er : dot_S8x1024x256_S8x1024x128_S8x256x128_1_1_2_2_0_0.rhsIdx (ix3 h l m) ((contrEquiv1 dot_S8x1024x256_S8x1024x128_S8x256x128_1_1_2_2_0_0 1024 rfl rfl).symm k) = ix3 h k m := funext fun x => Fin.ext (by
    match x with
    | ⟨0, _⟩ => exact sd_r0 _ _
    | ⟨1, _⟩ => exact (sd_r1 _ _).trans hk
    | ⟨2, _⟩ => exact sd_r2 _ _)
  rw [el, er]

/-- The context's tile: at (head, channel, query) the sum over the tile's keys of value times weight. -/
theorem ctxTile_apply (v : FVec Ideal S8x1024x128 .bf16) (w : FVec Ideal S8x256x128 .bf16) (h : Fin 8) (d : Fin 1024) (l : Fin 256) :
    matmul dot_S8x1024x128_S8x256x128_S8x1024x256_2_2_1_1_0_0 none v w (constant S8x1024x256 .f32 0x00000000#32) (ix3 h d l)
      = ∑ m : Fin 128, v (ix3 h d m) * w (ix3 h l m) := by
  simp only [matmul]
  rw [Ideal.matmul_constant_zero_apply, ← Equiv.sum_comp (contrEquiv1 dot_S8x1024x128_S8x256x128_S8x1024x256_2_2_1_1_0_0 128 rfl rfl).symm]
  refine Finset.sum_congr rfl fun k _ => ?_
  have hk := contrEquiv1_symm_val dot_S8x1024x128_S8x256x128_S8x1024x256_2_2_1_1_0_0 128 rfl rfl k
  have el : dot_S8x1024x128_S8x256x128_S8x1024x256_2_2_1_1_0_0.lhsIdx (ix3 h d l) ((contrEquiv1 dot_S8x1024x128_S8x256x128_S8x1024x256_2_2_1_1_0_0 128 rfl rfl).symm k) = ix3 h d k := funext fun x => Fin.ext (by
    match x with
    | ⟨0, _⟩ => exact cd_l0 _ _
    | ⟨1, _⟩ => exact cd_l1 _ _
    | ⟨2, _⟩ => exact (cd_l2 _ _).trans hk)
  have er : dot_S8x1024x128_S8x256x128_S8x1024x256_2_2_1_1_0_0.rhsIdx (ix3 h d l) ((contrEquiv1 dot_S8x1024x128_S8x256x128_S8x1024x256_2_2_1_1_0_0 128 rfl rfl).symm k) = ix3 h l k := funext fun x => Fin.ext (by
    match x with
    | ⟨0, _⟩ => exact cd_r0 _ _
    | ⟨1, _⟩ => exact cd_r1 _ _
    | ⟨2, _⟩ => exact (cd_r2 _ _).trans hk)
  rw [el, er]

end Products

/-! ## The payload at an index -/

section Payload

/-- A maximum down the eight heads, at a (query, key) pair: the fold of max from the printed −inf word. -/
theorem headMax_apply (x : FVec Ideal S8x256x128 .f32) (l : Fin 256) (m : Fin 128) :
    multiReduction (F := Ideal) .maximumf [0] S256x128 x 0xFF800000#32 reduces_S8x256x128_S256x128 (.inl rfl) rfl (ix2 l m)
      = (Finset.univ : Finset (Fin 8)).fold max (Ideal.ofBits .f32 0xFF800000#32) fun h => x (ix3 h l m) := by
  refine (Ideal.multiReduction_maximumf_single x _ reduces_S8x256x128_S256x128 (.inl rfl) rfl (ix2 l m)).trans ?_
  have e : (x ∘ reduces_S8x256x128_S256x128.lift (ix2 l m)) = fun h : Fin 8 => x (ix3 h l m) :=
    funext fun k => congrArg x (funext fun a => Fin.ext (by match a with | ⟨0, _⟩ => rfl | ⟨1, _⟩ => rfl | ⟨2, _⟩ => rfl))
  exact congrArg (fun g => (Finset.univ : Finset (Fin 8)).fold max (Ideal.ofBits .f32 0xFF800000#32) g) e

/-- A sum down the eight heads, at a (query, key) pair. -/
theorem headSum_apply (x : FVec Ideal S8x256x128 .f32) (l : Fin 256) (m : Fin 128) :
    multiReduction (F := Ideal) .add [0] S256x128 x 0x00000000#32 reduces_S8x256x128_S256x128 (.inl rfl) rfl (ix2 l m)
      = ∑ h : Fin 8, x (ix3 h l m) := by
  refine (Ideal.multiReduction_add_single x _ reduces_S8x256x128_S256x128 (.inl rfl) rfl (ix2 l m)).trans ?_
  exact Finset.sum_congr rfl fun k _ => congrArg x (funext fun a => Fin.ext (by match a with | ⟨0, _⟩ => rfl | ⟨1, _⟩ => rfl | ⟨2, _⟩ => rfl))

/-- A [256,128] array given a unit head axis and spread over the eight heads reads, at (h, l, m), the array at (l, m). -/
theorem spreadHeads_apply (y : FVec Ideal S256x128 .f32) (h : Fin 8) (l : Fin 256) (m : Fin 128) :
    broadcastTo S8x256x128 (shapeCast S1x256x128 y shapeCasts_S256x128_S1x256x128) broadcasts_S1x256x128_S8x256x128 (ix3 h l m)
      = y (ix2 l m) := by
  refine (broadcastTo_apply _ broadcasts_S1x256x128_S8x256x128 (ix3 h l m) (ix3 (0 : Fin 1) l m) (fun a => by
    match a with
    | ⟨0, _⟩ => show (0 : ℕ) = if (1 : ℕ) = 1 then 0 else h.val; rw [if_pos rfl]
    | ⟨1, _⟩ => show l.val = if (256 : ℕ) = 1 then 0 else l.val; rw [if_neg (by decide)]
    | ⟨2, _⟩ => show m.val = if (128 : ℕ) = 1 then 0 else m.val; rw [if_neg (by decide)])).trans ?_
  exact shapeCast_ab_1ab_apply y shapeCasts_S256x128_S1x256x128 0 l m

/-- The tile's scaled scores, largest score over the heads, exponentials and weights, entry by entry. -/
def sT (a : FVec Ideal S8x1024x256 .bf16) (b : FVec Ideal S8x1024x128 .bf16) (h : Fin 8) (l : Fin 256) (m : Fin 128) : EReal :=
  (∑ d : Fin 1024, a (ix3 h d l) * b (ix3 h d m)) * Ideal.ofBits .f32 0x3D000000#32
def mT (a : FVec Ideal S8x1024x256 .bf16) (b : FVec Ideal S8x1024x128 .bf16) (l : Fin 256) (m : Fin 128) : EReal :=
  (Finset.univ : Finset (Fin 8)).fold max (Ideal.ofBits .f32 0xFF800000#32) fun h => sT a b h l m
def eT (a : FVec Ideal S8x1024x256 .bf16) (b : FVec Ideal S8x1024x128 .bf16) (h : Fin 8) (l : Fin 256) (m : Fin 128) : EReal :=
  Ideal.exp (sT a b h l m - mT a b l m)
def wT (a : FVec Ideal S8x1024x256 .bf16) (b : FVec Ideal S8x1024x128 .bf16) (h : Fin 8) (l : Fin 256) (m : Fin 128) : EReal :=
  Ideal.div (eT a b h l m) (∑ h' : Fin 8, eT a b h' l m)

/-- The same three stages as whole tiles, in the payload's own operations. -/
def sV (a : FVec Ideal S8x1024x256 .bf16) (b : FVec Ideal S8x1024x128 .bf16) : FVec Ideal S8x256x128 .f32 :=
  mulf (matmul dot_S8x1024x256_S8x1024x128_S8x256x128_1_1_2_2_0_0 none a b (constant S8x256x128 .f32 0x00000000#32)) (broadcast S8x256x128 (Scalar.ofBits .f32 0x3D000000#32))
def eV (a : FVec Ideal S8x1024x256 .bf16) (b : FVec Ideal S8x1024x128 .bf16) : FVec Ideal S8x256x128 .f32 :=
  exp (subf (sV a b) (broadcastTo S8x256x128 (shapeCast S1x256x128
    (multiReduction .maximumf [0] S256x128 (sV a b) 0xFF800000#32 reduces_S8x256x128_S256x128 (.inl rfl) rfl) shapeCasts_S256x128_S1x256x128) broadcasts_S1x256x128_S8x256x128))
def wV (a : FVec Ideal S8x1024x256 .bf16) (b : FVec Ideal S8x1024x128 .bf16) : FVec Ideal S8x256x128 .f32 :=
  divf (eV a b) (broadcastTo S8x256x128 (shapeCast S1x256x128
    (multiReduction .add [0] S256x128 (eV a b) 0x00000000#32 reduces_S8x256x128_S256x128 (.inl rfl) rfl) shapeCasts_S256x128_S1x256x128) broadcasts_S1x256x128_S8x256x128)

theorem sV_apply (a : FVec Ideal S8x1024x256 .bf16) (b : FVec Ideal S8x1024x128 .bf16) (h : Fin 8) (l : Fin 256) (m : Fin 128) :
    sV a b (ix3 h l m) = sT a b h l m := by
  show matmul dot_S8x1024x256_S8x1024x128_S8x256x128_1_1_2_2_0_0 none a b (constant S8x256x128 .f32 0x00000000#32) (ix3 h l m) * _ = _
  rw [scoreTile_apply]
  rfl

theorem eV_apply (a : FVec Ideal S8x1024x256 .bf16) (b : FVec Ideal S8x1024x128 .bf16) (h : Fin 8) (l : Fin 256) (m : Fin 128) :
    eV a b (ix3 h l m) = eT a b h l m := by
  show Ideal.exp (sV a b (ix3 h l m) - broadcastTo S8x256x128 _ broadcasts_S1x256x128_S8x256x128 (ix3 h l m)) = _
  rw [spreadHeads_apply, headMax_apply, sV_apply]
  simp only [sV_apply]
  rfl

theorem wV_apply (a : FVec Ideal S8x1024x256 .bf16) (b : FVec Ideal S8x1024x128 .bf16) (h : Fin 8) (l : Fin 256) (m : Fin 128) :
    wV a b (ix3 h l m) = wT a b h l m := by
  show Ideal.div (eV a b (ix3 h l m)) (broadcastTo S8x256x128 _ broadcasts_S1x256x128_S8x256x128 (ix3 h l m)) = _
  rw [spreadHeads_apply, headSum_apply, eV_apply]
  simp only [eV_apply]
  rfl

/-- The accumulating store's payload is the accumulator plus the context's tile over the weights' tile. -/
theorem pay2_eq (a : FVec Ideal S8x1024x256 .bf16) (b : FVec Ideal S8x1024x128 .bf16) (v : FVec Ideal S8x1024x128 .bf16) (s : FVec Ideal S8x1024x256 .f32) :
    k1_pay2 a b v s = addf s (matmul dot_S8x1024x128_S8x256x128_S8x1024x256_2_2_1_1_0_0 none v (truncf .bf16 (wV a b) bitsLt_bf16_f32) (constant S8x1024x256 .f32 0x00000000#32)) := by
  unfold k1_pay2 wV eV sV
  simp only [shapeCast_self]

/-- At (head, channel, query): what the accumulator held plus the tile's keys' values times weights. -/
theorem pay2_apply (a : FVec Ideal S8x1024x256 .bf16) (b : FVec Ideal S8x1024x128 .bf16) (v : FVec Ideal S8x1024x128 .bf16) (s : FVec Ideal S8x1024x256 .f32)
    (h : Fin 8) (d : Fin 1024) (l : Fin 256) :
    k1_pay2 a b v s (ix3 h d l) = s (ix3 h d l) + ∑ m : Fin 128, v (ix3 h d m) * wT a b h l m := by
  rw [pay2_eq]
  show s (ix3 h d l) + matmul dot_S8x1024x128_S8x256x128_S8x1024x256_2_2_1_1_0_0 none v (truncf .bf16 (wV a b) bitsLt_bf16_f32) (constant S8x1024x256 .f32 0x00000000#32) (ix3 h d l) = _
  rw [ctxTile_apply]
  refine congrArg (s (ix3 h d l) + ·) (Finset.sum_congr rfl fun m _ => ?_)
  show v (ix3 h d m) * wV a b (ix3 h l m) = _
  rw [wV_apply]

/-- The reset's payload is zero everywhere. -/
theorem pay1_apply (i : S8x1024x256.Idx) : k1_pay1 (F := Ideal) i = 0 := by
  unfold k1_pay1
  simp only [shapeCast_self]
  show Ideal.ofBits .f32 0x00000000#32 = 0
  exact Ideal.ofBits_zero_f32

/-- The copy-out's payload is the accumulator (a change of format). -/
theorem pay3_apply (s : FVec Ideal S8x1024x256 .f32) (i : S8x1024x256.Idx) : (k1_pay3 (F := Ideal) s i : EReal) = (s i : EReal) := rfl

end Payload

/-! ## The blocks, the accumulation over the key tiles, and the result array -/

section Array

open Cert.Spec Cert.SumTiles

variable (V : (c : Dev nD) → (b : Ref sig .tc) → Buf (Elt Ideal) ((c : Thread nD τ).loc b))

/-- The printed index maps over the grid: point t is query tile t / 16 and key tile t % 16, on the position axis only. -/
theorem idx1_facts : ∀ t : Fin cfg1.N,
    win1_0.index t (0 : Fin 3) = 0 ∧ win1_0.index t (1 : Fin 3) = 0 ∧ win1_0.index t (2 : Fin 3) = t.val / 16
    ∧ win1_1.index t (0 : Fin 3) = 0 ∧ win1_1.index t (1 : Fin 3) = 0 ∧ win1_1.index t (2 : Fin 3) = t.val % 16
    ∧ win1_2.index t (0 : Fin 3) = 0 ∧ win1_2.index t (1 : Fin 3) = 0 ∧ win1_2.index t (2 : Fin 3) = t.val % 16
    ∧ win1_3.index t (0 : Fin 3) = 0 ∧ win1_3.index t (1 : Fin 3) = 0 ∧ win1_3.index t (2 : Fin 3) = t.val / 16 :=
  (by decide +kernel : ∀ t : Fin grid1.N, _)

theorem lt128 (t : Fin cfg1.N) : t.val < 128 := lt_of_lt_of_eq t.isLt (show cfg1.N = 128 from N_1)

/-- The query position of row l of point t's query tile, and the key position of column m of its key tile. -/
def qpos (t : Fin cfg1.N) (l : Fin 256) : Fin 2048 := ⟨256 * (t.val / 16) + l.val, by have := lt128 t; have := l.isLt; omega⟩
def kpos (t : Fin cfg1.N) (m : Fin 128) : Fin 2048 := ⟨128 * (t.val % 16) + m.val, by have := m.isLt; omega⟩

/-- The three input blocks read at an index are the arrays at the tile's positions. -/
theorem blkQ (c : Dev nD) (t : Fin cfg1.N) (h : Fin 8) (d : Fin 1024) (l : Fin 256) :
    (blk1 V c 0 t : Vec Ideal S8x1024x256 .bf16) (ix3 h d l) = cur3 (V c main_v10 : S8x1024x2048.Idx → EReal) h d (qpos t l) := by
  obtain ⟨e0, e1, e2, -⟩ := idx1_facts t
  unfold blk1
  rw [View.read_apply]
  show V c main_v10 (((cfg1.win 0).blk t).view.emb (ix3 h d l)) = V c main_v10 (ix3 h d (qpos t l))
  refine congrArg (V c main_v10) (funext fun a => Fin.ext ?_)
  match a with
  | ⟨0, _⟩ => show win1_0.index t (0 : Fin 3) * 8 + 1 * h.val = h.val; rw [e0]; omega
  | ⟨1, _⟩ => show win1_0.index t (1 : Fin 3) * 1024 + 1 * d.val = d.val; rw [e1]; omega
  | ⟨2, _⟩ => show win1_0.index t (2 : Fin 3) * 256 + 1 * l.val = 256 * (t.val / 16) + l.val; rw [e2]; omega

theorem blkK (c : Dev nD) (t : Fin cfg1.N) (h : Fin 8) (d : Fin 1024) (m : Fin 128) :
    (blk1 V c 1 t : Vec Ideal S8x1024x128 .bf16) (ix3 h d m) = cur3 (V c main_v12 : S8x1024x2048.Idx → EReal) h d (kpos t m) := by
  obtain ⟨-, -, -, e0, e1, e2, -⟩ := idx1_facts t
  unfold blk1
  rw [View.read_apply]
  show V c main_v12 (((cfg1.win 1).blk t).view.emb (ix3 h d m)) = V c main_v12 (ix3 h d (kpos t m))
  refine congrArg (V c main_v12) (funext fun a => Fin.ext ?_)
  match a with
  | ⟨0, _⟩ => show win1_1.index t (0 : Fin 3) * 8 + 1 * h.val = h.val; rw [e0]; omega
  | ⟨1, _⟩ => show win1_1.index t (1 : Fin 3) * 1024 + 1 * d.val = d.val; rw [e1]; omega
  | ⟨2, _⟩ => show win1_1.index t (2 : Fin 3) * 128 + 1 * m.val = 128 * (t.val % 16) + m.val; rw [e2]; omega

theorem blkV (c : Dev nD) (t : Fin cfg1.N) (h : Fin 8) (d : Fin 1024) (m : Fin 128) :
    (blk1 V c 2 t : Vec Ideal S8x1024x128 .bf16) (ix3 h d m) = cur3 (V c main_v14 : S8x1024x2048.Idx → EReal) h d (kpos t m) := by
  obtain ⟨-, -, -, -, -, -, e0, e1, e2, -⟩ := idx1_facts t
  unfold blk1
  rw [View.read_apply]
  show V c main_v14 (((cfg1.win 2).blk t).view.emb (ix3 h d m)) = V c main_v14 (ix3 h d (kpos t m))
  refine congrArg (V c main_v14) (funext fun a => Fin.ext ?_)
  match a with
  | ⟨0, _⟩ => show win1_2.index t (0 : Fin 3) * 8 + 1 * h.val = h.val; rw [e0]; omega
  | ⟨1, _⟩ => show win1_2.index t (1 : Fin 3) * 1024 + 1 * d.val = d.val; rw [e1]; omega
  | ⟨2, _⟩ => show win1_2.index t (2 : Fin 3) * 128 + 1 * m.val = 128 * (t.val % 16) + m.val; rw [e2]; omega

/-- The printed scale is 1/32 and the printed seed of the maximum is −∞. -/
theorem word_scale : Ideal.ofBits .f32 0x3D000000#32 = ((1 / 32 : ℝ) : EReal) := by
  simp [Ideal.ofBits, Ideal.ieee, -EReal.coe_mul]; norm_num
theorem word_ninf : Ideal.ofBits .f32 0xFF800000#32 = (⊥ : EReal) := by simp [Ideal.ofBits, Ideal.ieee]

/-- The tile's scores, maxima, exponentials and weights are the whole arrays' at the tile's positions. -/
theorem sT_blk (c : Dev nD) (t : Fin cfg1.N) (h : Fin 8) (l : Fin 256) (m : Fin 128) :
    sT (blk1 V c 0 t) (blk1 V c 1 t) h l m
      = score (cur3 (V c main_v10 : S8x1024x2048.Idx → EReal)) (cur3 (V c main_v12 : S8x1024x2048.Idx → EReal)) h (qpos t l) (kpos t m) := by
  unfold sT score
  rw [word_scale]
  exact congrArg (· * _) (Finset.sum_congr rfl fun d _ => by rw [blkQ, blkK])

theorem mT_blk (c : Dev nD) (t : Fin cfg1.N) (l : Fin 256) (m : Fin 128) :
    mT (blk1 V c 0 t) (blk1 V c 1 t) l m
      = top (cur3 (V c main_v10 : S8x1024x2048.Idx → EReal)) (cur3 (V c main_v12 : S8x1024x2048.Idx → EReal)) (qpos t l) (kpos t m) := by
  unfold mT top
  rw [word_ninf]
  exact congrArg (fun g => (Finset.univ : Finset (Fin 8)).fold max ⊥ g) (funext fun h => sT_blk V c t h l m)

theorem eT_blk (c : Dev nD) (t : Fin cfg1.N) (h : Fin 8) (l : Fin 256) (m : Fin 128) :
    eT (blk1 V c 0 t) (blk1 V c 1 t) h l m
      = expo (cur3 (V c main_v10 : S8x1024x2048.Idx → EReal)) (cur3 (V c main_v12 : S8x1024x2048.Idx → EReal)) h (qpos t l) (kpos t m) := by
  unfold eT expo
  rw [sT_blk, mT_blk]

theorem wT_blk (c : Dev nD) (t : Fin cfg1.N) (h : Fin 8) (l : Fin 256) (m : Fin 128) :
    wT (blk1 V c 0 t) (blk1 V c 1 t) h l m
      = weight (cur3 (V c main_v10 : S8x1024x2048.Idx → EReal)) (cur3 (V c main_v12 : S8x1024x2048.Idx → EReal)) h (qpos t l) (kpos t m) := by
  unfold wT weight
  rw [eT_blk]
  exact congrArg (Ideal.div _) (Finset.sum_congr rfl fun h' _ => eT_blk V c t h' l m)

end Array

section Accumulate

open Cert.Spec Cert.SumTiles

variable (V : (c : Dev nD) → (b : Ref sig .tc) → Buf (Elt Ideal) ((c : Thread nD τ).loc b))

/-- The term the context sums over the key positions, at head h, channel d and query position L. -/
def term (c : Dev nD) (h : Fin 8) (d : Fin 1024) (L : Fin 2048) : Fin 2048 → EReal := fun M =>
  cur3 (V c main_v14 : S8x1024x2048.Idx → EReal) h d M
    * weight (cur3 (V c main_v10 : S8x1024x2048.Idx → EReal)) (cur3 (V c main_v12 : S8x1024x2048.Idx → EReal)) h L M

/-- One reduction step's payload at (h, d, l): what the accumulator held plus the key tile's 128 terms. -/
theorem tileStep_apply (c : Dev nD) (t : Fin cfg1.N) (s : FVec Ideal S8x1024x256 .f32) (h : Fin 8) (d : Fin 1024) (l : Fin 256) :
    k1_pay2 (blk1 V c 0 t) (blk1 V c 1 t) (blk1 V c 2 t) s (ix3 h d l)
      = s (ix3 h d l) + ∑ p : Fin 128, term V c h d (qpos t l) (kpos t p) := by
  refine (pay2_apply (blk1 V c 0 t) (blk1 V c 1 t) (blk1 V c 2 t) s h d l).trans ?_
  refine congrArg (s (ix3 h d l) + ·) (Finset.sum_congr rfl fun p _ => ?_)
  unfold term
  rw [blkV, wT_blk]

/-- After the point at position n the accumulator holds, at (h, d, l), the partial sum of the terms over the key
    positions of the tiles done so far: by induction on the point, the first key tile starting from the zero splat. -/
theorem acc_eq (c : Dev nD) (h : Fin 8) (d : Fin 1024) : ∀ (n : ℕ) (hn : n < cfg1.N) (l : Fin 256),
    (at1 V c n hn).2 (ix3 h d l) = psum (term V c h d (qpos ⟨n, hn⟩ l)) (128 * (n % 16 + 1)) := by
  intro n
  induction n using Nat.strong_induction_on with
  | _ n ih =>
    intro hn l
    have hN : n < 128 := lt128 ⟨n, hn⟩
    by_cases h0 : n % 16 = 0
    · have h1 : ¬n % 16 = 15 := by omega
      rw [at1_A V c ⟨n, hn⟩ h0 h1]
      dsimp only
      rw [accA1_eq]
      refine (tileStep_apply V c ⟨n, hn⟩ _ h d l).trans ?_
      rw [pay1_apply, h0, psum_first_tile _ 128 (by omega)]
      refine congrArg ((0 : EReal) + ·) (Finset.sum_congr rfl fun p _ => congrArg _ (Fin.ext ?_))
      show 128 * (n % 16) + p.val = p.val
      omega
    · have hz : n ≠ 0 := fun e => h0 (by rw [e])
      have hprev : (n - 1) % 16 + 1 = n % 16 := by omega
      have hq : ∀ hn' : n - 1 < cfg1.N, qpos ⟨n - 1, hn'⟩ l = qpos ⟨n, hn⟩ l := fun hn' => Fin.ext (by
        show 256 * ((n - 1) / 16) + l.val = 256 * (n / 16) + l.val
        have : (n - 1) / 16 = n / 16 := by omega
        rw [this])
      have hstep : ∀ s : FVec Ideal S8x1024x256 .f32, s (ix3 h d l) = psum (term V c h d (qpos ⟨n, hn⟩ l)) (128 * (n % 16)) →
          k1_pay2 (blk1 V c 0 ⟨n, hn⟩) (blk1 V c 1 ⟨n, hn⟩) (blk1 V c 2 ⟨n, hn⟩) s (ix3 h d l)
            = psum (term V c h d (qpos ⟨n, hn⟩ l)) (128 * (n % 16 + 1)) := fun s hs => by
        refine (tileStep_apply V c ⟨n, hn⟩ s h d l).trans ?_
        rw [hs, Nat.mul_succ, psum_add_tile _ (128 * (n % 16)) 128 (by omega)]
        rfl
      have hprevAcc : (at1 V c (n - 1) (Nat.lt_of_le_of_lt (Nat.sub_le _ _) hn)).2 (ix3 h d l)
          = psum (term V c h d (qpos ⟨n, hn⟩ l)) (128 * (n % 16)) := by
        rw [ih (n - 1) (by omega) _ l, hq, hprev]
      by_cases h1 : n % 16 = 15
      · rw [at1_C V c ⟨n, hn⟩ h0 h1]
        dsimp only
        rw [accC1_eq]
        exact hstep _ hprevAcc
      · rw [at1_B V c ⟨n, hn⟩ h0 h1]
        dsimp only
        rw [accB1_eq]
        exact hstep _ hprevAcc

/-- At a point of the last key tile the output block holds what the accumulator holds: the whole sum over the key positions. -/
theorem out_eq (c : Dev nD) (t : Fin cfg1.N) (h15 : t.val % 16 = 15) (h : Fin 8) (d : Fin 1024) (l : Fin 256) :
    ((at1 V c t.val t.isLt).1 (ix3 h d l) : EReal)
      = att (cur3 (V c main_v10 : S8x1024x2048.Idx → EReal)) (cur3 (V c main_v12 : S8x1024x2048.Idx → EReal))
          (cur3 (V c main_v14 : S8x1024x2048.Idx → EReal)) h d (qpos t l) := by
  have h0 : ¬t.val % 16 = 0 := by omega
  have e2 := acc_eq V c h d t.val t.isLt l
  rw [at1_C V c t h0 h15] at e2
  rw [at1_C V c t h0 h15]
  dsimp only at e2 ⊢
  rw [accC1_eq] at e2
  rw [outC1_eq]
  refine (pay3_apply _ _).trans ?_
  refine e2.trans ?_
  rw [h15, show 128 * (15 + 1) = 2048 from rfl, psum_full]
  rfl

end Accumulate

section Final

open Cert.Spec

variable (V : (c : Dev nD) → (b : Ref sig .tc) → Buf (Elt Ideal) ((c : Thread nD τ).loc b))

/-- The context of the whole arrays, as an array indexed (head, channel, position). -/
def ctx (c : Dev nD) : S8x1024x2048.Idx → EReal := fun i =>
  att (cur3 (V c main_v10 : S8x1024x2048.Idx → EReal)) (cur3 (V c main_v12 : S8x1024x2048.Idx → EReal))
    (cur3 (V c main_v14 : S8x1024x2048.Idx → EReal)) (i 0) (i 1) (i 2)

/-- What a point of the last key tile writes back is its query tile's block of the context. -/
theorem flushed1_eq (c : Dev nD) (t : Fin cfg1.N) (hf : (cfg1.win 3).flush t = true) :
    (dat1 V c).flushed 3 t = ((cfg1.win 3).blk t).view.read (Elt Ideal) (ctx V c) := by
  have h15 : t.val % 16 = 15 := (flush1_3 t).mp hf
  obtain ⟨-, -, -, -, -, -, -, -, -, e0, e1, e2⟩ := idx1_facts t
  show (cfg1.win 3).cut (grid1.coords t) ((dat1 V c).after 3 t) = _
  rw [dat1_after_3]
  funext j
  show ((at1 V c t.val t.isLt).1 j : EReal) = ctx V c (((cfg1.win 3).blk t).view.emb j)
  obtain ⟨h, d, l, rfl⟩ : ∃ (h : Fin 8) (d : Fin 1024) (l : Fin 256), j = ix3 h d l := ⟨j 0, j 1, j 2, eq_ix3 j⟩
  rw [out_eq V c t h15 h d l]
  have he : ((cfg1.win 3).blk t).view.emb (ix3 h d l) = ix3 h d (qpos t l) := funext fun a => Fin.ext (by
    match a with
    | ⟨0, _⟩ => show win1_3.index t (0 : Fin 3) * 8 + 1 * h.val = h.val; rw [e0]; omega
    | ⟨1, _⟩ => show win1_3.index t (1 : Fin 3) * 1024 + 1 * d.val = d.val; rw [e1]; omega
    | ⟨2, _⟩ => show win1_3.index t (2 : Fin 3) * 256 + 1 * l.val = 256 * (t.val / 16) + l.val; rw [e2]; omega)
  rw [he]
  rfl

/-- Every position of the context lies in the block written back after its query tile's last key tile. -/
theorem cover1 (i : S8x1024x2048.Idx) : ∃ t : Fin cfg1.N, (cfg1.win 3).flush t = true ∧ i ∈ ((cfg1.win 3).blk t).view.set := by
  have h0 : (i 0).val < 8 := (i 0).isLt
  have h1 : (i 1).val < 1024 := (i 1).isLt
  have h2 : (i 2).val < 2048 := (i 2).isLt
  have hlt : 16 * ((i 2).val / 256) + 15 < cfg1.N := by rw [show cfg1.N = 128 from N_1]; omega
  refine ⟨⟨16 * ((i 2).val / 256) + 15, hlt⟩, (flush1_3 _).mpr (by show (16 * ((i 2).val / 256) + 15) % 16 = 15; omega), ?_⟩
  obtain ⟨-, -, -, -, -, -, -, -, -, e0, e1, e2⟩ := idx1_facts ⟨16 * ((i 2).val / 256) + 15, hlt⟩
  have ht : (16 * ((i 2).val / 256) + 15) / 16 = (i 2).val / 256 := by omega
  show i ∈ ((View.whole main_v15).slice (win1_3.rect ⟨16 * ((i 2).val / 256) + 15, hlt⟩)).set
  rw [View.set_slice_whole, Rect.mem_set_unit]
  intro a
  match a with
  | ⟨0, _⟩ =>
    show win1_3.index ⟨16 * ((i 2).val / 256) + 15, hlt⟩ (0 : Fin 3) * 8 ≤ (i 0).val ∧ (i 0).val < win1_3.index ⟨16 * ((i 2).val / 256) + 15, hlt⟩ (0 : Fin 3) * 8 + 8
    rw [e0]; omega
  | ⟨1, _⟩ =>
    show win1_3.index ⟨16 * ((i 2).val / 256) + 15, hlt⟩ (1 : Fin 3) * 1024 ≤ (i 1).val ∧ (i 1).val < win1_3.index ⟨16 * ((i 2).val / 256) + 15, hlt⟩ (1 : Fin 3) * 1024 + 1024
    rw [e1]; omega
  | ⟨2, _⟩ =>
    show win1_3.index ⟨16 * ((i 2).val / 256) + 15, hlt⟩ (2 : Fin 3) * 256 ≤ (i 2).val ∧ (i 2).val < win1_3.index ⟨16 * ((i 2).val / 256) + 15, hlt⟩ (2 : Fin 3) * 256 + 256
    rw [e2]
    show (16 * ((i 2).val / 256) + 15) / 16 * 256 ≤ (i 2).val ∧ (i 2).val < (16 * ((i 2).val / 256) + 15) / 16 * 256 + 256
    rw [ht]; omega

/-- THE ATTENTION REGION'S RESULT ARRAY: the context of the arrays the region was entered with. -/
theorem final1 (c : Dev nD) : (dat1 V c).arrAt 3 cfg1.N = ctx V c :=
  (dat1 V c).arrAt_eq_of_cover 3 (ctx V c) (fun t hf => flushed1_eq V c t hf) (cover1)

end Final

end Cert.KernelIdeal.Hand

end
-- ==== Proof.KernelIdeal.Value2.lean ====
/-
  The output projection, read: what the result array holds once every grid point has run. The grid is (1, 4, 8): point
  t works on column band t / 8 of the context at reduction step t % 8. At step k the body multiplies the 1024 x 1024
  band k of the weights by block (k, j) of the context and adds the product to an accumulator kept from one point to the
  next — reset to zero at k = 0 —, and at k = 7 stores the accumulator plus the bias column into output block j, the only
  block written back. So after step k the accumulator holds, entry by entry, the contraction's terms of the bands 0 … k
  (a sum over Fin 8192 taken in eight consecutive tiles of 1024), after step 7 the whole sum, and the four blocks written
  back tile the [1024, 2048] result: it ends at (r, c) ↦ Σ_k W(r, k) · C(k, c) + β(r) over the extended reals, where only
  the commutative-monoid laws of + were used.
-/
import proofs.«150687_j35459249996685_2_alg».proof.Proof.KernelIdeal.Region2
import proofs.«150687_j35459249996685_2_alg».proof.Proof.LibSumTiles
import proofs.«150687_j35459249996685_2_alg».proof.Proof.KernelIdeal.Value0
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen

section Pieces
variable {F : FTy → Type} [FloatOps F]

set_option maxHeartbeats 1000000 in
/-- First reduction step: the accumulator ends at the step's product added to the zero block. -/
theorem accA2_eq (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : first2 i) (hl : ¬last2 i) (x0 : Vec F S1024x1024 .bf16) (x1 : Vec F S1024x512 .bf16) (x2 : Vec F S1024x1 .f32) :
    accA2 c i arg3 harg3 arg4 harg4 arg5 harg5 arg6 harg6 arg7 harg7 hf hl x0 x1 x2 = k2_pay2 (k2_pay1 (F := F)) x0 x1 := by
  unfold accA2
  rw [View.read_writes_eq_canon _ _ _ (scoverA2 c i arg3 harg3 arg4 harg4 arg5 harg5 arg6 harg6 arg7 harg7 hf hl x0 x1 x2)]
  unfold runA2
  dsimp only
  sl_unfold_words
  rw [View.canon_cons_unit_zero (S := S1024x512) zeroOffsets2, View.readCov_unit_zero (S := S1024x512) _ zeroOffsets2]
  simp only [View.readAt_eq_ld, harg3.read_unread, harg4.read_unread, View.ld_unit_zero (S := S1024x1024) zeroOffsets2, View.ld_unit_zero (S := S1024x512) zeroOffsets2]

set_option maxHeartbeats 1000000 in
/-- A middle reduction step: the step's product added to what the accumulator held. -/
theorem accB2_eq (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : ¬last2 i) (x0 : Vec F S1024x1024 .bf16) (x1 : Vec F S1024x512 .bf16) (x2 : Vec F S1024x1 .f32) (xs : Vec F S1024x512 .f32) :
    accB2 c i arg3 harg3 arg4 harg4 arg5 harg5 arg6 harg6 arg7 harg7 hf hl x0 x1 x2 xs = k2_pay2 xs x0 x1 := by
  unfold accB2
  rw [View.read_writes_eq_canon _ _ _ (scoverB2 c i arg3 harg3 arg4 harg4 arg5 harg5 arg6 harg6 arg7 harg7 hf hl x0 x1 x2 xs)]
  unfold runB2
  dsimp only
  try sl_unfold_words
  rw [View.canon_unit_zero (S := S1024x512) zeroOffsets2]
  simp only [View.readAt_eq_ld, harg7.read_unread, harg3.read_unread, harg4.read_unread, View.ld_unit_zero (S := S1024x1024) zeroOffsets2, View.ld_unit_zero (S := S1024x512) zeroOffsets2]

set_option maxHeartbeats 1000000 in
/-- The last reduction step: the same in the accumulator, -/
theorem accC2_eq (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) :
    accC2 c i arg3 harg3 arg4 harg4 arg5 harg5 arg6 harg6 arg7 harg7 hf hl x0 x1 x2 xs = k2_pay2 xs x0 x1 := by
  unfold accC2
  rw [View.read_writes_eq_canon _ _ _ (scoverC2 c i arg3 harg3 arg4 harg4 arg5 harg5 arg6 harg6 arg7 harg7 hf hl x0 x1 x2 xs)]
  unfold runC2
  dsimp only
  try sl_unfold_words
  rw [View.canon_unit_zero (S := S1024x512) zeroOffsets2]
  simp only [View.readAt_eq_ld, harg7.read_unread, harg3.read_unread, harg4.read_unread, View.ld_unit_zero (S := S1024x1024) zeroOffsets2, View.ld_unit_zero (S := S1024x512) zeroOffsets2]

set_option maxHeartbeats 1000000 in
/-- and the output block is the accumulator's new contents plus the bias column. -/
theorem outC2_eq (c : Dev nD) (i : grid2.Coords) (arg3 : Memref sig .tc .vmem S1024x1024 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1024x512 .f32) (harg6 : arg6.IsWhole) (arg7 : Memref sig .tc .vmem S1024x512 .f32) (harg7 : arg7.IsWhole) (hf : ¬first2 i) (hl : last2 i) (x0 : Vec F S1024x1024 .bf16) (x1 : Vec F S1024x512 .bf16) (x2 : Vec F S1024x1 .f32) (xs : Vec F S1024x512 .f32) :
    outC2 c i arg3 harg3 arg4 harg4 arg5 harg5 arg6 harg6 arg7 harg7 hf hl x0 x1 x2 xs = k2_pay3 (k2_pay2 xs x0 x1) x2 := by
  unfold outC2
  rw [View.read_writes_eq_canon _ _ _ (coverC2 c i arg3 harg3 arg4 harg4 arg5 harg5 arg6 harg6 arg7 harg7 hf hl x0 x1 x2 xs)]
  unfold runC2
  dsimp only
  try sl_unfold_words
  rw [View.canon_unit_zero (S := S1024x512) zeroOffsets2, View.readCov_unit_zero (S := S1024x512) _ zeroOffsets2]
  simp only [View.readAt_eq_ld, harg7.read_unread, harg3.read_unread, harg4.read_unread, harg5.read_unread, View.ld_unit_zero (S := S1024x1024) zeroOffsets2, View.ld_unit_zero (S := S1024x512) zeroOffsets2, View.ld_unit_zero (S := S1024x1) zeroOffsets2]

end Pieces

/-! ## The three stored values at an entry, over the extended reals -/

/-- The reset stores the zero block. -/
theorem zeroBlk_apply (p : Fin 1024) (q : Fin 512) : (k2_pay1 (F := Ideal) : S1024x512.Idx → EReal) (ix2 p q) = 0 := by
  unfold k2_pay1
  simp only [shapeCast_self]
  exact Ideal.ofBits_zero_f32

/-- A step stores what the accumulator held plus row p of the weight band against column q of the context block. -/
theorem step_apply (acc : Vec Ideal S1024x512 .f32) (w : Vec Ideal S1024x1024 .bf16) (x : Vec Ideal S1024x512 .bf16) (p : Fin 1024) (q : Fin 512) :
    (k2_pay2 acc w x : S1024x512.Idx → EReal) (ix2 p q)
      = (acc : S1024x512.Idx → EReal) (ix2 p q) + ∑ k : Fin 1024, (w : S1024x1024.Idx → EReal) (ix2 p k) * (x : S1024x512.Idx → EReal) (ix2 k q) := by
  unfold k2_pay2
  simp only [shapeCast_self]
  exact congrArg (fun u : EReal => (acc : S1024x512.Idx → EReal) (ix2 p q) + u) (band_apply w x p q)

/-- The last step's output block: the accumulator plus the row's bias. -/
theorem outBlk_apply (acc : Vec Ideal S1024x512 .f32) (b : Vec Ideal S1024x1 .f32) (p : Fin 1024) (q : Fin 512) :
    (k2_pay3 acc b : S1024x512.Idx → EReal) (ix2 p q) = (acc : S1024x512.Idx → EReal) (ix2 p q) + (b : S1024x1.Idx → EReal) (ix2 p 0) := by
  unfold k2_pay3
  simp only [shapeCast_self]
  exact congrArg (fun u : EReal => (acc : S1024x512.Idx → EReal) (ix2 p q) + u) (biasCol_apply b p q)

/-! ## The blocks in their arrays -/

/-- The index maps, decided over the 32 points: at point t the reduction step is t % 8 and the column band t / 8; the
    weights' block is column band t % 8 of its one row band, the context's block is (t % 8, t / 8), the bias's block is the
    whole column, the output's block is column band t / 8. -/
theorem bands2 : ∀ t : Fin cfg2.N, win2_0.index t (0 : Fin 2) = 0 ∧ win2_0.index t (1 : Fin 2) = t.val % 8
    ∧ win2_1.index t (0 : Fin 2) = t.val % 8 ∧ win2_1.index t (1 : Fin 2) = t.val / 8
    ∧ win2_2.index t (0 : Fin 2) = 0 ∧ win2_2.index t (1 : Fin 2) = 0
    ∧ win2_3.index t (0 : Fin 2) = 0 ∧ win2_3.index t (1 : Fin 2) = t.val / 8 :=
  (by decide +kernel : ∀ t : Fin grid2.N, _)

/-- Every column band's last reduction step is some point. -/
theorem bands2_onto : ∀ q1 : Fin 4, ∃ t : Fin cfg2.N, t.val % 8 = 7 ∧ t.val / 8 = q1.val :=
  (by decide +kernel : ∀ q1 : Fin 4, ∃ t : Fin grid2.N, t.val % 8 = 7 ∧ t.val / 8 = q1.val)

variable (V : (c : Dev nD) → (b : Ref sig .tc) → Buf (Elt Ideal) ((c : Thread nD τ).loc b))

/-- The weights' block at a point, at an entry: the weights at the same row, the band's column. -/
theorem wblk2_apply (c : Dev nD) (t : Fin cfg2.N) (p k : Fin 1024) (r : Fin 8192)
    (h0 : win2_0.index t (0 : Fin 2) = 0) (hr : r.val = win2_0.index t (1 : Fin 2) * 1024 + k.val) :
    (blk2 V c 0 t : S1024x1024.Idx → EReal) (ix2 p k) = (V c main_v17 : S1024x8192.Idx → EReal) (ix2 p r) := by
  show (V c main_v17 : S1024x8192.Idx → EReal) (((cfg2.win 0).blk t).view.emb (ix2 p k)) = _
  refine congrArg _ (funext fun a => Fin.ext ?_)
  match a with
  | ⟨0, _⟩ => show win2_0.index t (0 : Fin 2) * 1024 + 1 * p.val = p.val; rw [h0]; omega
  | ⟨1, _⟩ => show win2_0.index t (1 : Fin 2) * 1024 + 1 * k.val = r.val; omega

/-- The context's block at a point, at an entry: the context at the band's row and the band's column. -/
theorem xblk2_apply (c : Dev nD) (t : Fin cfg2.N) (k : Fin 1024) (q : Fin 512) (r : Fin 8192) (s : Fin 2048)
    (hr : r.val = win2_1.index t (0 : Fin 2) * 1024 + k.val) (hs : s.val = win2_1.index t (1 : Fin 2) * 512 + q.val) :
    (blk2 V c 1 t : S1024x512.Idx → EReal) (ix2 k q) = (V c main_v16 : S8192x2048.Idx → EReal) (ix2 r s) := by
  show (V c main_v16 : S8192x2048.Idx → EReal) (((cfg2.win 1).blk t).view.emb (ix2 k q)) = _
  refine congrArg _ (funext fun a => Fin.ext ?_)
  match a with
  | ⟨0, _⟩ => show win2_1.index t (0 : Fin 2) * 1024 + 1 * k.val = r.val; omega
  | ⟨1, _⟩ => show win2_1.index t (1 : Fin 2) * 512 + 1 * q.val = s.val; omega

/-- The bias's block at a point, at an entry of its one column: the bias at the same row. -/
theorem bblk2_apply (c : Dev nD) (t : Fin cfg2.N) (p : Fin 1024)
    (h0 : win2_2.index t (0 : Fin 2) = 0) (h1 : win2_2.index t (1 : Fin 2) = 0) :
    (blk2 V c 2 t : S1024x1.Idx → EReal) (ix2 p 0) = (V c main_v18 : S1024x1.Idx → EReal) (ix2 p 0) := by
  show (V c main_v18 : S1024x1.Idx → EReal) (((cfg2.win 2).blk t).view.emb (ix2 p 0)) = _
  refine congrArg _ (funext fun a => Fin.ext ?_)
  match a with
  | ⟨0, _⟩ => show win2_2.index t (0 : Fin 2) * 1024 + 1 * p.val = p.val; rw [h0]; omega
  | ⟨1, _⟩ => show win2_2.index t (1 : Fin 2) * 1 + 1 * 0 = 0; rw [h1]

/-! ## The accumulator, point by point -/

/-- One term of the contraction: weight (p, r) times context (r, s). -/
abbrev term2 (W : S1024x8192.Idx → EReal) (X : S8192x2048.Idx → EReal) (p : Fin 1024) (s : Fin 2048) : Fin 8192 → EReal :=
  fun r => W (ix2 p r) * X (ix2 r s)

/-- A product of block entries at a point is the contraction's term at the entry's place in the band. -/
theorem term2_eq (c : Dev nD) (t : Fin cfg2.N) (w : S1024x1024.Idx → EReal) (x : S1024x512.Idx → EReal) (hw : w = blk2 V c 0 t) (hx : x = blk2 V c 1 t)
    (p k : Fin 1024) (q : Fin 512) (s : Fin 2048) (m : ℕ) (hm : m + 1024 ≤ 8192)
    (h0 : win2_0.index t (0 : Fin 2) = 0) (h1 : win2_0.index t (1 : Fin 2) * 1024 = m) (h2 : win2_1.index t (0 : Fin 2) * 1024 = m)
    (hs : s.val = win2_1.index t (1 : Fin 2) * 512 + q.val) :
    w (ix2 p k) * x (ix2 k q) = term2 (V c main_v17) (V c main_v16) p s ⟨m + k.val, by have := k.isLt; omega⟩ := by
  subst hw; subst hx
  exact congrArg₂ (fun u v : EReal => u * v) (wblk2_apply V c t p k ⟨m + k.val, by have := k.isLt; omega⟩ h0 (by show m + k.val = _; omega))
    (xblk2_apply V c t k q ⟨m + k.val, by have := k.isLt; omega⟩ s (by show m + k.val = _; omega) hs)

open Cert.SumTiles in
/-- THE ACCUMULATOR after point n, at entry (p, q): the contraction's terms below the end of band n % 8, for the column
    the entry has in column band n / 8 — the sum so far, tile by tile. By induction on the point: a first step starts
    from the zero block, any other adds its tile to what the point before left. -/
theorem acc2_at (c : Dev nD) (n : ℕ) : ∀ (hn : n < cfg2.N) (p : Fin 1024) (q : Fin 512) (s : Fin 2048) (hs : s.val = (n / 8) * 512 + q.val),
    ((at2 V c n hn).2 : S1024x512.Idx → EReal) (ix2 p q)
      = psum (term2 (V c main_v17) (V c main_v16) p s) (1024 * (n % 8) + 1024) := by
  induction n using Nat.strong_induction_on with
  | _ n ih =>
    intro hn p q s hs
    have hN : n < 32 := lt_of_lt_of_eq hn (show cfg2.N = 32 from N_2)
    obtain ⟨e0, e1, e2, e3, e4, e5, e6, e7⟩ := bands2 ⟨n, hn⟩
    have e1' : win2_0.index ⟨n, hn⟩ (1 : Fin 2) = n % 8 := e1
    have e2' : win2_1.index ⟨n, hn⟩ (0 : Fin 2) = n % 8 := e2
    have e3' : win2_1.index ⟨n, hn⟩ (1 : Fin 2) = n / 8 := e3
    by_cases h0 : n % 8 = 0
    · have h1 : ¬n % 8 = 7 := by omega
      rw [at2_A V c ⟨n, hn⟩ h0 h1]
      dsimp only
      refine (congrFun (accA2_eq (F := Ideal) c (grid2.coords ⟨n, hn⟩) (m2_0 ⟨n, hn⟩) (h2_0 ⟨n, hn⟩) (m2_1 ⟨n, hn⟩) (h2_1 ⟨n, hn⟩) (m2_2 ⟨n, hn⟩) (h2_2 ⟨n, hn⟩) (m2_3 ⟨n, hn⟩) (h2_3 ⟨n, hn⟩) scM2 (Memref.isWhole_whole _) ((first2_iff ⟨n, hn⟩).mpr h0) (fun h => h1 ((last2_iff ⟨n, hn⟩).mp h)) (blk2 V c 0 ⟨n, hn⟩) (blk2 V c 1 ⟨n, hn⟩) (blk2 V c 2 ⟨n, hn⟩)) (ix2 p q)).trans ?_
      refine (step_apply (k2_pay1 (F := Ideal)) (blk2 V c 0 ⟨n, hn⟩) (blk2 V c 1 ⟨n, hn⟩) p q).trans ?_
      rw [show 1024 * (n % 8) + 1024 = 1024 from by omega, psum_first_tile _ 1024 (by decide)]
      refine congrArg₂ (fun u v : EReal => u + v) (zeroBlk_apply p q) (Finset.sum_congr rfl fun k _ => ?_)
      exact (term2_eq V c ⟨n, hn⟩ (blk2 V c 0 ⟨n, hn⟩) (blk2 V c 1 ⟨n, hn⟩) rfl rfl p k q s 0 (by decide) e0 (by rw [e1']; omega) (by rw [e2']; omega) (by rw [e3']; exact hs)).trans
        (congrArg (term2 (V c main_v17) (V c main_v16) p s) (Fin.ext (by show 0 + k.val = k.val; omega)))
    · have hpos : n - 1 < n := by omega
      have hprev := ih (n - 1) hpos (Nat.lt_of_le_of_lt (Nat.sub_le _ _) hn) p q s (by omega)
      have hstep : ∀ acc : Vec Ideal S1024x512 .f32, (acc : S1024x512.Idx → EReal) (ix2 p q) = psum (term2 (V c main_v17) (V c main_v16) p s) (1024 * ((n - 1) % 8) + 1024) →
          (k2_pay2 acc (blk2 V c 0 ⟨n, hn⟩) (blk2 V c 1 ⟨n, hn⟩) : S1024x512.Idx → EReal) (ix2 p q)
            = psum (term2 (V c main_v17) (V c main_v16) p s) (1024 * (n % 8) + 1024) := by
        intro acc hacc
        refine (step_apply acc (blk2 V c 0 ⟨n, hn⟩) (blk2 V c 1 ⟨n, hn⟩) p q).trans ?_
        rw [psum_add_tile _ (1024 * (n % 8)) 1024 (by omega)]
        refine congrArg₂ (fun u v : EReal => u + v) (hacc.trans (congrArg _ (by omega))) (Finset.sum_congr rfl fun k _ => ?_)
        exact term2_eq V c ⟨n, hn⟩ (blk2 V c 0 ⟨n, hn⟩) (blk2 V c 1 ⟨n, hn⟩) rfl rfl p k q s (1024 * (n % 8)) (by omega) e0 (by rw [e1']; omega) (by rw [e2']; omega) (by rw [e3']; exact hs)
      by_cases h1 : n % 8 = 7
      · rw [at2_C V c ⟨n, hn⟩ h0 h1]
        dsimp only
        refine (congrFun (accC2_eq (F := Ideal) c (grid2.coords ⟨n, hn⟩) (m2_0 ⟨n, hn⟩) (h2_0 ⟨n, hn⟩) (m2_1 ⟨n, hn⟩) (h2_1 ⟨n, hn⟩) (m2_2 ⟨n, hn⟩) (h2_2 ⟨n, hn⟩) (m2_3 ⟨n, hn⟩) (h2_3 ⟨n, hn⟩) scM2 (Memref.isWhole_whole _) (fun h => h0 ((first2_iff ⟨n, hn⟩).mp h)) ((last2_iff ⟨n, hn⟩).mpr h1) (blk2 V c 0 ⟨n, hn⟩) (blk2 V c 1 ⟨n, hn⟩) (blk2 V c 2 ⟨n, hn⟩) (at2 V c (n - 1) (Nat.lt_of_le_of_lt (Nat.sub_le _ _) hn)).2) (ix2 p q)).trans ?_
        exact hstep _ hprev
      · rw [at2_B V c ⟨n, hn⟩ h0 h1]
        dsimp only
        refine (congrFun (accB2_eq (F := Ideal) c (grid2.coords ⟨n, hn⟩) (m2_0 ⟨n, hn⟩) (h2_0 ⟨n, hn⟩) (m2_1 ⟨n, hn⟩) (h2_1 ⟨n, hn⟩) (m2_2 ⟨n, hn⟩) (h2_2 ⟨n, hn⟩) (m2_3 ⟨n, hn⟩) (h2_3 ⟨n, hn⟩) scM2 (Memref.isWhole_whole _) (fun h => h0 ((first2_iff ⟨n, hn⟩).mp h)) (fun h => h1 ((last2_iff ⟨n, hn⟩).mp h)) (blk2 V c 0 ⟨n, hn⟩) (blk2 V c 1 ⟨n, hn⟩) (blk2 V c 2 ⟨n, hn⟩) (at2 V c (n - 1) (Nat.lt_of_le_of_lt (Nat.sub_le _ _) hn)).2) (ix2 p q)).trans ?_
        exact hstep _ hprev

/-- The output projection of whole arrays: row r of the weights against column s of the context, plus the row's bias. -/
abbrev lin2 (W : S1024x8192.Idx → EReal) (X : S8192x2048.Idx → EReal) (B : S1024x1.Idx → EReal) : S1024x2048.Idx → EReal :=
  fun i => (∑ k : Fin 8192, W (ix2 (i 0) k) * X (ix2 k (i 1))) + B (ix2 (i 0) 0)

open Cert.SumTiles in
/-- THE OUTPUT BLOCK after a last reduction step, at entry (p, q): the whole contraction plus the row's bias, at the
    entry's place in the array. -/
theorem out2_at (c : Dev nD) (t : Fin cfg2.N) (h7 : t.val % 8 = 7) (p : Fin 1024) (q : Fin 512) (s : Fin 2048) (hs : s.val = (t.val / 8) * 512 + q.val) :
    ((at2 V c t.val t.isLt).1 : S1024x512.Idx → EReal) (ix2 p q) = lin2 (V c main_v17) (V c main_v16) (V c main_v18) (ix2 p s) := by
  have h0 : ¬t.val % 8 = 0 := by omega
  obtain ⟨e0, e1, e2, e3, e4, e5, e6, e7⟩ := bands2 t
  have hacc := acc2_at V c t.val t.isLt p q s hs
  rw [at2_C V c t h0 h7] at hacc ⊢
  dsimp only at hacc ⊢
  refine (congrFun (outC2_eq (F := Ideal) c (grid2.coords t) (m2_0 t) (h2_0 t) (m2_1 t) (h2_1 t) (m2_2 t) (h2_2 t) (m2_3 t) (h2_3 t) scM2 (Memref.isWhole_whole _) (fun h => h0 ((first2_iff t).mp h)) ((last2_iff t).mpr h7) (blk2 V c 0 t) (blk2 V c 1 t) (blk2 V c 2 t) (at2 V c (t.val - 1) (Nat.lt_of_le_of_lt (Nat.sub_le _ _) t.isLt)).2) (ix2 p q)).trans ?_
  refine (outBlk_apply _ (blk2 V c 2 t) p q).trans ?_
  refine congrArg₂ (fun u v : EReal => u + v) ?_ (bblk2_apply V c t p e4 e5)
  refine (congrFun (accC2_eq (F := Ideal) c (grid2.coords t) (m2_0 t) (h2_0 t) (m2_1 t) (h2_1 t) (m2_2 t) (h2_2 t) (m2_3 t) (h2_3 t) scM2 (Memref.isWhole_whole _) (fun h => h0 ((first2_iff t).mp h)) ((last2_iff t).mpr h7) (blk2 V c 0 t) (blk2 V c 1 t) (blk2 V c 2 t) (at2 V c (t.val - 1) (Nat.lt_of_le_of_lt (Nat.sub_le _ _) t.isLt)).2).symm (ix2 p q)).trans ?_
  refine hacc.trans ?_
  rw [show 1024 * (t.val % 8) + 1024 = 8192 from by omega]
  exact psum_full _

/-! ## The array -/

/-- What a last reduction step writes back is its block of the output projection of the arrays as the region finds them. -/
theorem flushed2_eq (c : Dev nD) (t : Fin cfg2.N) (hf : (cfg2.win 3).flush t = true) :
    (dat2 V c).flushed 3 t = ((cfg2.win 3).blk t).view.read (Elt Ideal) (lin2 (V c main_v17) (V c main_v16) (V c main_v18)) := by
  have h7 : t.val % 8 = 7 := (flush2_3 t).mp hf
  have hN : t.val < 32 := lt_of_lt_of_eq t.isLt (show cfg2.N = 32 from N_2)
  show (cfg2.win 3).cut (grid2.coords t) ((dat2 V c).after 3 t) = _
  rw [dat2_after_3]
  obtain ⟨e0, e1, e2, e3, e4, e5, e6, e7⟩ := bands2 t
  funext j
  have hj0 : (j 0).val < 1024 := (j 0).isLt
  have hj1 : (j 1).val < 512 := (j 1).isLt
  have hx : (cfg2.win 3).xinj (grid2.coords t) j = ix2 (⟨(j 0).val, hj0⟩ : Fin 1024) (⟨(j 1).val, hj1⟩ : Fin 512) :=
    funext fun a => by match a with | ⟨0, _⟩ => rfl | ⟨1, _⟩ => rfl
  have hy : ((cfg2.win 3).blk t).view.emb j
      = ix2 (⟨(j 0).val, hj0⟩ : Fin 1024) (⟨(t.val / 8) * 512 + (j 1).val, by omega⟩ : Fin 2048) :=
    funext fun a => Fin.ext (by
      match a with
      | ⟨0, _⟩ => show win2_3.index t (0 : Fin 2) * 1024 + 1 * (j 0).val = (j 0).val; rw [e6]; omega
      | ⟨1, _⟩ => show win2_3.index t (1 : Fin 2) * 512 + 1 * (j 1).val = (t.val / 8) * 512 + (j 1).val; rw [e7]; omega)
  show ((at2 V c t.val t.isLt).1 : S1024x512.Idx → EReal) ((cfg2.win 3).xinj (grid2.coords t) j)
    = lin2 (V c main_v17) (V c main_v16) (V c main_v18) (((cfg2.win 3).blk t).view.emb j)
  rw [hx, hy]
  exact out2_at V c t h7 _ _ _ rfl

/-- An index of the array is in point t's block iff each coordinate is in the block's range on its axis. -/
theorem mem_blk2 (t : Fin cfg2.N) (i : S1024x2048.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v19).slice (win2_3.rect t)).set ↔ _
  rw [View.set_slice_whole, Rect.mem_set_unit]
  exact Iff.rfl

/-- The four blocks written back tile the array: column s is in column band s / 512, whose last reduction step writes it. -/
theorem cover2 (i : S1024x2048.Idx) : ∃ t : Fin cfg2.N, (cfg2.win 3).flush t = true ∧ i ∈ ((cfg2.win 3).blk t).view.set := by
  have hi0 : (i 0).val < 1024 := (i 0).isLt
  have hi1 : (i 1).val < 2048 := (i 1).isLt
  obtain ⟨t, ht7, htq⟩ := bands2_onto ⟨(i 1).val / 512, by omega⟩
  have htq' : t.val / 8 = (i 1).val / 512 := htq
  obtain ⟨e0, e1, e2, e3, e4, e5, e6, e7⟩ := bands2 t
  refine ⟨t, (flush2_3 t).mpr ht7, ?_⟩
  rw [mem_blk2]
  intro a
  match a with
  | ⟨0, _⟩ => show win2_3.index t (0 : Fin 2) * 1024 ≤ (i 0).val ∧ (i 0).val < win2_3.index t (0 : Fin 2) * 1024 + 1024; rw [e6]; omega
  | ⟨1, _⟩ => show win2_3.index t (1 : Fin 2) * 512 ≤ (i 1).val ∧ (i 1).val < win2_3.index t (1 : Fin 2) * 512 + 512; rw [e7]; omega

/-- THE RESULT ARRAY after the region: the output projection of the weights, the context and the bias, entry by entry. -/
theorem final2 (c : Dev nD) :
    (dat2 V c).arrAt 3 cfg2.N = lin2 (V c main_v17) (V c main_v16) (V c main_v18) :=
  (dat2 V c).arrAt_eq_of_cover 3 (lin2 (V c main_v17) (V c main_v16) (V c main_v18)) (fun t hf => flushed2_eq V c t hf) cover2

/-- The same with the three arrays named: the formula spelt out, entry by entry. -/
theorem final2_named (c : Dev nD) (W : S1024x8192.Idx → EReal) (X : S8192x2048.Idx → EReal) (B : S1024x1.Idx → EReal)
    (hW : W = V c main_v17) (hX : X = V c main_v16) (hB : B = V c main_v18) :
    (dat2 V c).arrAt 3 cfg2.N = fun i : S1024x2048.Idx => (∑ k : Fin 8192, W (ix2 (i 0) k) * X (ix2 k (i 1))) + B (ix2 (i 0) 0) := by
  subst hW; subst hX; subst hB
  exact final2 V c

end Cert.KernelIdeal.Hand

end
-- ==== Proof.KernelIdeal.Bridge0.lean ====
/-
  The fused projection against the three separate ones. The kernel stacks the three weight matrices (and the three
  biases) on top of one another, projects once, and cuts the result into three row bands; row 8192·p + r of the stack
  is row r of the p-th matrix, so band p is the projection by the p-th matrix and bias. Also the output bias as a
  column, and the two spellings of the output projection.
-/
import proofs.«150687_j35459249996685_2_alg».proof.Proof.KernelIdeal.Value0
import proofs.«150687_j35459249996685_2_alg».proof.Proof.Spec
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

/-- A vector cast to a column reads, at (j, 0), the vector at j. -/
theorem colB {n : ℕ} (b : (⟨1, ![n]⟩ : Shape).Idx → EReal) (j : Fin n) (h : (⟨1, ![n]⟩ : Shape).ShapeCasts ⟨2, ![n, 1]⟩) :
    shapeCast ⟨2, ![n, 1]⟩ b h (ix2 j 0) = b (ix1 j) :=
  shapeCast_apply b h (ix2 j 0) (ix1 j) (by
    rw [Shape.rowMajor_val_one, Shape.rowMajor_val_two]
    show j.val = j.val * 1 + 0
    omega)

section Band

variable (W0 W1 W2 : S8192x1024.Idx → EReal) (b0 b1 b2 : S8192.Idx → EReal) (X : S1024x2048.Idx → EReal)

theorem stackW_0 (r : Fin 8192) (k : Fin 1024) (j : Fin 24576) (hj : 0 + r.val = j.val) :
    concatenate S24576x1024 0 [⟨S8192x1024, W0⟩, ⟨S8192x1024, W1⟩, ⟨S8192x1024, W2⟩] concatenates_S8192x1024_S8192x1024_S8192x1024_S24576x1024_d0 (ix2 j k) = W0 (ix2 r k) :=
  concatenate_apply_piece 0 [⟨S8192x1024, W0⟩, ⟨S8192x1024, W1⟩, ⟨S8192x1024, W2⟩] concatenates_S8192x1024_S8192x1024_S8192x1024_S24576x1024_d0 (ix2 j k) 0 (by show 0 < 3; omega) S8192x1024 W0 rfl rfl 0 rfl (ix2 r k)
    (fun b => match b with | ⟨0, _⟩ => fun hb => absurd rfl hb | ⟨1, _⟩ => fun _ => rfl) hj
theorem stackB_0 (r : Fin 8192) (j : Fin 24576) (hj : 0 + r.val = j.val) :
    concatenate S24576 0 [⟨S8192, b0⟩, ⟨S8192, b1⟩, ⟨S8192, b2⟩] concatenates_S8192_S8192_S8192_S24576_d0 (ix1 j) = b0 (ix1 r) :=
  concatenate_apply_piece 0 [⟨S8192, b0⟩, ⟨S8192, b1⟩, ⟨S8192, b2⟩] concatenates_S8192_S8192_S8192_S24576_d0 (ix1 j) 0 (by show 0 < 3; omega) S8192 b0 rfl rfl 0 rfl (ix1 r)
    (fun b => match b with | ⟨0, _⟩ => fun hb => absurd rfl hb) hj
theorem stackW_1 (r : Fin 8192) (k : Fin 1024) (j : Fin 24576) (hj : 8192 + r.val = j.val) :
    concatenate S24576x1024 0 [⟨S8192x1024, W0⟩, ⟨S8192x1024, W1⟩, ⟨S8192x1024, W2⟩] concatenates_S8192x1024_S8192x1024_S8192x1024_S24576x1024_d0 (ix2 j k) = W1 (ix2 r k) :=
  concatenate_apply_piece 0 [⟨S8192x1024, W0⟩, ⟨S8192x1024, W1⟩, ⟨S8192x1024, W2⟩] concatenates_S8192x1024_S8192x1024_S8192x1024_S24576x1024_d0 (ix2 j k) 1 (by show 1 < 3; omega) S8192x1024 W1 rfl rfl 8192 rfl (ix2 r k)
    (fun b => match b with | ⟨0, _⟩ => fun hb => absurd rfl hb | ⟨1, _⟩ => fun _ => rfl) hj
theorem stackB_1 (r : Fin 8192) (j : Fin 24576) (hj : 8192 + r.val = j.val) :
    concatenate S24576 0 [⟨S8192, b0⟩, ⟨S8192, b1⟩, ⟨S8192, b2⟩] concatenates_S8192_S8192_S8192_S24576_d0 (ix1 j) = b1 (ix1 r) :=
  concatenate_apply_piece 0 [⟨S8192, b0⟩, ⟨S8192, b1⟩, ⟨S8192, b2⟩] concatenates_S8192_S8192_S8192_S24576_d0 (ix1 j) 1 (by show 1 < 3; omega) S8192 b1 rfl rfl 8192 rfl (ix1 r)
    (fun b => match b with | ⟨0, _⟩ => fun hb => absurd rfl hb) hj
theorem stackW_2 (r : Fin 8192) (k : Fin 1024) (j : Fin 24576) (hj : 16384 + r.val = j.val) :
    concatenate S24576x1024 0 [⟨S8192x1024, W0⟩, ⟨S8192x1024, W1⟩, ⟨S8192x1024, W2⟩] concatenates_S8192x1024_S8192x1024_S8192x1024_S24576x1024_d0 (ix2 j k) = W2 (ix2 r k) :=
  concatenate_apply_piece 0 [⟨S8192x1024, W0⟩, ⟨S8192x1024, W1⟩, ⟨S8192x1024, W2⟩] concatenates_S8192x1024_S8192x1024_S8192x1024_S24576x1024_d0 (ix2 j k) 2 (by show 2 < 3; omega) S8192x1024 W2 rfl rfl 16384 rfl (ix2 r k)
    (fun b => match b with | ⟨0, _⟩ => fun hb => absurd rfl hb | ⟨1, _⟩ => fun _ => rfl) hj
theorem stackB_2 (r : Fin 8192) (j : Fin 24576) (hj : 16384 + r.val = j.val) :
    concatenate S24576 0 [⟨S8192, b0⟩, ⟨S8192, b1⟩, ⟨S8192, b2⟩] concatenates_S8192_S8192_S8192_S24576_d0 (ix1 j) = b2 (ix1 r) :=
  concatenate_apply_piece 0 [⟨S8192, b0⟩, ⟨S8192, b1⟩, ⟨S8192, b2⟩] concatenates_S8192_S8192_S8192_S24576_d0 (ix1 j) 2 (by show 2 < 3; omega) S8192 b2 rfl rfl 16384 rfl (ix1 r)
    (fun b => match b with | ⟨0, _⟩ => fun hb => absurd rfl hb) hj

/-- Rows 0 … 8191 of the fused projection are the projection by the first weight matrix and bias. -/
theorem band_0 (hs : S24576x2048.Slices ![0, 0] S8192x2048) :
    extractStridedSlice S8192x2048 ![0, 0]
        (lin0 (((truncf (F := Ideal) .bf16 · bitsLt_bf16_f32) : (⟨S24576x1024, .f32⟩ : BufTy).Contents (Elt Ideal) → (⟨S24576x1024, .bf16⟩ : BufTy).Contents (Elt Ideal)) (concatenate S24576x1024 0 [⟨S8192x1024, W0⟩, ⟨S8192x1024, W1⟩, ⟨S8192x1024, W2⟩] concatenates_S8192x1024_S8192x1024_S8192x1024_S24576x1024_d0)) (((truncf (F := Ideal) .bf16 · bitsLt_bf16_f32) : (⟨S1024x2048, .f32⟩ : BufTy).Contents (Elt Ideal) → (⟨S1024x2048, .bf16⟩ : BufTy).Contents (Elt Ideal)) (X))
          (shapeCast S24576x1 (concatenate S24576 0 [⟨S8192, b0⟩, ⟨S8192, b1⟩, ⟨S8192, b2⟩] concatenates_S8192_S8192_S8192_S24576_d0) shapeCasts_S24576_S24576x1)) hs
      = fun i => lin (cur2 W0) (cur2 X) (cur1 b0) (i 0) (i 1) := by
  funext i
  obtain ⟨r, q, rfl⟩ : ∃ (r : Fin 8192) (q : Fin 2048), i = ix2 r q := ⟨i 0, i 1, eq_ix2 i⟩
  rw [slice2_axis0_eq]
  have hr : r.val < 8192 := r.isLt
  show (∑ k : Fin 1024, concatenate S24576x1024 0 [⟨S8192x1024, W0⟩, ⟨S8192x1024, W1⟩, ⟨S8192x1024, W2⟩] concatenates_S8192x1024_S8192x1024_S8192x1024_S24576x1024_d0 (ix2 ⟨0 + r.val, by omega⟩ k) * X (ix2 k q))
      + shapeCast S24576x1 (concatenate S24576 0 [⟨S8192, b0⟩, ⟨S8192, b1⟩, ⟨S8192, b2⟩] concatenates_S8192_S8192_S8192_S24576_d0) shapeCasts_S24576_S24576x1 (ix2 ⟨0 + r.val, by omega⟩ 0)
    = (∑ k : Fin 1024, W0 (ix2 r k) * X (ix2 k q)) + b0 (ix1 r)
  rw [colB (concatenate S24576 0 [⟨S8192, b0⟩, ⟨S8192, b1⟩, ⟨S8192, b2⟩] concatenates_S8192_S8192_S8192_S24576_d0) ⟨0 + r.val, by omega⟩, stackB_0 b0 b1 b2 r _ rfl]
  exact congrArg (· + _) (Finset.sum_congr rfl fun k _ => congrArg (· * _) (stackW_0 W0 W1 W2 r k _ rfl))

/-- Rows 8192 … 16383 of the fused projection are the projection by the second weight matrix and bias. -/
theorem band_1 (hs : S24576x2048.Slices ![8192, 0] S8192x2048) :
    extractStridedSlice S8192x2048 ![8192, 0]
        (lin0 (((truncf (F := Ideal) .bf16 · bitsLt_bf16_f32) : (⟨S24576x1024, .f32⟩ : BufTy).Contents (Elt Ideal) → (⟨S24576x1024, .bf16⟩ : BufTy).Contents (Elt Ideal)) (concatenate S24576x1024 0 [⟨S8192x1024, W0⟩, ⟨S8192x1024, W1⟩, ⟨S8192x1024, W2⟩] concatenates_S8192x1024_S8192x1024_S8192x1024_S24576x1024_d0)) (((truncf (F := Ideal) .bf16 · bitsLt_bf16_f32) : (⟨S1024x2048, .f32⟩ : BufTy).Contents (Elt Ideal) → (⟨S1024x2048, .bf16⟩ : BufTy).Contents (Elt Ideal)) (X))
          (shapeCast S24576x1 (concatenate S24576 0 [⟨S8192, b0⟩, ⟨S8192, b1⟩, ⟨S8192, b2⟩] concatenates_S8192_S8192_S8192_S24576_d0) shapeCasts_S24576_S24576x1)) hs
      = fun i => lin (cur2 W1) (cur2 X) (cur1 b1) (i 0) (i 1) := by
  funext i
  obtain ⟨r, q, rfl⟩ : ∃ (r : Fin 8192) (q : Fin 2048), i = ix2 r q := ⟨i 0, i 1, eq_ix2 i⟩
  rw [slice2_axis0_eq]
  have hr : r.val < 8192 := r.isLt
  show (∑ k : Fin 1024, concatenate S24576x1024 0 [⟨S8192x1024, W0⟩, ⟨S8192x1024, W1⟩, ⟨S8192x1024, W2⟩] concatenates_S8192x1024_S8192x1024_S8192x1024_S24576x1024_d0 (ix2 ⟨8192 + r.val, by omega⟩ k) * X (ix2 k q))
      + shapeCast S24576x1 (concatenate S24576 0 [⟨S8192, b0⟩, ⟨S8192, b1⟩, ⟨S8192, b2⟩] concatenates_S8192_S8192_S8192_S24576_d0) shapeCasts_S24576_S24576x1 (ix2 ⟨8192 + r.val, by omega⟩ 0)
    = (∑ k : Fin 1024, W1 (ix2 r k) * X (ix2 k q)) + b1 (ix1 r)
  rw [colB (concatenate S24576 0 [⟨S8192, b0⟩, ⟨S8192, b1⟩, ⟨S8192, b2⟩] concatenates_S8192_S8192_S8192_S24576_d0) ⟨8192 + r.val, by omega⟩, stackB_1 b0 b1 b2 r _ rfl]
  exact congrArg (· + _) (Finset.sum_congr rfl fun k _ => congrArg (· * _) (stackW_1 W0 W1 W2 r k _ rfl))

/-- Rows 16384 … 24575 of the fused projection are the projection by the third weight matrix and bias. -/
theorem band_2 (hs : S24576x2048.Slices ![16384, 0] S8192x2048) :
    extractStridedSlice S8192x2048 ![16384, 0]
        (lin0 (((truncf (F := Ideal) .bf16 · bitsLt_bf16_f32) : (⟨S24576x1024, .f32⟩ : BufTy).Contents (Elt Ideal) → (⟨S24576x1024, .bf16⟩ : BufTy).Contents (Elt Ideal)) (concatenate S24576x1024 0 [⟨S8192x1024, W0⟩, ⟨S8192x1024, W1⟩, ⟨S8192x1024, W2⟩] concatenates_S8192x1024_S8192x1024_S8192x1024_S24576x1024_d0)) (((truncf (F := Ideal) .bf16 · bitsLt_bf16_f32) : (⟨S1024x2048, .f32⟩ : BufTy).Contents (Elt Ideal) → (⟨S1024x2048, .bf16⟩ : BufTy).Contents (Elt Ideal)) (X))
          (shapeCast S24576x1 (concatenate S24576 0 [⟨S8192, b0⟩, ⟨S8192, b1⟩, ⟨S8192, b2⟩] concatenates_S8192_S8192_S8192_S24576_d0) shapeCasts_S24576_S24576x1)) hs
      = fun i => lin (cur2 W2) (cur2 X) (cur1 b2) (i 0) (i 1) := by
  funext i
  obtain ⟨r, q, rfl⟩ : ∃ (r : Fin 8192) (q : Fin 2048), i = ix2 r q := ⟨i 0, i 1, eq_ix2 i⟩
  rw [slice2_axis0_eq]
  have hr : r.val < 8192 := r.isLt
  show (∑ k : Fin 1024, concatenate S24576x1024 0 [⟨S8192x1024, W0⟩, ⟨S8192x1024, W1⟩, ⟨S8192x1024, W2⟩] concatenates_S8192x1024_S8192x1024_S8192x1024_S24576x1024_d0 (ix2 ⟨16384 + r.val, by omega⟩ k) * X (ix2 k q))
      + shapeCast S24576x1 (concatenate S24576 0 [⟨S8192, b0⟩, ⟨S8192, b1⟩, ⟨S8192, b2⟩] concatenates_S8192_S8192_S8192_S24576_d0) shapeCasts_S24576_S24576x1 (ix2 ⟨16384 + r.val, by omega⟩ 0)
    = (∑ k : Fin 1024, W2 (ix2 r k) * X (ix2 k q)) + b2 (ix1 r)
  rw [colB (concatenate S24576 0 [⟨S8192, b0⟩, ⟨S8192, b1⟩, ⟨S8192, b2⟩] concatenates_S8192_S8192_S8192_S24576_d0) ⟨16384 + r.val, by omega⟩, stackB_2 b0 b1 b2 r _ rfl]
  exact congrArg (· + _) (Finset.sum_congr rfl fun k _ => congrArg (· * _) (stackW_2 W0 W1 W2 r k _ rfl))

end Band

/-- The output projection with the bias as a column is the output projection with the bias as a vector. -/
theorem outCol (W : S1024x8192.Idx → EReal) (C : S8192x2048.Idx → EReal) (bo : S1024.Idx → EReal) :
    (fun i : S1024x2048.Idx => (∑ k : Fin 8192, W (ix2 (i 0) k) * C (ix2 k (i 1))) + shapeCast S1024x1 bo shapeCasts_S1024_S1024x1 (ix2 (i 0) 0))
      = fun i => out (cur2 W) (cur2 C) (cur1 bo) (i 0) (i 1) := by
  funext i
  rw [colB bo (i 0)]
  rfl

end Cert.KernelIdeal.Hand

end
-- ==== Proof.RefValue.lean ====
/-
  The reference program read against the specification, stage by stage, over the extended reals.

  Each of the three projections is a matrix product plus a bias broadcast along the columns; the attention core is a
  contraction over the channels scaled by 1/32, a softmax across the eight heads (the maximum over the heads is
  subtracted, the exponentials are divided by their sum over the heads), and a contraction over the key positions;
  the output is again a matrix product plus a bias broadcast along the columns. Every statement is an equality of
  arrays proved index by index: an index is split into its coordinates, each operation is read at the index, and
  the indices the operations compute are identified with the coordinates' own.
-/
import proofs.«150687_j35459249996685_2_alg».proof.Proof.Gen.ReferenceIdeal.Read
import proofs.«150687_j35459249996685_2_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Cert.Spec Idealize.ShloMosaic Idealize.ShloMosaic.ValueIdx

local notation "C[" S "]" => BufTy.Contents (Elt Ideal) (BufTy.mk S EltTy.f32)
local notation "V[" S "]" => FVec Ideal S FTy.f32

/-- A projection read at (r, c): the contraction of row r of the weights against column c of the tokens, plus the
    bias of row r (the bias is broadcast along the columns). -/
theorem q_eq (x0 : C[S1024x2048]) (x1 : C[S8192x1024]) (x2 : C[S8192]) :
    val_main_v3 (F := Ideal) x0 x1 x2 = fun i => lin (cur2 x1) (cur2 x0) (cur1 x2) (i 0) (i 1) := by
  funext i
  obtain ⟨r, c, rfl⟩ : ∃ r c, i = ix2 r c := ⟨i 0, i 1, eq_ix2 i⟩
  rw [val_main_v3_apply, val_main_v0_apply, val_main_v2_apply, val_main_v1_apply]
  have el : ∀ k : Fin 1024, lidx_main_v0 (ix2 r c) k = ix2 r k := fun k => funext fun a => by
    match a with | ⟨0, _⟩ => rfl | ⟨1, _⟩ => rfl
  have er : ∀ k : Fin 1024, ridx_main_v0 (ix2 r c) k = ix2 k c := fun k => funext fun a => by
    match a with | ⟨0, _⟩ => rfl | ⟨1, _⟩ => rfl
  have eb : idx_main_v1 (idx_main_v2 (ix2 r c)) = ix1 r := funext fun a => by
    match a with | ⟨0, _⟩ => rfl
  simp only [Ideal.addf_def, el, er, eb]
  rfl

/-- The keys' projection: the same operations on the keys' weights and bias. -/
theorem k_eq (x0 : C[S1024x2048]) (x3 : C[S8192x1024]) (x4 : C[S8192]) :
    val_main_v9 (F := Ideal) x0 x3 x4 = fun i => lin (cur2 x3) (cur2 x0) (cur1 x4) (i 0) (i 1) :=
  q_eq x0 x3 x4

/-- The values' projection: the same operations on the values' weights and bias. -/
theorem v_eq (x0 : C[S1024x2048]) (x5 : C[S8192x1024]) (x6 : C[S8192]) :
    val_main_v15 (F := Ideal) x0 x5 x6 = fun i => lin (cur2 x5) (cur2 x0) (cur1 x6) (i 0) (i 1) :=
  q_eq x0 x5 x6

/-! ## The attention core -/

/-- The scaled scores: the contraction of queries and keys over the channels, divided by the constant 32. -/
def refS (q k : V[S8x1024x2048]) : V[S8x2048x2048] :=
  Host.divf (Host.dotGeneral dot_S8x1024x2048_S8x1024x2048_S8x2048x2048_1_1_2_2_0_0 none q k)
    (broadcastInDim S8x2048x2048 ![] bcast_S_S8x2048x2048 (constant (F := Ideal) S_ .f32 0x42000000#32))

/-- The maximum over the heads, taken from −∞, and once more against −∞. -/
def refM (s : V[S8x2048x2048]) : V[S2048x2048] :=
  maximumf (broadcastInDim S2048x2048 ![] bcast_S_S2048x2048 (constant (F := Ideal) S_ .f32 0xFF800000#32))
    (Host.reduce FloatOps.maximumf s (constant (F := Ideal) S_ .f32 0xFF800000#32) reducesTo_S8x2048x2048_S2048x2048_d0 h_S_)

/-- A per-pair quantity repeated over the eight heads (a unit axis in front, then eight copies). -/
def keep (x : V[S2048x2048]) : V[S8x2048x2048] :=
  broadcastInDim S8x2048x2048 ![0, 1, 2] bcast_S1x2048x2048_S8x2048x2048_0_1_2
    (broadcastInDim S1x2048x2048 ![1, 2] bcast_S2048x2048_S1x2048x2048_1_2 x)

/-- The exponentials of the scores less their maximum over the heads. -/
def refE (s : V[S8x2048x2048]) : V[S8x2048x2048] :=
  Host.exp (subf s (keep (refM s)))

/-- The sum of the exponentials over the heads, from zero. -/
def refD (e : V[S8x2048x2048]) : V[S2048x2048] :=
  Host.reduceAdd e (constant (F := Ideal) S_ .f32 0x00000000#32) reducesTo_S8x2048x2048_S2048x2048_d0 h_S_

/-- The softmax weights: each exponential over the sum across the heads. -/
def refW (e : V[S8x2048x2048]) : V[S8x2048x2048] :=
  Host.divf e (keep (refD e))

/-- The context from the weights: the contraction of the values against them over the key positions. -/
def refC (v : V[S8x1024x2048]) (w : V[S8x2048x2048]) : V[S8x1024x2048] :=
  Host.dotGeneral dot_S8x1024x2048_S8x2048x2048_S8x1024x2048_2_2_1_1_0_0 none v w

/-- The attention core of the reference program: scores, softmax across the heads, and the contraction of the values
    against the weights over the key positions. -/
def refAtt (q k v : C[S8x1024x2048]) : C[S8x1024x2048] :=
  refC v (refW (refE (refS q k)))

/-- The program's context is the attention core of its three projections, reshaped and transposed. -/
theorem v32_eq (x0 : C[S1024x2048]) (x1 : C[S8192x1024]) (x2 : C[S8192]) (x3 : C[S8192x1024]) (x4 : C[S8192])
    (x5 : C[S8192x1024]) (x6 : C[S8192]) :
    val_main_v32 (F := Ideal) x0 x1 x2 x3 x4 x5 x6
      = refAtt (val_main_v5 (F := Ideal) x0 x1 x2) (val_main_v11 (F := Ideal) x0 x3 x4) (val_main_v17 (F := Ideal) x0 x5 x6) := rfl

/-- The pattern 0x42000000 is the real number 32. -/
theorem ofBits_32 : Ideal.ofBits .f32 0x42000000#32 = ((32 : ℝ) : EReal) := by
  simp [Ideal.ofBits, Ideal.ieee, -EReal.coe_mul]; norm_num

/-- The pattern 0xFF800000 is −∞. -/
theorem ofBits_bot : Ideal.ofBits .f32 0xFF800000#32 = (⊥ : EReal) := by
  simp [Ideal.ofBits, Ideal.ieee]

/-- The contraction of two (head, channel, position) arrays over the channels, at head h and positions (l, m). -/
theorem dotQK_apply (y0 y1 : V[S8x1024x2048]) (h : Fin 8) (l m : Fin 2048) :
    Host.dotGeneral dot_S8x1024x2048_S8x1024x2048_S8x2048x2048_1_1_2_2_0_0 none y0 y1 (ix3 h l m)
      = ∑ d : Fin 1024, y0 (ix3 h d l) * y1 (ix3 h d m) := by
  simp only [Host.dotGeneral]
  rw [Ideal.dotGeneral_apply, ← Equiv.sum_comp (contrEquiv1 dot_S8x1024x2048_S8x1024x2048_S8x2048x2048_1_1_2_2_0_0 1024 rfl rfl).symm]
  refine Finset.sum_congr rfl fun d _ => ?_
  have hd := contrEquiv1_symm_val dot_S8x1024x2048_S8x1024x2048_S8x2048x2048_1_1_2_2_0_0 1024 rfl rfl d
  have el : dot_S8x1024x2048_S8x1024x2048_S8x2048x2048_1_1_2_2_0_0.lhsIdx (ix3 h l m) ((contrEquiv1 dot_S8x1024x2048_S8x1024x2048_S8x2048x2048_1_1_2_2_0_0 1024 rfl rfl).symm d) = ix3 h d l := funext fun a => Fin.ext (by
    match a with
    | ⟨0, _⟩ => exact lhs_main_v18_0 _ _
    | ⟨1, _⟩ => exact (lhs_main_v18_1 _ _).trans hd
    | ⟨2, _⟩ => exact lhs_main_v18_2 _ _)
  have er : dot_S8x1024x2048_S8x1024x2048_S8x2048x2048_1_1_2_2_0_0.rhsIdx (ix3 h l m) ((contrEquiv1 dot_S8x1024x2048_S8x1024x2048_S8x2048x2048_1_1_2_2_0_0 1024 rfl rfl).symm d) = ix3 h d m := funext fun a => Fin.ext (by
    match a with
    | ⟨0, _⟩ => exact rhs_main_v18_0 _ _
    | ⟨1, _⟩ => exact (rhs_main_v18_1 _ _).trans hd
    | ⟨2, _⟩ => exact rhs_main_v18_2 _ _)
  rw [el, er]

/-- The scaled score at (h, l, m): dividing by 32 is multiplying by 1/32. -/
theorem refS_apply (q k : V[S8x1024x2048]) (h : Fin 8) (l m : Fin 2048) :
    refS q k (ix3 h l m) = score (cur3 q) (cur3 k) h l m := by
  have hb : broadcastInDim S8x2048x2048 ![] bcast_S_S8x2048x2048 (constant (F := Ideal) S_ .f32 0x42000000#32) (ix3 h l m)
      = ((32 : ℝ) : EReal) := by
    rw [broadcastInDim_apply _ bcast_S_S8x2048x2048 _ (ix3 h l m) ix0 (fun a => a.elim0)]
    exact ofBits_32
  show Ideal.div (Host.dotGeneral dot_S8x1024x2048_S8x1024x2048_S8x2048x2048_1_1_2_2_0_0 none q k (ix3 h l m))
      (broadcastInDim S8x2048x2048 ![] bcast_S_S8x2048x2048 (constant (F := Ideal) S_ .f32 0x42000000#32) (ix3 h l m)) = _
  rw [hb, dotQK_apply, Ideal.div_coe (by norm_num : (32 : ℝ) ≠ 0)]
  rfl

/-- A pair (l, m) with the head k put in front is (k, l, m). -/
theorem lift_ix3 (hr : S8x2048x2048.Reduces [0] S2048x2048) (l m : Fin 2048) (k : Fin (S8x2048x2048.size 0)) :
    hr.lift (ix2 l m) k = ix3 (⟨k.val, k.isLt⟩ : Fin 8) l m := by
  funext c; apply Fin.ext
  match c with
  | ⟨0, _⟩ => rfl
  | ⟨1, _⟩ => rfl
  | ⟨2, _⟩ => rfl

/-- The maximum over the heads at the pair (l, m): the fold of max from −∞ over the eight heads (the second maximum
    against −∞ changes nothing). -/
theorem refM_apply (s : V[S8x2048x2048]) (l m : Fin 2048) :
    refM s (ix2 l m) = (Finset.univ : Finset (Fin 8)).fold max ⊥ fun h => s (ix3 h l m) := by
  have hr : S8x2048x2048.Reduces [0] S2048x2048 := by decide
  have hb : broadcastInDim S2048x2048 ![] bcast_S_S2048x2048 (constant (F := Ideal) S_ .f32 0xFF800000#32) (ix2 l m)
      = (⊥ : EReal) := by
    rw [broadcastInDim_apply _ bcast_S_S2048x2048 _ (ix2 l m) ix0 (fun a => a.elim0)]
    exact ofBits_bot
  have h0 : (constant (F := Ideal) S_ .f32 0xFF800000#32) (Shape.Idx.first h_S_) = (⊥ : EReal) := ofBits_bot
  have hf : (s ∘ hr.lift (ix2 l m)) = fun h : Fin 8 => s (ix3 h l m) := funext fun k => congrArg s (lift_ix3 hr l m k)
  unfold refM
  rw [maximumf_apply, hb, max_bot_left,
    Host.reduce_eq_fold_single FloatOps.maximumf s _ reducesTo_S8x2048x2048_S2048x2048_d0 hr h_S_, h0]
  exact congrArg (fun f => Finset.fold max (⊥ : EReal) f (Finset.univ : Finset (Fin 8))) hf

/-- A per-pair quantity repeated over the heads, read at (h, l, m), is the quantity at (l, m). -/
theorem keep_apply (x : V[S2048x2048]) (h : Fin 8) (l m : Fin 2048) : keep x (ix3 h l m) = x (ix2 l m) :=
  (broadcastInDim_apply _ bcast_S1x2048x2048_S8x2048x2048_0_1_2 _ (ix3 h l m) (ix3 (0 : Fin 1) l m) (fun a => match a with
    | ⟨0, _⟩ => by show 0 = if (1 : Nat) = 1 then 0 else h.val; rw [if_pos rfl]
    | ⟨1, _⟩ => by show l.val = if (2048 : Nat) = 1 then 0 else l.val; rw [if_neg (by decide)]
    | ⟨2, _⟩ => by show m.val = if (2048 : Nat) = 1 then 0 else m.val; rw [if_neg (by decide)])).trans
  (broadcastInDim_apply _ bcast_S2048x2048_S1x2048x2048_1_2 x (ix3 (0 : Fin 1) l m) (ix2 l m) (fun a => match a with
    | ⟨0, _⟩ => by show l.val = if (2048 : Nat) = 1 then 0 else l.val; rw [if_neg (by decide)]
    | ⟨1, _⟩ => by show m.val = if (2048 : Nat) = 1 then 0 else m.val; rw [if_neg (by decide)]))

/-- The exponential at (h, l, m): of the score less the maximum over the heads at (l, m). -/
theorem refE_apply (s : V[S8x2048x2048]) (h : Fin 8) (l m : Fin 2048) :
    refE s (ix3 h l m) = Ideal.exp (s (ix3 h l m) - refM s (ix2 l m)) := by
  show Ideal.exp (s (ix3 h l m) - keep (refM s) (ix3 h l m)) = _
  rw [keep_apply]

/-- The sum over the heads at the pair (l, m), from zero. -/
theorem refD_apply (e : V[S8x2048x2048]) (l m : Fin 2048) :
    refD e (ix2 l m) = ∑ h : Fin 8, e (ix3 h l m) := by
  have hr : S8x2048x2048.Reduces [0] S2048x2048 := by decide
  unfold refD
  simp only [Host.reduceAdd, Ideal.hostReduceAdd_def]
  rw [Ideal.hostReduceAdd_single reducesTo_S8x2048x2048_S2048x2048_d0 hr]
  have h0 : (constant (F := Ideal) S_ .f32 0x00000000#32) (Shape.Idx.first h_S_) = (0 : EReal) := Ideal.ofBits_zero_f32
  rw [h0, zero_add]
  refine Finset.sum_congr rfl fun k _ => ?_
  exact congrArg e (lift_ix3 hr l m k)

/-- The softmax weight at (h, l, m): the exponential over the sum of the eight at (l, m). -/
theorem refW_apply (e : V[S8x2048x2048]) (h : Fin 8) (l m : Fin 2048) :
    refW e (ix3 h l m) = Ideal.div (e (ix3 h l m)) (∑ h' : Fin 8, e (ix3 h' l m)) := by
  show Ideal.div (e (ix3 h l m)) (keep (refD e) (ix3 h l m)) = _
  rw [keep_apply, refD_apply]

/-- The contraction of the values against the weights over the key positions, at head h, channel d and query position l. -/
theorem refC_apply (v : V[S8x1024x2048]) (w : V[S8x2048x2048]) (h : Fin 8) (d : Fin 1024) (l : Fin 2048) :
    refC v w (ix3 h d l) = ∑ m : Fin 2048, v (ix3 h d m) * w (ix3 h l m) := by
  unfold refC
  simp only [Host.dotGeneral]
  rw [Ideal.dotGeneral_apply, ← Equiv.sum_comp (contrEquiv1 dot_S8x1024x2048_S8x2048x2048_S8x1024x2048_2_2_1_1_0_0 2048 rfl rfl).symm]
  refine Finset.sum_congr rfl fun m _ => ?_
  have hm := contrEquiv1_symm_val dot_S8x1024x2048_S8x2048x2048_S8x1024x2048_2_2_1_1_0_0 2048 rfl rfl m
  have el : dot_S8x1024x2048_S8x2048x2048_S8x1024x2048_2_2_1_1_0_0.lhsIdx (ix3 h d l) ((contrEquiv1 dot_S8x1024x2048_S8x2048x2048_S8x1024x2048_2_2_1_1_0_0 2048 rfl rfl).symm m) = ix3 h d m := funext fun a => Fin.ext (by
    match a with
    | ⟨0, _⟩ => exact lhs_main_v32_0 _ _
    | ⟨1, _⟩ => exact lhs_main_v32_1 _ _
    | ⟨2, _⟩ => exact (lhs_main_v32_2 _ _).trans hm)
  have er : dot_S8x1024x2048_S8x2048x2048_S8x1024x2048_2_2_1_1_0_0.rhsIdx (ix3 h d l) ((contrEquiv1 dot_S8x1024x2048_S8x2048x2048_S8x1024x2048_2_2_1_1_0_0 2048 rfl rfl).symm m) = ix3 h l m := funext fun a => Fin.ext (by
    match a with
    | ⟨0, _⟩ => exact rhs_main_v32_0 _ _
    | ⟨1, _⟩ => exact rhs_main_v32_1 _ _
    | ⟨2, _⟩ => exact (rhs_main_v32_2 _ _).trans hm)
  rw [el, er]

/-- The attention core is the specification's: at head h, channel d and query position l, the values weighted by the
    softmax across the heads of the scaled scores, summed over the key positions. -/
theorem refAtt_eq (q k v : C[S8x1024x2048]) :
    refAtt q k v = fun i => att (cur3 q) (cur3 k) (cur3 v) (i 0) (i 1) (i 2) := by
  funext i
  obtain ⟨h, d, l, rfl⟩ : ∃ h d l, i = ix3 h d l := ⟨i 0, i 1, i 2, eq_ix3 i⟩
  show refC v (refW (refE (refS q k))) (ix3 h d l) = att (cur3 q) (cur3 k) (cur3 v) h d l
  rw [refC_apply]
  refine Finset.sum_congr rfl fun m _ => ?_
  rw [refW_apply]
  simp only [refE_apply, refM_apply, refS_apply]
  rfl

/-! ## The output projection -/

/-- The output projection read at (r, c): row r of the output weights against column c of the merged heads, plus the
    bias of row r. -/
theorem out_eq (x0 : C[S1024x2048]) (x1 : C[S8192x1024]) (x2 : C[S8192]) (x3 : C[S8192x1024]) (x4 : C[S8192])
    (x5 : C[S8192x1024]) (x6 : C[S8192]) (x7 : C[S1024x8192]) (x8 : C[S1024]) :
    val_main_v37 (F := Ideal) x0 x1 x2 x3 x4 x5 x6 x7 x8
      = fun i => out (cur2 x7) (cur2 (val_main_v33 (F := Ideal) x0 x1 x2 x3 x4 x5 x6)) (cur1 x8) (i 0) (i 1) := by
  funext i
  obtain ⟨r, c, rfl⟩ : ∃ r c, i = ix2 r c := ⟨i 0, i 1, eq_ix2 i⟩
  rw [val_main_v37_apply, val_main_v34_apply, val_main_v36_apply, val_main_v35_apply]
  generalize val_main_v33 (F := Ideal) x0 x1 x2 x3 x4 x5 x6 = y
  have el : ∀ k : Fin 8192, lidx_main_v34 (ix2 r c) k = ix2 r k := fun k => funext fun a => by
    match a with | ⟨0, _⟩ => rfl | ⟨1, _⟩ => rfl
  have er : ∀ k : Fin 8192, ridx_main_v34 (ix2 r c) k = ix2 k c := fun k => funext fun a => by
    match a with | ⟨0, _⟩ => rfl | ⟨1, _⟩ => rfl
  have eb : idx_main_v35 (idx_main_v36 (ix2 r c)) = ix1 r := funext fun a => by
    match a with | ⟨0, _⟩ => rfl
  simp only [Ideal.addf_def, el, er, eb]
  rfl

end Cert.RefValue

end
-- ==== Proof.KernelIdeal.Result.lean ====
/-
  The kernel's result array, at the ideal values, is the reference's result term of the same argument arrays.
  Region 0 leaves the fused projection, whose three row bands are the three projections; each band is split into heads
  by the same reshape and transpose on both sides; region 1 leaves the context of those; the heads are merged by the
  same reshape; region 2 leaves the output projection of that. The reference's term reads the same three stages.
-/
import proofs.«150687_j35459249996685_2_alg».proof.Proof.KernelIdeal.Entries
import proofs.«150687_j35459249996685_2_alg».proof.Proof.KernelIdeal.Value0
import proofs.«150687_j35459249996685_2_alg».proof.Proof.KernelIdeal.Value1
import proofs.«150687_j35459249996685_2_alg».proof.Proof.KernelIdeal.Value2
import proofs.«150687_j35459249996685_2_alg».proof.Proof.KernelIdeal.Bridge0
import proofs.«150687_j35459249996685_2_alg».proof.Proof.RefValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Spec Idealize.ShloMosaic.ValueIdx

variable (m : (ℓ : Loc nD τ sig) → Buf (Elt Ideal) ℓ) (ρ : Dev nD → PrngReg)

/-- What region 0 leaves: the fused projection of the arrays it was entered with. -/
theorem leaves0 (c : Dev nD) : W2 m ρ c (Proc.devRef .tc main_v5) = lin0 (E1 m ρ c main_v2) (E1 m ρ c main_v0) (E1 m ρ c main_v4) :=
  (W2_arr m ρ c 3).trans (final0 (E1 m ρ) c)

/-- Region 1 is entered with the three projections, each split into heads. -/
theorem entered1_q (c : Dev nD) : E3 m ρ c main_v10 = transpose S8x1024x2048 [1, 2, 0] (shapeCast S2048x8x1024 (fun i : S8192x2048.Idx => lin (cur2 (m ((c : Thread nD τ).loc main_arg1))) (cur2 (m ((c : Thread nD τ).loc main_arg0))) (cur1 (m ((c : Thread nD τ).loc main_arg2))) (i 0) (i 1)) shapeCasts_S8192x2048_S2048x8x1024) transposes_S2048x8x1024_S8x1024x2048_1_2_0 := by
  rw [entry1_q, leaves0, entry0_w, entry0_x, entry0_b, band_0]
theorem entered1_k (c : Dev nD) : E3 m ρ c main_v12 = transpose S8x1024x2048 [1, 2, 0] (shapeCast S2048x8x1024 (fun i : S8192x2048.Idx => lin (cur2 (m ((c : Thread nD τ).loc main_arg3))) (cur2 (m ((c : Thread nD τ).loc main_arg0))) (cur1 (m ((c : Thread nD τ).loc main_arg4))) (i 0) (i 1)) shapeCasts_S8192x2048_S2048x8x1024) transposes_S2048x8x1024_S8x1024x2048_1_2_0 := by
  rw [entry1_k, leaves0, entry0_w, entry0_x, entry0_b, band_1]
theorem entered1_v (c : Dev nD) : E3 m ρ c main_v14 = transpose S8x1024x2048 [1, 2, 0] (shapeCast S2048x8x1024 (fun i : S8192x2048.Idx => lin (cur2 (m ((c : Thread nD τ).loc main_arg5))) (cur2 (m ((c : Thread nD τ).loc main_arg0))) (cur1 (m ((c : Thread nD τ).loc main_arg6))) (i 0) (i 1)) shapeCasts_S8192x2048_S2048x8x1024) transposes_S2048x8x1024_S8x1024x2048_1_2_0 := by
  rw [entry1_v, leaves0, entry0_w, entry0_x, entry0_b, band_2]

/-- What region 1 leaves: the context of the arrays it was entered with. -/
theorem leaves1 (c : Dev nD) : W4 m ρ c (Proc.devRef .tc main_v15) = ctx (E3 m ρ) c :=
  (W4_arr m ρ c 3).trans (final1 (E3 m ρ) c)

/-- What region 2 leaves: the output projection of the merged context. -/
theorem leaves2 (c : Dev nD) : W6 m ρ c (Proc.devRef .tc main_v19)
    = lin2 (E5 m ρ c main_v17) (E5 m ρ c main_v16) (E5 m ρ c main_v18) :=
  (W6_result m ρ c).trans (final2 (E5 m ρ) c)

/-- THE RESULT: the kernel's result array is the reference's result term of the launch arrays. -/
theorem result_eq (c : Dev nD) :
    W6 m ρ c (Proc.devRef .tc main_v19)
      = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [leaves2, entry2_w, entry2_x, entry2_b, W4_arg7, W4_arg8, leaves1]
  rw [Cert.RefValue.out_eq]
  unfold Cert.ReferenceIdeal.Read.val_main_v33
  rw [Cert.RefValue.v32_eq, Cert.RefValue.refAtt_eq]
  unfold Cert.ReferenceIdeal.Read.val_main_v5 Cert.ReferenceIdeal.Read.val_main_v11 Cert.ReferenceIdeal.Read.val_main_v17
    Cert.ReferenceIdeal.Read.val_main_v4 Cert.ReferenceIdeal.Read.val_main_v10 Cert.ReferenceIdeal.Read.val_main_v16
  rw [Cert.RefValue.q_eq, Cert.RefValue.k_eq, Cert.RefValue.v_eq]
  unfold ctx
  rw [entered1_q, entered1_k, entered1_v]
  refine (outCol _ _ _).trans ?_
  rfl

end Cert.KernelIdeal.Hand

end
-- ==== Proof.lean ====
/-
  The certificate's five claims for the multi-head attention kernel against its reference.

  Both printed kernels (as printed, and idealized: the same text) are three regions among three stretches of host
  operations; their frames are the whole program's run with every unscoped buffer followed from the launch to the end:
  the nine argument arrays are written by nothing. The reference is a straight line of host operations, its frame its
  run with the result dropped. The idealization rewrote nothing. At the ideal values the kernel's result array — the
  output projection region's write-backs — is the reference's result term of the same arguments: the fused projection's
  row bands are the three projections, the attention region's accumulation over key tiles is the whole sum over key
  positions, the output region's accumulation over channel bands is the whole contraction, the scale 1/32 as a factor
  is the division by 32, and a maximum with −∞ is the other operand.
-/
import proofs.«150687_j35459249996685_2_alg».proof.Defs
import proofs.«150687_j35459249996685_2_alg».proof.Proof.Gen.Kernel
import proofs.«150687_j35459249996685_2_alg».proof.Proof.Gen.KernelIdeal
import proofs.«150687_j35459249996685_2_alg».proof.Proof.Gen.ReferenceIdeal
import proofs.«150687_j35459249996685_2_alg».proof.Proof.Gen.ReferenceIdeal.Run
import proofs.«150687_j35459249996685_2_alg».proof.Proof.Gen.ReferenceIdeal.Read
import proofs.«150687_j35459249996685_2_alg».proof.Proof.Gen.Pre_finite_inputs
import proofs.«150687_j35459249996685_2_alg».proof.Proof.Kernel.Run
import proofs.«150687_j35459249996685_2_alg».proof.Proof.KernelIdeal.Run
import proofs.«150687_j35459249996685_2_alg».proof.Proof.KernelIdeal.Result
import Idealize.ShloMosaic.Adequacy
import Idealize.ShloMosaic.Init

noncomputable section

namespace Cert.Proof

open Idealize.ShloMosaic Idealize.ShloMosaic.TcCoe Idealize.SL.Sem

/-- The kernel as printed: the run at the bit-exact values, read at the argument arrays. -/
theorem frame_kernel : Cert.frame_Kernel := fun m ρ _ => Cert.Kernel.Hand.frame_all (F := Bits) m ρ

/-- The idealized kernel: the same run at the ideal values. -/
theorem frame_kernelIdeal : Cert.frame_KernelIdeal := fun m ρ _ => Cert.KernelIdeal.Hand.frame_all (F := Ideal) m ρ

/-- The reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values, from memories agreeing on the arguments, both programs end with the same result array. -/
theorem algebraic : Cert.algebraic_KernelIdeal_ReferenceIdeal := by
  intro m ρ m' ρ' _ hagree
  refine ⟨fun c => Cert.KernelIdeal.Hand.W6 m ρ c (Proc.devRef .tc Cert.KernelIdeal.main_v19), ?_, ?_⟩
  · exact (θ_run Cert.KernelIdeal.defs _ _).mono (fun r h c => ⟨h c _ (Cert.KernelIdeal.Hand.mem_uc Cert.KernelIdeal.main_v19 (by decide)),
      (h c _ (Cert.KernelIdeal.Hand.mem_uc Cert.KernelIdeal.main_arg0 (by decide))).trans (Cert.KernelIdeal.Hand.W6_launch m ρ c Cert.KernelIdeal.main_arg0 (by decide) (by decide) (by decide) (by decide) (by decide) (by decide)),
      (h c _ (Cert.KernelIdeal.Hand.mem_uc Cert.KernelIdeal.main_arg1 (by decide))).trans (Cert.KernelIdeal.Hand.W6_launch m ρ c Cert.KernelIdeal.main_arg1 (by decide) (by decide) (by decide) (by decide) (by decide) (by decide)),
      (h c _ (Cert.KernelIdeal.Hand.mem_uc Cert.KernelIdeal.main_arg2 (by decide))).trans (Cert.KernelIdeal.Hand.W6_launch m ρ c Cert.KernelIdeal.main_arg2 (by decide) (by decide) (by decide) (by decide) (by decide) (by decide)),
      (h c _ (Cert.KernelIdeal.Hand.mem_uc Cert.KernelIdeal.main_arg3 (by decide))).trans (Cert.KernelIdeal.Hand.W6_launch m ρ c Cert.KernelIdeal.main_arg3 (by decide) (by decide) (by decide) (by decide) (by decide) (by decide)),
      (h c _ (Cert.KernelIdeal.Hand.mem_uc Cert.KernelIdeal.main_arg4 (by decide))).trans (Cert.KernelIdeal.Hand.W6_launch m ρ c Cert.KernelIdeal.main_arg4 (by decide) (by decide) (by decide) (by decide) (by decide) (by decide)),
      (h c _ (Cert.KernelIdeal.Hand.mem_uc Cert.KernelIdeal.main_arg5 (by decide))).trans (Cert.KernelIdeal.Hand.W6_launch m ρ c Cert.KernelIdeal.main_arg5 (by decide) (by decide) (by decide) (by decide) (by decide) (by decide)),
      (h c _ (Cert.KernelIdeal.Hand.mem_uc Cert.KernelIdeal.main_arg6 (by decide))).trans (Cert.KernelIdeal.Hand.W6_launch m ρ c Cert.KernelIdeal.main_arg6 (by decide) (by decide) (by decide) (by decide) (by decide) (by decide)),
      (h c _ (Cert.KernelIdeal.Hand.mem_uc Cert.KernelIdeal.main_arg7 (by decide))).trans (Cert.KernelIdeal.Hand.W6_launch m ρ c Cert.KernelIdeal.main_arg7 (by decide) (by decide) (by decide) (by decide) (by decide) (by decide)),
      (h c _ (Cert.KernelIdeal.Hand.mem_uc Cert.KernelIdeal.main_arg8 (by decide))).trans (Cert.KernelIdeal.Hand.W6_launch m ρ c Cert.KernelIdeal.main_arg8 (by decide) (by decide) (by decide) (by decide) (by decide) (by decide))⟩) (Cert.KernelIdeal.Hand.run_all (F := Ideal) m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v37_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
